-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x1024 : Shape := ⟨2, ![256, 1024]⟩
abbrev S1024 : Shape := ⟨1, ![1024]⟩
abbrev S1024x1024 : Shape := ⟨2, ![1024, 1024]⟩
abbrev S1024x256 : Shape := ⟨2, ![1024, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x256 .f32) (main_arg10 : FVec F S256 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x256 .f32 := Host.absf main_arg9
  let main_cst_16 : FVec F S_ .f32 := constant S_ .f32 0x7F800000#32
  let main_v45 : FVec F S1024x256 .f32 := broadcastInDim S1024x256 ![] bcast_S_S1024x256 main_cst_16
  let main_v46 : IVec S1024x256 1 := cmpf .olt main_v44 main_v45
  let main_c_17 : IVec S_ 1 := constantI S_ 1 1#1
  let main_v47 : IVec S_ 1 := (fun x v => Host.reduce IntOp.andi x v reducesTo_S1024x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x256 .f32) (main_arg10 : FVec F S256 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x2048x256 .f32) (main_arg1 : FVec F S256x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x256 .f32) (main_arg10 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S8x2048x256 : Shape := ⟨3, ![8, 2048, 256]⟩
abbrev S256x1024 : Shape := ⟨2, ![256, 1024]⟩
abbrev S1024 : Shape := ⟨1, ![1024]⟩
abbrev S1024x1024 : Shape := ⟨2, ![1024, 1024]⟩
abbrev S1024x256 : Shape := ⟨2, ![1024, 256]⟩
abbrev S256 : Shape := ⟨1, ![256]⟩
abbrev S1x1024 : Shape := ⟨2, ![1, 1024]⟩
abbrev S1x256 : Shape := ⟨2, ![1, 256]⟩
abbrev S8x1x256 : Shape := ⟨3, ![8, 1, 256]⟩
abbrev S8x256 : Shape := ⟨2, ![8, 256]⟩
abbrev S8x1024 : Shape := ⟨2, ![8, 1024]⟩
abbrev S8x1x1024 : Shape := ⟨3, ![8, 1, 1024]⟩
abbrev S1x512x256 : Shape := ⟨3, ![1, 512, 256]⟩
abbrev S1x1x1024 : Shape := ⟨3, ![1, 1, 1024]⟩
abbrev S1x1x256 : Shape := ⟨3, ![1, 1, 256]⟩
abbrev S1x1 : Shape := ⟨2, ![1, 1]⟩
abbrev S512x256 : Shape := ⟨2, ![512, 256]⟩
abbrev S512x1024 : Shape := ⟨2, ![512, 1024]⟩
abbrev S1x512 : Shape := ⟨2, ![1, 512]⟩
abbrev S1 : Shape := ⟨1, ![1]⟩

abbrev nBuf : Space → Nat
  | .hbm => 36
  | .vmem => 17
  | .smem => 0
  | _ => 0

abbrev bufTy : (tb : Table) → Fin (tcTables nBuf tb) → BufTy
  | .hbm, ⟨0, _⟩ => ⟨S8x2048x256, .f32⟩
  | .hbm, ⟨1, _⟩ => ⟨S256x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x256, .f32⟩
  | .hbm, ⟨10, _⟩ => ⟨S256, .f32⟩
  | .hbm, ⟨11, _⟩ => ⟨S256x1024, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x256, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x256, .f32⟩
  | .hbm, ⟨20, _⟩ => ⟨S8x1x256, .f32⟩
  | .hbm, ⟨21, _⟩ => ⟨S8x256, .f32⟩
  | .hbm, ⟨22, _⟩ => ⟨S8x256, .bf16⟩
  | .hbm, ⟨23, _⟩ => ⟨S8x1024, .f32⟩
  | .hbm, ⟨24, _⟩ => ⟨S1x1024, .f32⟩
  | .hbm, ⟨25, _⟩ => ⟨S8x1024, .f32⟩
  | .hbm, ⟨26, _⟩ => ⟨S8x1024, .f32⟩
  | .hbm, ⟨27, _⟩ => ⟨S8x1024, .bf16⟩
  | .hbm, ⟨28, _⟩ => ⟨S8x1024, .f32⟩
  | .hbm, ⟨29, _⟩ => ⟨S1x1024, .f32⟩
  | .hbm, ⟨30, _⟩ => ⟨S8x1024, .f32⟩
  | .hbm, ⟨31, _⟩ => ⟨S8x1024, .f32⟩
  | .hbm, ⟨32, _⟩ => ⟨S8x1024, .bf16⟩
  | .hbm, ⟨33, _⟩ => ⟨S8x1x1024, .bf16⟩
  | .hbm, ⟨34, _⟩ => ⟨S8x1x256, .f32⟩
  | .hbm, ⟨35, _⟩ => ⟨S8x256, .f32⟩
  | .local _ .vmem, ⟨0, _⟩ => ⟨S1x512x256, .f32⟩
  | .local _ .vmem, ⟨1, _⟩ => ⟨S1x512x256, .f32⟩
  | .local _ .vmem, ⟨2, _⟩ => ⟨S1x1x1024, .bf16⟩
  | .local _ .vmem, ⟨3, _⟩ => ⟨S1x1x1024, .bf16⟩
  | .local _ .vmem, ⟨4, _⟩ => ⟨S256x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x256, .bf16⟩
  | .local _ .vmem, ⟨11, _⟩ => ⟨S1x256, .f32⟩
  | .local _ .vmem, ⟨12, _⟩ => ⟨S1x1x256, .f32⟩
  | .local _ .vmem, ⟨13, _⟩ => ⟨S1x1x256, .f32⟩
  | .local _ .vmem, ⟨14, _⟩ => ⟨S1x1, .f32⟩
  | .local _ .vmem, ⟨15, _⟩ => ⟨S1x1, .f32⟩
  | .local _ .vmem, ⟨16, _⟩ => ⟨S1x1024, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v65 : BitVec 1 := Scalar.cmpi .eq arg1 c3_i32
  let v66 : BitVec 32 := Scalar.extui v65
  let c0_i32_39 : BitVec 32 := 0#32
  let v67 : BitVec 1 := Scalar.cmpi .ne v66 c0_i32_39
  v67

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  bitsLt_bf16_f32 : FTy.bits .bf16 < FTy.bits .f32
  shapeCasts_S1024_S1x1024 : S1024.ShapeCasts S1x1024
  shapeCasts_S256_S1x256 : S256.ShapeCasts S1x256
  slices_S8x2048x256_S8x1x256_0_2047_0 : S8x2048x256.Slices ![0, 2047, 0] S8x1x256
  shapeCasts_S8x1x256_S8x256 : S8x1x256.ShapeCasts S8x256
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  shapeCasts_S8x1024_S8x1x1024 : S8x1024.ShapeCasts S8x1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  broadcasts_S1x1024_S512x1024 : S1x1024.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  reduces_S1x512_S1 : S1x512.Reduces [1] S1
  shapeCasts_S1_S1x1 : S1.ShapeCasts S1x1
  broadcasts_S1x1_S1x512 : S1x1.Broadcasts S1x512
  broadcasts_S1x1_S1x1024 : S1x1.Broadcasts S1x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  dot_S8x256_S256x1024_S8x1024_1_0_0_1_n_n_wf : DotDims.WF S8x256 S256x1024 S8x1024 [1] [0] [0] [1] [] []
  dot_S8x1024_S1024x1024_S8x1024_1_0_0_1_n_n_wf : DotDims.WF S8x1024 S1024x1024 S8x1024 [1] [0] [0] [1] [] []
  dot_S512x256_S256x1024_S512x1024_1_0_0_1_n_n_wf : DotDims.WF S512x256 S256x1024 S512x1024 [1] [0] [0] [1] [] []
  dot_S512x1024_S1024x1024_S512x1024_1_0_0_1_n_n_wf : DotDims.WF S512x1024 S1024x1024 S512x1024 [1] [0] [0] [1] [] []
  dot_S1x1024_S512x1024_S1x512_1_1_0_0_n_n_wf : DotDims.WF S1x1024 S512x1024 S1x512 [1] [1] [0] [0] [] []
  dot_S1x512_S512x1024_S1x1024_1_0_0_1_n_n_wf : DotDims.WF S1x512 S512x1024 S1x1024 [1] [0] [0] [1] [] []
  dot_S1x1024_S1024x256_S1x256_1_0_0_1_n_n_wf : DotDims.WF S1x1024 S1024x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x2048x256.size a
  hwx0_0 : ∀ i : grid0.Coords, EltTy.bits .f32 = 32 ∨ (Rect.block (s := S8x2048x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S8x1x1024.size a
  hwx0_1 : ∀ i : grid0.Coords, EltTy.bits .bf16 = 32 ∨ (Rect.block (s := S8x1x1024) S1x1x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S1024x256.size a
  hwx0_8 : ∀ i : grid0.Coords, EltTy.bits .bf16 = 32 ∨ (Rect.block (s := S1024x256) S1024x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x256.size a ≤ S8x1x256.size a
  hwx0_10 : ∀ i : grid0.Coords, EltTy.bits .f32 = 32 ∨ (Rect.block (s := S8x1x256) S1x1x256.size (cc0_transform_10 i) (hinb0_10 i)).WholeWords (EltTy.packing .f32)

variable [Facts₀]

def dot_S8x256_S256x1024_S8x1024_1_0_0_1_n_n : DotDims S8x256 S256x1024 S8x1024 where
  lhsContracting := [1]
  rhsContracting := [0]
  lhsNonContracting := [0]
  rhsNonContracting := [1]
  lhsBatch := []
  rhsBatch := []
  wf := dot_S8x256_S256x1024_S8x1024_1_0_0_1_n_n_wf
def dot_S8x1024_S1024x1024_S8x1024_1_0_0_1_n_n : DotDims S8x1024 S1024x1024 S8x1024 where
  lhsContracting := [1]
  rhsContracting := [0]
  lhsNonContracting := [0]
  rhsNonContracting := [1]
  lhsBatch := []
  rhsBatch := []
  wf := dot_S8x1024_S1024x1024_S8x1024_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S1x1024_S512x1024_S1x512_1_1_0_0_n_n : DotDims S1x1024 S512x1024 S1x512 where
  lhsContracting := [1]
  rhsContracting := [1]
  lhsNonContracting := [0]
  rhsNonContracting := [0]
  lhsBatch := []
  rhsBatch := []
  wf := dot_S1x1024_S512x1024_S1x512_1_1_0_0_n_n_wf
def dot_S1x512_S512x1024_S1x1024_1_0_0_1_n_n : DotDims S1x512 S512x1024 S1x1024 where
  lhsContracting := [1]
  rhsContracting := [0]
  lhsNonContracting := [0]
  rhsNonContracting := [1]
  lhsBatch := []
  rhsBatch := []
  wf := dot_S1x512_S512x1024_S1x1024_1_0_0_1_n_n_wf
def dot_S1x1024_S1024x256_S1x256_1_0_0_1_n_n : DotDims S1x1024 S1024x256 S1x256 where
  lhsContracting := [1]
  rhsContracting := [0]
  lhsNonContracting := [0]
  rhsNonContracting := [1]
  lhsBatch := []
  rhsBatch := []
  wf := dot_S1x1024_S1024x256_S1x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1024x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S1x1x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S8x2048x256 : Shape := ⟨3, ![8, 2048, 256]⟩
abbrev S256x1024 : Shape := ⟨2, ![256, 1024]⟩
abbrev S1024 : Shape := ⟨1, ![1024]⟩
abbrev S1024x1024 : Shape := ⟨2, ![1024, 1024]⟩
abbrev S1024x256 : Shape := ⟨2, ![1024, 256]⟩
abbrev S256 : Shape := ⟨1, ![256]⟩
abbrev S8x2048x1024 : Shape := ⟨3, ![8, 2048, 1024]⟩
abbrev S1x1x1024 : Shape := ⟨3, ![1, 1, 1024]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩
abbrev S8x1x1024 : Shape := ⟨3, ![8, 1, 1024]⟩
abbrev S8x1024 : Shape := ⟨2, ![8, 1024]⟩
abbrev S8x256 : Shape := ⟨2, ![8, 256]⟩
abbrev S1x256 : Shape := ⟨2, ![1, 256]⟩

abbrev nBuf : Space → Nat
  | .hbm => 55
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S256x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x256, .f32⟩
  | .hbm, ⟨10, _⟩ => ⟨S256, .f32⟩
  | .hbm, ⟨11, _⟩ => ⟨S8x2048x1024, .f32⟩
  | .hbm, ⟨12, _⟩ => ⟨S1x1x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S_, .f32⟩
  | .hbm, ⟨37, _⟩ => ⟨S8x2048, .f32⟩
  | .hbm, ⟨38, _⟩ => ⟨S8x2048, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S8x2048x2048, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S8x2048x2048, .f32⟩
  | .hbm, ⟨47, _⟩ => ⟨S8x2048x2048, .f32⟩
  | .hbm, ⟨48, _⟩ => ⟨S8x2048x1024, .f32⟩
  | .hbm, ⟨49, _⟩ => ⟨S8x1x1024, .f32⟩
  | .hbm, ⟨50, _⟩ => ⟨S8x1024, .f32⟩
  | .hbm, ⟨51, _⟩ => ⟨S8x256, .f32⟩
  | .hbm, ⟨52, _⟩ => ⟨S1x256, .f32⟩
  | .hbm, ⟨53, _⟩ => ⟨S8x256, .f32⟩
  | .hbm, ⟨54, _⟩ => ⟨S8x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  slices_S8x2048x1024_S8x1x1024_0_2047_0 : S8x2048x1024.Slices ![0, 2047, 0] S8x1x1024
  shapeCasts_S8x1x1024_S8x1024 : S8x1x1024.ShapeCasts S8x1024
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  dot_S8x2048x256_S256x1024_S8x2048x1024_2_0_01_1_n_n_wf : DotDims.WF S8x2048x256 S256x1024 S8x2048x1024 [2] [0] [0, 1] [1] [] []
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]
  dot_S8x1024_S1024x256_S8x256_1_0_0_1_n_n_wf : DotDims.WF S8x1024 S1024x256 S8x256 [1] [0] [0] [1] [] []

variable [Facts₀]

def dot_S8x2048x256_S256x1024_S8x2048x1024_2_0_01_1_n_n : DotDims S8x2048x256 S256x1024 S8x2048x1024 where
  lhsContracting := [2]
  rhsContracting := [0]
  lhsNonContracting := [0, 1]
  rhsNonContracting := [1]
  lhsBatch := []
  rhsBatch := []
  wf := dot_S8x2048x256_S256x1024_S8x2048x1024_2_0_01_1_n_n_wf
def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf
def dot_S8x1024_S1024x256_S8x256_1_0_0_1_n_n : DotDims S8x1024 S1024x256 S8x256 where
  lhsContracting := [1]
  rhsContracting := [0]
  lhsNonContracting := [0]
  rhsNonContracting := [1]
  lhsBatch := []
  rhsBatch := []
  wf := dot_S8x1024_S1024x256_S8x256_1_0_0_1_n_n_wf

class Facts : Prop extends Facts₀ where

variable [Facts]
-- ==== Proof.Pieces.lean ====
/-
  What each control case of the attention body leaves behind, as values. The body keeps three scratch arrays between the
  grid points of one batch row — the running maximum, the running denominator and the running numerator of the softmax —
  and at the row's last tile also stores the output block. Each is the body's arithmetic (the payload terms) applied to the
  point's input blocks and to what the scratch held on entry: at a row's first tile the scratch is first reset to
  (-∞, 0, 0), so nothing is read from before; at the other tiles the entry contents are the previous point's.
-/
import proofs.«121378_j18708877541425_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- What case B leaves in carried scratch 0, as the body's arithmetic over the point's input blocks and the
    scratch contents the point found. -/
theorem sout_B_0 (c : Dev nD) (i : grid0.Coords) (arg2 : Memref sig .tc .vmem S1x512x256 .f32) (harg2 : arg2.IsWhole) (arg3 : Memref sig .tc .vmem S1x1x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x256 .f32) (harg11 : arg11.IsWhole) (arg12 : Memref sig .tc .vmem S1x1x256 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1024 .f32) (harg15 : arg15.IsWhole) (hc0 : ¬cond0_0 i) (hc1 : ¬cond0_1 i) (x0 : Vec F S1x512x256 .f32) (x1 : Vec F S1x1x1024 .bf16) (x2 : Vec F S256x1024 .bf16) (x3 : Vec F S1x1024 .f32) (x4 : Vec F S1024x1024 .bf16) (x5 : Vec F S1x1024 .f32) (x6 : Vec F S1024x1024 .bf16) (x7 : Vec F S1x1024 .f32) (x8 : Vec F S1024x256 .bf16) (x9 : Vec F S1x256 .f32) (xs0 : Vec F S1x1 .f32) (xs1 : Vec F S1x1 .f32) (xs2 : Vec F S1x1024 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2 = k0_pay13 (k0_pay6 x0 x2 x3 x4 x5 x1) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1) hz2, View.ld_unit_zero (S := S1x512x256) hz3, View.ld_unit_zero (S := S1x1x1024) hz3, View.ld_unit_zero (S := S256x1024) hz2, View.ld_unit_zero (S := S1x1024) hz2, View.ld_unit_zero (S := S1024x1024) hz2, View.ld_unit_zero (S := S1024x256) hz2, View.ld_unit_zero (S := S1x256) hz2, View.ld_unit_zero (S := S1x1x256) hz3, View.readCov_unit_zero (S := S1x1) _ hz2, View.readCov_unit_zero (S := S1x1024) _ hz2]

/-- What case B leaves in carried scratch 1, as the body's arithmetic over the point's input blocks and the
    scratch contents the point found. -/
theorem sout_B_1 (c : Dev nD) (i : grid0.Coords) (arg2 : Memref sig .tc .vmem S1x512x256 .f32) (harg2 : arg2.IsWhole) (arg3 : Memref sig .tc .vmem S1x1x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x256 .f32) (harg11 : arg11.IsWhole) (arg12 : Memref sig .tc .vmem S1x1x256 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1024 .f32) (harg15 : arg15.IsWhole) (hc0 : ¬cond0_0 i) (hc1 : ¬cond0_1 i) (x0 : Vec F S1x512x256 .f32) (x1 : Vec F S1x1x1024 .bf16) (x2 : Vec F S256x1024 .bf16) (x3 : Vec F S1x1024 .f32) (x4 : Vec F S1024x1024 .bf16) (x5 : Vec F S1x1024 .f32) (x6 : Vec F S1024x1024 .bf16) (x7 : Vec F S1x1024 .f32) (x8 : Vec F S1024x256 .bf16) (x9 : Vec F S1x256 .f32) (xs0 : Vec F S1x1 .f32) (xs1 : Vec F S1x1 .f32) (xs2 : Vec F S1x1024 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2 = k0_pay11 (k0_pay6 x0 x2 x3 x4 x5 x1) xs0 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1) hz2, View.ld_unit_zero (S := S1x512x256) hz3, View.ld_unit_zero (S := S1x1x1024) hz3, View.ld_unit_zero (S := S256x1024) hz2, View.ld_unit_zero (S := S1x1024) hz2, View.ld_unit_zero (S := S1024x1024) hz2, View.ld_unit_zero (S := S1024x256) hz2, View.ld_unit_zero (S := S1x256) hz2, View.ld_unit_zero (S := S1x1x256) hz3, View.readCov_unit_zero (S := S1x1) _ hz2, View.readCov_unit_zero (S := S1x1024) _ hz2]

/-- What case B leaves in carried scratch 2, as the body's arithmetic over the point's input blocks and the
    scratch contents the point found. -/
theorem sout_B_2 (c : Dev nD) (i : grid0.Coords) (arg2 : Memref sig .tc .vmem S1x512x256 .f32) (harg2 : arg2.IsWhole) (arg3 : Memref sig .tc .vmem S1x1x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x256 .f32) (harg11 : arg11.IsWhole) (arg12 : Memref sig .tc .vmem S1x1x256 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1024 .f32) (harg15 : arg15.IsWhole) (hc0 : ¬cond0_0 i) (hc1 : ¬cond0_1 i) (x0 : Vec F S1x512x256 .f32) (x1 : Vec F S1x1x1024 .bf16) (x2 : Vec F S256x1024 .bf16) (x3 : Vec F S1x1024 .f32) (x4 : Vec F S1024x1024 .bf16) (x5 : Vec F S1x1024 .f32) (x6 : Vec F S1024x1024 .bf16) (x7 : Vec F S1x1024 .f32) (x8 : Vec F S1024x256 .bf16) (x9 : Vec F S1x256 .f32) (xs0 : Vec F S1x1 .f32) (xs1 : Vec F S1x1 .f32) (xs2 : Vec F S1x1024 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2 = k0_pay12 (k0_pay5 x0 x2 x3 x6 x7) (k0_pay6 x0 x2 x3 x4 x5 x1) xs0 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1) hz2, View.ld_unit_zero (S := S1x512x256) hz3, View.ld_unit_zero (S := S1x1x1024) hz3, View.ld_unit_zero (S := S256x1024) hz2, View.ld_unit_zero (S := S1x1024) hz2, View.ld_unit_zero (S := S1024x1024) hz2, View.ld_unit_zero (S := S1024x256) hz2, View.ld_unit_zero (S := S1x256) hz2, View.ld_unit_zero (S := S1x1x256) hz3, View.readCov_unit_zero (S := S1x1) _ hz2, View.readCov_unit_zero (S := S1x1024) _ hz2]

/-- What case C leaves in carried scratch 0, as the body's arithmetic over the point's input blocks and the
    scratch contents the point found. -/
theorem sout_C_0 (c : Dev nD) (i : grid0.Coords) (arg2 : Memref sig .tc .vmem S1x512x256 .f32) (harg2 : arg2.IsWhole) (arg3 : Memref sig .tc .vmem S1x1x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x256 .f32) (harg11 : arg11.IsWhole) (arg12 : Memref sig .tc .vmem S1x1x256 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1024 .f32) (harg15 : arg15.IsWhole) (hc0 : ¬cond0_0 i) (hc1 : cond0_1 i) (x0 : Vec F S1x512x256 .f32) (x1 : Vec F S1x1x1024 .bf16) (x2 : Vec F S256x1024 .bf16) (x3 : Vec F S1x1024 .f32) (x4 : Vec F S1024x1024 .bf16) (x5 : Vec F S1x1024 .f32) (x6 : Vec F S1024x1024 .bf16) (x7 : Vec F S1x1024 .f32) (x8 : Vec F S1024x256 .bf16) (x9 : Vec F S1x256 .f32) (xs0 : Vec F S1x1 .f32) (xs1 : Vec F S1x1 .f32) (xs2 : Vec F S1x1024 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2 = k0_pay13 (k0_pay6 x0 x2 x3 x4 x5 x1) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1) hz2, View.ld_unit_zero (S := S1x512x256) hz3, View.ld_unit_zero (S := S1x1x1024) hz3, View.ld_unit_zero (S := S256x1024) hz2, View.ld_unit_zero (S := S1x1024) hz2, View.ld_unit_zero (S := S1024x1024) hz2, View.ld_unit_zero (S := S1024x256) hz2, View.ld_unit_zero (S := S1x256) hz2, View.ld_unit_zero (S := S1x1x256) hz3, View.readCov_unit_zero (S := S1x1) _ hz2, View.readCov_unit_zero (S := S1x1024) _ hz2]

/-- What case C leaves in carried scratch 1, as the body's arithmetic over the point's input blocks and the
    scratch contents the point found. -/
theorem sout_C_1 (c : Dev nD) (i : grid0.Coords) (arg2 : Memref sig .tc .vmem S1x512x256 .f32) (harg2 : arg2.IsWhole) (arg3 : Memref sig .tc .vmem S1x1x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x256 .f32) (harg11 : arg11.IsWhole) (arg12 : Memref sig .tc .vmem S1x1x256 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1024 .f32) (harg15 : arg15.IsWhole) (hc0 : ¬cond0_0 i) (hc1 : cond0_1 i) (x0 : Vec F S1x512x256 .f32) (x1 : Vec F S1x1x1024 .bf16) (x2 : Vec F S256x1024 .bf16) (x3 : Vec F S1x1024 .f32) (x4 : Vec F S1024x1024 .bf16) (x5 : Vec F S1x1024 .f32) (x6 : Vec F S1024x1024 .bf16) (x7 : Vec F S1x1024 .f32) (x8 : Vec F S1024x256 .bf16) (x9 : Vec F S1x256 .f32) (xs0 : Vec F S1x1 .f32) (xs1 : Vec F S1x1 .f32) (xs2 : Vec F S1x1024 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2 = k0_pay11 (k0_pay6 x0 x2 x3 x4 x5 x1) xs0 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1) hz2, View.ld_unit_zero (S := S1x512x256) hz3, View.ld_unit_zero (S := S1x1x1024) hz3, View.ld_unit_zero (S := S256x1024) hz2, View.ld_unit_zero (S := S1x1024) hz2, View.ld_unit_zero (S := S1024x1024) hz2, View.ld_unit_zero (S := S1024x256) hz2, View.ld_unit_zero (S := S1x256) hz2, View.ld_unit_zero (S := S1x1x256) hz3, View.readCov_unit_zero (S := S1x1) _ hz2, View.readCov_unit_zero (S := S1x1024) _ hz2]

/-- What case C leaves in carried scratch 2, as the body's arithmetic over the point's input blocks and the
    scratch contents the point found. -/
theorem sout_C_2 (c : Dev nD) (i : grid0.Coords) (arg2 : Memref sig .tc .vmem S1x512x256 .f32) (harg2 : arg2.IsWhole) (arg3 : Memref sig .tc .vmem S1x1x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x256 .f32) (harg11 : arg11.IsWhole) (arg12 : Memref sig .tc .vmem S1x1x256 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1024 .f32) (harg15 : arg15.IsWhole) (hc0 : ¬cond0_0 i) (hc1 : cond0_1 i) (x0 : Vec F S1x512x256 .f32) (x1 : Vec F S1x1x1024 .bf16) (x2 : Vec F S256x1024 .bf16) (x3 : Vec F S1x1024 .f32) (x4 : Vec F S1024x1024 .bf16) (x5 : Vec F S1x1024 .f32) (x6 : Vec F S1024x1024 .bf16) (x7 : Vec F S1x1024 .f32) (x8 : Vec F S1024x256 .bf16) (x9 : Vec F S1x256 .f32) (xs0 : Vec F S1x1 .f32) (xs1 : Vec F S1x1 .f32) (xs2 : Vec F S1x1024 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2 = k0_pay12 (k0_pay5 x0 x2 x3 x6 x7) (k0_pay6 x0 x2 x3 x4 x5 x1) xs0 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1) hz2, View.ld_unit_zero (S := S1x512x256) hz3, View.ld_unit_zero (S := S1x1x1024) hz3, View.ld_unit_zero (S := S256x1024) hz2, View.ld_unit_zero (S := S1x1024) hz2, View.ld_unit_zero (S := S1024x1024) hz2, View.ld_unit_zero (S := S1024x256) hz2, View.ld_unit_zero (S := S1x256) hz2, View.ld_unit_zero (S := S1x1x256) hz3, View.readCov_unit_zero (S := S1x1) _ hz2, View.readCov_unit_zero (S := S1x1024) _ hz2]

/-- At a row's last tile the output block is the normalized numerator projected: the output payload over the UPDATED
    numerator and denominator. -/
theorem out_C (c : Dev nD) (i : grid0.Coords) (arg2 : Memref sig .tc .vmem S1x512x256 .f32) (harg2 : arg2.IsWhole) (arg3 : Memref sig .tc .vmem S1x1x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x256 .f32) (harg11 : arg11.IsWhole) (arg12 : Memref sig .tc .vmem S1x1x256 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1024 .f32) (harg15 : arg15.IsWhole) (hc0 : ¬cond0_0 i) (hc1 : cond0_1 i) (x0 : Vec F S1x512x256 .f32) (x1 : Vec F S1x1x1024 .bf16) (x2 : Vec F S256x1024 .bf16) (x3 : Vec F S1x1024 .f32) (x4 : Vec F S1024x1024 .bf16) (x5 : Vec F S1x1024 .f32) (x6 : Vec F S1024x1024 .bf16) (x7 : Vec F S1x1024 .f32) (x8 : Vec F S1024x256 .bf16) (x9 : Vec F S1x256 .f32) (xs0 : Vec F S1x1 .f32) (xs1 : Vec F S1x1 .f32) (xs2 : Vec F S1x1024 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2 = k0_pay14 (k0_pay12 (k0_pay5 x0 x2 x3 x6 x7) (k0_pay6 x0 x2 x3 x4 x5 x1) xs0 xs0 xs2) (k0_pay11 (k0_pay6 x0 x2 x3 x4 x5 x1) xs0 xs0 xs1) x8 x9 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 xs0 xs1 xs2)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1) hz2, View.ld_unit_zero (S := S1x512x256) hz3, View.ld_unit_zero (S := S1x1x1024) hz3, View.ld_unit_zero (S := S256x1024) hz2, View.ld_unit_zero (S := S1x1024) hz2, View.ld_unit_zero (S := S1024x1024) hz2, View.ld_unit_zero (S := S1024x256) hz2, View.ld_unit_zero (S := S1x256) hz2, View.ld_unit_zero (S := S1x1x256) hz3, View.readCov_unit_zero (S := S1x1) _ hz2, View.readCov_unit_zero (S := S1x1024) _ hz2]

/-- What a row's first tile leaves in carried scratch 0: the update over the reset values, nothing read from before. -/
theorem sout_A_0 (c : Dev nD) (i : grid0.Coords) (arg2 : Memref sig .tc .vmem S1x512x256 .f32) (harg2 : arg2.IsWhole) (arg3 : Memref sig .tc .vmem S1x1x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x256 .f32) (harg11 : arg11.IsWhole) (arg12 : Memref sig .tc .vmem S1x1x256 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1024 .f32) (harg15 : arg15.IsWhole) (hc0 : cond0_0 i) (hc1 : ¬cond0_1 i) (x0 : Vec F S1x512x256 .f32) (x1 : Vec F S1x1x1024 .bf16) (x2 : Vec F S256x1024 .bf16) (x3 : Vec F S1x1024 .f32) (x4 : Vec F S1024x1024 .bf16) (x5 : Vec F S1x1024 .f32) (x6 : Vec F S1024x1024 .bf16) (x7 : Vec F S1x1024 .f32) (x8 : Vec F S1024x256 .bf16) (x9 : Vec F S1x256 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = k0_pay13 (k0_pay6 x0 x2 x3 x4 x5 x1) (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1) hz2, View.ld_unit_zero (S := S1x512x256) hz3, View.ld_unit_zero (S := S1x1x1024) hz3, View.ld_unit_zero (S := S256x1024) hz2, View.ld_unit_zero (S := S1x1024) hz2, View.ld_unit_zero (S := S1024x1024) hz2, View.ld_unit_zero (S := S1024x256) hz2, View.ld_unit_zero (S := S1x256) hz2, View.ld_unit_zero (S := S1x1x256) hz3, View.readCov_unit_zero (S := S1x1) _ hz2, View.readCov_unit_zero (S := S1x1024) _ hz2]

/-- What a row's first tile leaves in carried scratch 1: the update over the reset values, nothing read from before. -/
theorem sout_A_1 (c : Dev nD) (i : grid0.Coords) (arg2 : Memref sig .tc .vmem S1x512x256 .f32) (harg2 : arg2.IsWhole) (arg3 : Memref sig .tc .vmem S1x1x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x256 .f32) (harg11 : arg11.IsWhole) (arg12 : Memref sig .tc .vmem S1x1x256 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1024 .f32) (harg15 : arg15.IsWhole) (hc0 : cond0_0 i) (hc1 : ¬cond0_1 i) (x0 : Vec F S1x512x256 .f32) (x1 : Vec F S1x1x1024 .bf16) (x2 : Vec F S256x1024 .bf16) (x3 : Vec F S1x1024 .f32) (x4 : Vec F S1024x1024 .bf16) (x5 : Vec F S1x1024 .f32) (x6 : Vec F S1024x1024 .bf16) (x7 : Vec F S1x1024 .f32) (x8 : Vec F S1024x256 .bf16) (x9 : Vec F S1x256 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = k0_pay11 (k0_pay6 x0 x2 x3 x4 x5 x1) (k0_pay1 (F := F)) (k0_pay1 (F := F)) (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A
  dsimp only
  sl_unfold_words
  rw [View.canon_cons_unit_zero (S := S1x1) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1) hz2, View.ld_unit_zero (S := S1x512x256) hz3, View.ld_unit_zero (S := S1x1x1024) hz3, View.ld_unit_zero (S := S256x1024) hz2, View.ld_unit_zero (S := S1x1024) hz2, View.ld_unit_zero (S := S1024x1024) hz2, View.ld_unit_zero (S := S1024x256) hz2, View.ld_unit_zero (S := S1x256) hz2, View.ld_unit_zero (S := S1x1x256) hz3, View.readCov_unit_zero (S := S1x1) _ hz2, View.readCov_unit_zero (S := S1x1024) _ hz2]

/-- What a row's first tile leaves in carried scratch 2: the update over the reset values, nothing read from before. -/
theorem sout_A_2 (c : Dev nD) (i : grid0.Coords) (arg2 : Memref sig .tc .vmem S1x512x256 .f32) (harg2 : arg2.IsWhole) (arg3 : Memref sig .tc .vmem S1x1x1024 .bf16) (harg3 : arg3.IsWhole) (arg4 : Memref sig .tc .vmem S256x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1024x256 .bf16) (harg10 : arg10.IsWhole) (arg11 : Memref sig .tc .vmem S1x256 .f32) (harg11 : arg11.IsWhole) (arg12 : Memref sig .tc .vmem S1x1x256 .f32) (harg12 : arg12.IsWhole) (arg13 : Memref sig .tc .vmem S1x1 .f32) (harg13 : arg13.IsWhole) (arg14 : Memref sig .tc .vmem S1x1 .f32) (harg14 : arg14.IsWhole) (arg15 : Memref sig .tc .vmem S1x1024 .f32) (harg15 : arg15.IsWhole) (hc0 : cond0_0 i) (hc1 : ¬cond0_1 i) (x0 : Vec F S1x512x256 .f32) (x1 : Vec F S1x1x1024 .bf16) (x2 : Vec F S256x1024 .bf16) (x3 : Vec F S1x1024 .f32) (x4 : Vec F S1024x1024 .bf16) (x5 : Vec F S1x1024 .f32) (x6 : Vec F S1024x1024 .bf16) (x7 : Vec F S1x1024 .f32) (x8 : Vec F S1024x256 .bf16) (x9 : Vec F S1x256 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9 = k0_pay12 (k0_pay5 x0 x2 x3 x6 x7) (k0_pay6 x0 x2 x3 x4 x5 x1) (k0_pay1 (F := F)) (k0_pay1 (F := F)) (k0_pay3 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 x9)]
  unfold kernelRun0_A
  dsimp only
  sl_unfold_words
  rw [View.canon_cons_unit_zero (S := S1x1024) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S1x1) hz2, View.ld_unit_zero (S := S1x512x256) hz3, View.ld_unit_zero (S := S1x1x1024) hz3, View.ld_unit_zero (S := S256x1024) hz2, View.ld_unit_zero (S := S1x1024) hz2, View.ld_unit_zero (S := S1024x1024) hz2, View.ld_unit_zero (S := S1024x256) hz2, View.ld_unit_zero (S := S1x256) hz2, View.ld_unit_zero (S := S1x1x256) hz3, View.readCov_unit_zero (S := S1x1) _ hz2, View.readCov_unit_zero (S := S1x1024) _ hz2]

end Cert.KernelIdeal.Pieces
end
-- ==== Proof.Chain.lean ====
/-
  The carried state after every grid point, in closed form. The grid runs over 8 batch rows × 4 key tiles, row-major, so
  point `t` is tile `t % 4` of row `t / 4`. After a row's first tile the state (running maximum, denominator, numerator)
  is one update of the reset state (-∞, 0, 0); after any other tile it is one update of the previous point's state. At a
  row's last tile the output block is the output payload of that point's state. Proved by induction on the point.
-/
import proofs.«121378_j18708877541425_2_alg».proof.Proof.Pieces

set_option maxRecDepth 16384

noncomputable section

open Idealize.ShloMosaic Idealize.ShloMosaic.TcCoe Idealize.SL.Sem
open Idealize.ShloMosaic.Pipeline (Dat)

namespace Cert.KernelIdeal.Chain
open Cert.KernelIdeal Cert.KernelIdeal.Gen
variable {F : FTy → Type} [FloatOps F]
variable (m : (ℓ : Loc nD τ sig) → Buf (Elt F) ℓ)

/-- The carried state: running maximum, running denominator, running numerator. -/
abbrev St (F : FTy → Type) := Vec F S1x1 .f32 × Vec F S1x1 .f32 × Vec F S1x1024 .f32

/-- The state a row's first tile starts from. -/
def reset : St F := (k0_pay1, k0_pay2, k0_pay3)

/-- One tile folded into the state: the body's three update payloads over the tile's value rows and raw scores. -/
def upd (v29 : FVec F S512x1024 .bf16) (v32 : FVec F S1x512 .f32) (st : St F) : St F :=
  (k0_pay13 v32 st.1, k0_pay11 v32 st.1 st.1 st.2.1, k0_pay12 v29 v32 st.1 st.1 st.2.2)

/-- The raw (unscaled) scores of the point's 512 keys against the row's query. -/
def scoresAt (c : Dev nD) (t : Fin cfg0.N) : FVec F S1x512 .f32 :=
  k0_pay6 (iblk m c 0 t) (iblk m c 2 t) (iblk m c 3 t) (iblk m c 4 t) (iblk m c 5 t) (iblk m c 1 t)

/-- The point's 512 value rows. -/
def valsAt (c : Dev nD) (t : Fin cfg0.N) : FVec F S512x1024 .bf16 :=
  k0_pay5 (iblk m c 0 t) (iblk m c 2 t) (iblk m c 3 t) (iblk m c 6 t) (iblk m c 7 t)

/-- The state after point `n`. -/
def stAt (c : Dev nD) : (n : ℕ) → n < cfg0.N → St F
  | 0, h => upd (valsAt m c ⟨0, h⟩) (scoresAt m c ⟨0, h⟩) reset
  | n + 1, h =>
    if (n + 1) % 4 = 0 then upd (valsAt m c ⟨n + 1, h⟩) (scoresAt m c ⟨n + 1, h⟩) reset
    else upd (valsAt m c ⟨n + 1, h⟩) (scoresAt m c ⟨n + 1, h⟩) (stAt c n (Nat.lt_of_succ_lt h))

theorem stAt_first (c : Dev nD) (t : Fin cfg0.N) (h0 : t.val % 4 = 0) :
    stAt m c t.val t.isLt = upd (valsAt m c t) (scoresAt m c t) reset := by
  obtain ⟨n, hn⟩ := t
  cases n with
  | zero => rfl
  | succ n => exact if_pos h0

theorem stAt_next (c : Dev nD) (t : Fin cfg0.N) (h0 : ¬t.val % 4 = 0) :
    stAt m c t.val t.isLt
      = upd (valsAt m c t) (scoresAt m c t) (stAt m c (t.val - 1) (Nat.lt_of_le_of_lt (Nat.sub_le _ _) t.isLt)) := by
  obtain ⟨n, hn⟩ := t
  cases n with
  | zero => exact absurd (Nat.zero_mod _) h0
  | succ n => exact if_neg h0

/-- The generated per-point contents' scratch components are that state. -/
theorem outsAt_scratch (c : Dev nD) : ∀ (n : ℕ) (h : n < cfg0.N), (outsAt0 m c n h).2 = stAt m c n h
  | 0, h => by
    have hN : cfg0.N = 32 := N_0
    rw [outsAt0_A m c ⟨0, h⟩ (Nat.zero_mod _) (show ¬(0 : ℕ) % 4 = 3 by decide)]
    exact congrArg₂ Prod.mk (Pieces.sout_A_0 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) scM0_0 (Memref.isWhole_whole _) scM0_1 (Memref.isWhole_whole _) scM0_2 (Memref.isWhole_whole _) _ _ (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩))
      (congrArg₂ Prod.mk (Pieces.sout_A_1 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) scM0_0 (Memref.isWhole_whole _) scM0_1 (Memref.isWhole_whole _) scM0_2 (Memref.isWhole_whole _) _ _ (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩))
        (Pieces.sout_A_2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) scM0_0 (Memref.isWhole_whole _) scM0_1 (Memref.isWhole_whole _) scM0_2 (Memref.isWhole_whole _) _ _ (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩)))
  | n + 1, h => by
    have hN : cfg0.N = 32 := N_0
    have ih := outsAt_scratch c n (Nat.lt_of_succ_lt h)
    by_cases h0 : (n + 1) % 4 = 0
    · have h1 : ¬(n + 1) % 4 = 3 := by omega
      rw [outsAt0_A m c ⟨n + 1, h⟩ h0 h1, stAt_first m c ⟨n + 1, h⟩ h0]
      exact congrArg₂ Prod.mk (Pieces.sout_A_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩))
        (congrArg₂ Prod.mk (Pieces.sout_A_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩))
          (Pieces.sout_A_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩)))
    · rw [stAt_next m c ⟨n + 1, h⟩ h0]
      show _ = upd _ _ (stAt m c n _)
      rw [← ih]
      by_cases h1 : (n + 1) % 4 = 3
      · rw [outsAt0_C m c ⟨n + 1, h⟩ h0 h1]
        exact congrArg₂ Prod.mk (Pieces.sout_C_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) _ _ _)
          (congrArg₂ Prod.mk (Pieces.sout_C_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) _ _ _)
            (Pieces.sout_C_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) _ _ _))
      · rw [outsAt0_B m c ⟨n + 1, h⟩ h0 h1]
        exact congrArg₂ Prod.mk (Pieces.sout_B_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) _ _ _)
          (congrArg₂ Prod.mk (Pieces.sout_B_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) _ _ _)
            (Pieces.sout_B_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) scM0_0 (Memref.isWhole_whole _) scM0_1 (Memref.isWhole_whole _) scM0_2 (Memref.isWhole_whole _) _ _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) _ _ _))

/-- The output block a row's last tile stores: the output payload over the point's state. -/
def outAt (c : Dev nD) (t : Fin cfg0.N) : FVec F S1x1x256 .f32 :=
  k0_pay14 (stAt m c t.val t.isLt).2.2 (stAt m c t.val t.isLt).2.1 (iblk m c 8 t) (iblk m c 9 t)

/-- At a row's last tile the generated per-point contents' output component is that block. -/
theorem outsAt_out (c : Dev nD) (t : Fin cfg0.N) (h3 : t.val % 4 = 3) :
    (outsAt0 m c t.val t.isLt).1 = outAt m c t := by
  have h0 : ¬t.val % 4 = 0 := by omega
  have ih := outsAt_scratch m c (t.val - 1) (Nat.lt_of_le_of_lt (Nat.sub_le _ _) t.isLt)
  rw [outsAt0_C m c t h0 h3]
  dsimp only
  refine (Pieces.out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) _ _ (iblk m c 0 t) (iblk m c 1 t) (iblk m c 2 t) (iblk m c 3 t) (iblk m c 4 t) (iblk m c 5 t) (iblk m c 6 t) (iblk m c 7 t) (iblk m c 8 t) (iblk m c 9 t) _ _ _).trans ?_
  unfold outAt
  rw [stAt_next m c t h0, ← ih]
  unfold upd valsAt scoresAt
  dsimp only

end Cert.KernelIdeal.Chain
end
-- ==== Proof.KernelValue.lean ====
/-
  The kernel's result array. The output window has one [1,1,256] block per batch row, written back after the row's last
  key tile; so the [8,1,256] output array ends holding, in row `b`, the output block of point `4b + 3`, and the program's
  result is that array with the middle unit axis dropped. The run of the whole program is restated with the result buffer
  at this value and the argument arrays unchanged.
-/
import proofs.«121378_j18708877541425_2_alg».proof.Proof.Chain
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.KernelValue
open Cert.KernelIdeal Cert.KernelIdeal.Gen Cert.KernelIdeal.Chain Idealize.ShloMosaic.ValueIdx
variable {F : FTy → Type} [FloatOps F]
variable (m : (ℓ : Loc nD τ sig) → Buf (Elt F) ℓ) (ρ : Dev nD → PrngReg)

/-- The last grid point of batch row `b`. -/
def lastPt (b : Fin 8) : Fin cfg0.N := ⟨4 * b.val + 3, by have := b.isLt; rw [show cfg0.N = 32 from N_0]; omega⟩

/-- The output array after the region: row `b` is the output block of the row's last point. -/
def outArr (c : Dev nD) : Buf (Elt F) ((c : Thread nD τ).loc main_v23) :=
  fun i => outAt m c (lastPt ⟨(i 0).val, (i 0).isLt⟩) (ix3 (0 : Fin 1) ⟨(i 1).val, (i 1).isLt⟩ ⟨(i 2).val, (i 2).isLt⟩)

theorem idx10 : ∀ t : Fin cfg0.N, win0_10.index t (0 : Fin 3) = t.val / 4 ∧ win0_10.index t (1 : Fin 3) = 0
    ∧ win0_10.index t (2 : Fin 3) = 0 :=
  (by decide +kernel : ∀ t : Fin grid0.N, _)

/-- What a row's last point writes back is that row's block of the output array. -/
theorem flushed_eq (c : Dev nD) (t : Fin cfg0.N) (hf : (cfg0.win 10).flush t = true) :
    (dats m 0 c).flushed 10 t = ((cfg0.win 10).blk t).view.read (Elt F) (outArr m c) := by
  have hN : cfg0.N = 32 := N_0
  have h3 : t.val % 4 = 3 := (flush0_10 t).mp hf
  obtain ⟨e0, e1, e2⟩ := idx10 t
  show (cfg0.win 10).cut (grid0.coords t) ((dats m 0 c).after 10 t) = _
  rw [after0_10, outsAt_out m c t h3]
  funext j
  rw [View.read_apply]
  show outAt m c t j = outArr m c (((cfg0.win 10).blk t).view.emb j)
  have hj0 : (j 0).val < 1 := (j 0).isLt
  have hj1 : (j 1).val < 1 := (j 1).isLt
  have hj2 : (j 2).val < 256 := (j 2).isLt
  have v0 : ((((cfg0.win 10).blk t).view.emb j) 0).val = win0_10.index t (0 : Fin 3) * 1 + 1 * (j 0).val := rfl
  have v1 : ((((cfg0.win 10).blk t).view.emb j) 1).val = win0_10.index t (1 : Fin 3) * 1 + 1 * (j 1).val := rfl
  have v2 : ((((cfg0.win 10).blk t).view.emb j) 2).val = win0_10.index t (2 : Fin 3) * 256 + 1 * (j 2).val := rfl
  unfold outArr
  have ht : lastPt ⟨((((cfg0.win 10).blk t).view.emb j) 0).val, ((((cfg0.win 10).blk t).view.emb j) 0).isLt⟩ = t :=
    Fin.ext (by show 4 * ((((cfg0.win 10).blk t).view.emb j) 0).val + 3 = t.val; omega)
  rw [ht]
  refine congrArg (outAt m c t) (funext fun a => Fin.ext ?_)
  match a with
  | ⟨0, _⟩ => show (j 0).val = 0; omega
  | ⟨1, _⟩ => show (j 1).val = ((((cfg0.win 10).blk t).view.emb j) 1).val; omega
  | ⟨2, _⟩ => show (j 2).val = ((((cfg0.win 10).blk t).view.emb j) 2).val; omega

/-- Every entry of the output array lies in the block its row's last point writes back. -/
theorem cover (c : Dev nD) (i : ((cfg0.win 10).arr.view.loc (c.tc : Thread nD τ)).2.ty.Idx) :
    ∃ t : Fin cfg0.N, (cfg0.win 10).flush t = true ∧ i ∈ ((cfg0.win 10).blk t).view.set := by
  have hi0 : (i 0).val < 8 := (i 0).isLt
  have hi1 : (i 1).val < 1 := (i 1).isLt
  have hi2 : (i 2).val < 256 := (i 2).isLt
  obtain ⟨e0, e1, e2⟩ := idx10 (lastPt ⟨(i 0).val, hi0⟩)
  have hv : (lastPt ⟨(i 0).val, hi0⟩).val = 4 * (i 0).val + 3 := rfl
  refine ⟨lastPt ⟨(i 0).val, hi0⟩, (flush0_10 _).mpr (by rw [hv]; omega), ?_⟩
  show i ∈ ((View.whole main_v23).slice (win0_10.rect (lastPt ⟨(i 0).val, hi0⟩))).set
  rw [View.set_slice_whole, Rect.mem_set_unit]
  intro a
  match a with
  | ⟨0, _⟩ =>
    show win0_10.index (lastPt ⟨(i 0).val, hi0⟩) (0 : Fin 3) * 1 ≤ (i 0).val
      ∧ (i 0).val < win0_10.index (lastPt ⟨(i 0).val, hi0⟩) (0 : Fin 3) * 1 + 1
    rw [e0, hv]; omega
  | ⟨1, _⟩ =>
    show win0_10.index (lastPt ⟨(i 0).val, hi0⟩) (1 : Fin 3) * 1 ≤ (i 1).val
      ∧ (i 1).val < win0_10.index (lastPt ⟨(i 0).val, hi0⟩) (1 : Fin 3) * 1 + 1
    rw [e1]; omega
  | ⟨2, _⟩ =>
    show win0_10.index (lastPt ⟨(i 0).val, hi0⟩) (2 : Fin 3) * 256 ≤ (i 2).val
      ∧ (i 2).val < win0_10.index (lastPt ⟨(i 0).val, hi0⟩) (2 : Fin 3) * 256 + 256
    rw [e2]; omega

/-- So the output array ends holding, row by row, the rows' output blocks. -/
theorem final (c : Dev nD) : (dats m 0 c).arrAt 10 cfg0.N = outArr m c :=
  (dats m 0 c).arrAt_eq_of_cover 10 (outArr m c) (fun t hf => flushed_eq m c t hf) (cover c)

/-- The program's result: the output array with its middle unit axis dropped. -/
def result (c : Dev nD) : Buf (Elt F) ((c : Thread nD τ).loc main_v24) :=
  shapeCast S8x256 (outArr m c) shapeCasts_S8x1x256_S8x256

/-- The one host operation after the region reshapes the output array into the result. -/
theorem tail_eq (c : Dev nD) :
    Pipeline.afterTail₀ cfgs (dats m) 0 (V0 m) [hostOps1] c main_v24 = result m c := by
  unfold Pipeline.afterTail₀
  show StableHlo.after hostOps1 _ (Proc.devRef .tc main_v24) = _
  after_results
  unfold result
  rw [(Pipeline.withArrays_arr spec0 launch0.win.arr_inj c _ _ 10).trans (final m c)]
  rfl

/-- The run of the whole program: it terminates, the result buffer holds `result`, the arguments are unchanged. -/
theorem run : θ_run defs (onTc (τ := τ) (main (F := F))) ⟨m, fun _ => 0, ρ⟩ (fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v24 (Pipeline.mem_restRefs_of main_v24 (by decide) (by decide))).trans (tail_eq m c),
      ((h c).1 0).trans ((((dats m) 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩) (run_main m ρ)

end Cert.KernelIdeal.KernelValue
end
-- ==== Proof.MatIdx.lean ====
/-
  The body's matrix products and literal words, read at an index over the extended reals. A product into the zero
  accumulator is the plain sum over the contracted coordinate of the operands' products; the three float words the body
  writes out are -∞ (the running maximum's start), 0 (the sums' start) and 1/32 (the score scale, 1/√1024 exactly).
-/
import proofs.«121378_j18708877541425_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.TcCoe Idealize.SL.Sem
open Idealize.ShloMosaic.Pipeline (Dat)

open scoped BigOperators
namespace Cert.KernelIdeal.PayIdx
open Cert.KernelIdeal Cert.KernelIdeal.Gen Idealize.ShloMosaic.ValueIdx

/-- The word `0xFF800000` is -∞. -/
theorem ofBits_neg_inf : Ideal.ofBits .f32 0xFF800000#32 = (⊥ : EReal) := by simp [Ideal.ofBits, Ideal.ieee]

/-- The word `0x3D000000` is 1/32. -/
theorem ofBits_scale : Ideal.ofBits .f32 0x3D000000#32 = (((1 : ℝ) / 32 : ℝ) : EReal) := by
  simp [Ideal.ofBits, Ideal.ieee, -EReal.coe_mul]; norm_num

theorem dot_S512x256_S256x1024_S512x1024_1_0_0_1_n_n_l0 (j : S512x1024.Idx) (q : dot_S512x256_S256x1024_S512x1024_1_0_0_1_n_n.contr.Idx) : (dot_S512x256_S256x1024_S512x1024_1_0_0_1_n_n.lhsIdx j q 0).val = (j 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl

theorem dot_S512x256_S256x1024_S512x1024_1_0_0_1_n_n_l1 (j : S512x1024.Idx) (q : dot_S512x256_S256x1024_S512x1024_1_0_0_1_n_n.contr.Idx) : (dot_S512x256_S256x1024_S512x1024_1_0_0_1_n_n.lhsIdx j q 1).val = (q ⟨0, by decide⟩).val :=
  dot_S512x256_S256x1024_S512x1024_1_0_0_1_n_n.lhsIdx_val_of_single rfl j q

theorem dot_S512x256_S256x1024_S512x1024_1_0_0_1_n_n_r0 (j : S512x1024.Idx) (q : dot_S512x256_S256x1024_S512x1024_1_0_0_1_n_n.contr.Idx) : (dot_S512x256_S256x1024_S512x1024_1_0_0_1_n_n.rhsIdx j q 0).val = (q ⟨0, by decide⟩).val :=
  dot_S512x256_S256x1024_S512x1024_1_0_0_1_n_n.rhsIdx_val_of_single rfl j q

theorem dot_S512x256_S256x1024_S512x1024_1_0_0_1_n_n_r1 (j : S512x1024.Idx) (q : dot_S512x256_S256x1024_S512x1024_1_0_0_1_n_n.contr.Idx) : (dot_S512x256_S256x1024_S512x1024_1_0_0_1_n_n.rhsIdx j q 1).val = (j 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- A plain product: entry (p, q) pairs row p of the left operand with column q of the right. -/
theorem dot_S512x256_S256x1024_S512x1024_1_0_0_1_n_n_apply {φ₁ φ₂ : FTy} (l : FVec Ideal S512x256 φ₁) (r : FVec Ideal S256x1024 φ₂) (p : Fin 512) (q : Fin 1024) :
    matmul dot_S512x256_S256x1024_S512x1024_1_0_0_1_n_n none l r (constant S512x1024 .f32 0x00000000#32) (ix2 p q)
      = ∑ k : Fin 256, l (ix2 p k) * r (ix2 k q) := by
  simp only [matmul]
  rw [Ideal.matmul_constant_zero_apply, ← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 p q) ((contrEquiv1 dot_S512x256_S256x1024_S512x1024_1_0_0_1_n_n 256 rfl rfl).symm k) = ix2 p k := funext fun a => Fin.ext (by
    match a with
    | ⟨0, _⟩ => exact dot_S512x256_S256x1024_S512x1024_1_0_0_1_n_n_l0 _ _
    | ⟨1, _⟩ => exact (dot_S512x256_S256x1024_S512x1024_1_0_0_1_n_n_l1 _ _).trans hk)
  have er : dot_S512x256_S256x1024_S512x1024_1_0_0_1_n_n.rhsIdx (ix2 p q) ((contrEquiv1 dot_S512x256_S256x1024_S512x1024_1_0_0_1_n_n 256 rfl rfl).symm k) = ix2 k q := funext fun a => Fin.ext (by
    match a with
    | ⟨0, _⟩ => exact (dot_S512x256_S256x1024_S512x1024_1_0_0_1_n_n_r0 _ _).trans hk
    | ⟨1, _⟩ => exact dot_S512x256_S256x1024_S512x1024_1_0_0_1_n_n_r1 _ _)
  rw [el, er]

theorem dot_S512x1024_S1024x1024_S512x1024_1_0_0_1_n_n_l0 (j : S512x1024.Idx) (q : dot_S512x1024_S1024x1024_S512x1024_1_0_0_1_n_n.contr.Idx) : (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl

theorem dot_S512x1024_S1024x1024_S512x1024_1_0_0_1_n_n_l1 (j : S512x1024.Idx) (q : dot_S512x1024_S1024x1024_S512x1024_1_0_0_1_n_n.contr.Idx) : (dot_S512x1024_S1024x1024_S512x1024_1_0_0_1_n_n.lhsIdx j q 1).val = (q ⟨0, by decide⟩).val :=
  dot_S512x1024_S1024x1024_S512x1024_1_0_0_1_n_n.lhsIdx_val_of_single rfl j q

theorem dot_S512x1024_S1024x1024_S512x1024_1_0_0_1_n_n_r0 (j : S512x1024.Idx) (q : dot_S512x1024_S1024x1024_S512x1024_1_0_0_1_n_n.contr.Idx) : (dot_S512x1024_S1024x1024_S512x1024_1_0_0_1_n_n.rhsIdx j q 0).val = (q ⟨0, by decide⟩).val :=
  dot_S512x1024_S1024x1024_S512x1024_1_0_0_1_n_n.rhsIdx_val_of_single rfl j q

theorem dot_S512x1024_S1024x1024_S512x1024_1_0_0_1_n_n_r1 (j : S512x1024.Idx) (q : dot_S512x1024_S1024x1024_S512x1024_1_0_0_1_n_n.contr.Idx) : (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A plain product: entry (p, q) pairs row p of the left operand with column q of the right. -/
theorem dot_S512x1024_S1024x1024_S512x1024_1_0_0_1_n_n_apply {φ₁ φ₂ : FTy} (l : FVec Ideal S512x1024 φ₁) (r : FVec Ideal S1024x1024 φ₂) (p : Fin 512) (q : Fin 1024) :
    matmul dot_S512x1024_S1024x1024_S512x1024_1_0_0_1_n_n none l r (constant S512x1024 .f32 0x00000000#32) (ix2 p q)
      = ∑ k : Fin 1024, l (ix2 p k) * r (ix2 k q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact dot_S512x1024_S1024x1024_S512x1024_1_0_0_1_n_n_l0 _ _
    | ⟨1, _⟩ => exact (dot_S512x1024_S1024x1024_S512x1024_1_0_0_1_n_n_l1 _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (dot_S512x1024_S1024x1024_S512x1024_1_0_0_1_n_n_r0 _ _).trans hk
    | ⟨1, _⟩ => exact dot_S512x1024_S1024x1024_S512x1024_1_0_0_1_n_n_r1 _ _)
  rw [el, er]

theorem dot_S1x512_S512x1024_S1x1024_1_0_0_1_n_n_l0 (j : S1x1024.Idx) (q : dot_S1x512_S512x1024_S1x1024_1_0_0_1_n_n.contr.Idx) : (dot_S1x512_S512x1024_S1x1024_1_0_0_1_n_n.lhsIdx j q 0).val = (j 0).val := by
  unfold DotDims.lhsIdx
  rw [dif_neg (show ¬(0 : Fin S1x512.rank) ∈ dot_S1x512_S512x1024_S1x1024_1_0_0_1_n_n.lhsBatch by decide), dif_pos (show (0 : Fin S1x512.rank) ∈ dot_S1x512_S512x1024_S1x1024_1_0_0_1_n_n.lhsNonContracting by decide)]
  rfl

theorem dot_S1x512_S512x1024_S1x1024_1_0_0_1_n_n_l1 (j : S1x1024.Idx) (q : dot_S1x512_S512x1024_S1x1024_1_0_0_1_n_n.contr.Idx) : (dot_S1x512_S512x1024_S1x1024_1_0_0_1_n_n.lhsIdx j q 1).val = (q ⟨0, by decide⟩).val :=
  dot_S1x512_S512x1024_S1x1024_1_0_0_1_n_n.lhsIdx_val_of_single rfl j q

theorem dot_S1x512_S512x1024_S1x1024_1_0_0_1_n_n_r0 (j : S1x1024.Idx) (q : dot_S1x512_S512x1024_S1x1024_1_0_0_1_n_n.contr.Idx) : (dot_S1x512_S512x1024_S1x1024_1_0_0_1_n_n.rhsIdx j q 0).val = (q ⟨0, by decide⟩).val :=
  dot_S1x512_S512x1024_S1x1024_1_0_0_1_n_n.rhsIdx_val_of_single rfl j q

theorem dot_S1x512_S512x1024_S1x1024_1_0_0_1_n_n_r1 (j : S1x1024.Idx) (q : dot_S1x512_S512x1024_S1x1024_1_0_0_1_n_n.contr.Idx) : (dot_S1x512_S512x1024_S1x1024_1_0_0_1_n_n.rhsIdx j q 1).val = (j 1).val := by
  unfold DotDims.rhsIdx
  rw [dif_neg (show ¬(1 : Fin S512x1024.rank) ∈ dot_S1x512_S512x1024_S1x1024_1_0_0_1_n_n.rhsBatch by decide), dif_pos (show (1 : Fin S512x1024.rank) ∈ dot_S1x512_S512x1024_S1x1024_1_0_0_1_n_n.rhsNonContracting by decide)]
  rfl

/-- A plain product: entry (p, q) pairs row p of the left operand with column q of the right. -/
theorem dot_S1x512_S512x1024_S1x1024_1_0_0_1_n_n_apply {φ₁ φ₂ : FTy} (l : FVec Ideal S1x512 φ₁) (r : FVec Ideal S512x1024 φ₂) (p : Fin 1) (q : Fin 1024) :
    matmul dot_S1x512_S512x1024_S1x1024_1_0_0_1_n_n none l r (constant S1x1024 .f32 0x00000000#32) (ix2 p q)
      = ∑ k : Fin 512, l (ix2 p k) * r (ix2 k q) := by
  simp only [matmul]
  rw [Ideal.matmul_constant_zero_apply, ← Equiv.sum_comp (contrEquiv1 dot_S1x512_S512x1024_S1x1024_1_0_0_1_n_n 512 rfl rfl).symm]
  refine Finset.sum_congr rfl fun k _ => ?_
  have hk := contrEquiv1_symm_val dot_S1x512_S512x1024_S1x1024_1_0_0_1_n_n 512 rfl rfl k
  have el : dot_S1x512_S512x1024_S1x1024_1_0_0_1_n_n.lhsIdx (ix2 p q) ((contrEquiv1 dot_S1x512_S512x1024_S1x1024_1_0_0_1_n_n 512 rfl rfl).symm k) = ix2 p k := funext fun a => Fin.ext (by
    match a with
    | ⟨0, _⟩ => exact dot_S1x512_S512x1024_S1x1024_1_0_0_1_n_n_l0 _ _
    | ⟨1, _⟩ => exact (dot_S1x512_S512x1024_S1x1024_1_0_0_1_n_n_l1 _ _).trans hk)
  have er : dot_S1x512_S512x1024_S1x1024_1_0_0_1_n_n.rhsIdx (ix2 p q) ((contrEquiv1 dot_S1x512_S512x1024_S1x1024_1_0_0_1_n_n 512 rfl rfl).symm k) = ix2 k q := funext fun a => Fin.ext (by
    match a with
    | ⟨0, _⟩ => exact (dot_S1x512_S512x1024_S1x1024_1_0_0_1_n_n_r0 _ _).trans hk
    | ⟨1, _⟩ => exact dot_S1x512_S512x1024_S1x1024_1_0_0_1_n_n_r1 _ _)
  rw [el, er]

theorem dot_S1x1024_S1024x256_S1x256_1_0_0_1_n_n_l0 (j : S1x256.Idx) (q : dot_S1x1024_S1024x256_S1x256_1_0_0_1_n_n.contr.Idx) : (dot_S1x1024_S1024x256_S1x256_1_0_0_1_n_n.lhsIdx j q 0).val = (j 0).val := by
  unfold DotDims.lhsIdx
  rw [dif_neg (show ¬(0 : Fin S1x1024.rank) ∈ dot_S1x1024_S1024x256_S1x256_1_0_0_1_n_n.lhsBatch by decide), dif_pos (show (0 : Fin S1x1024.rank) ∈ dot_S1x1024_S1024x256_S1x256_1_0_0_1_n_n.lhsNonContracting by decide)]
  rfl

theorem dot_S1x1024_S1024x256_S1x256_1_0_0_1_n_n_l1 (j : S1x256.Idx) (q : dot_S1x1024_S1024x256_S1x256_1_0_0_1_n_n.contr.Idx) : (dot_S1x1024_S1024x256_S1x256_1_0_0_1_n_n.lhsIdx j q 1).val = (q ⟨0, by decide⟩).val :=
  dot_S1x1024_S1024x256_S1x256_1_0_0_1_n_n.lhsIdx_val_of_single rfl j q

theorem dot_S1x1024_S1024x256_S1x256_1_0_0_1_n_n_r0 (j : S1x256.Idx) (q : dot_S1x1024_S1024x256_S1x256_1_0_0_1_n_n.contr.Idx) : (dot_S1x1024_S1024x256_S1x256_1_0_0_1_n_n.rhsIdx j q 0).val = (q ⟨0, by decide⟩).val :=
  dot_S1x1024_S1024x256_S1x256_1_0_0_1_n_n.rhsIdx_val_of_single rfl j q

theorem dot_S1x1024_S1024x256_S1x256_1_0_0_1_n_n_r1 (j : S1x256.Idx) (q : dot_S1x1024_S1024x256_S1x256_1_0_0_1_n_n.contr.Idx) : (dot_S1x1024_S1024x256_S1x256_1_0_0_1_n_n.rhsIdx j q 1).val = (j 1).val := by
  unfold DotDims.rhsIdx
  rw [dif_neg (show ¬(1 : Fin S1024x256.rank) ∈ dot_S1x1024_S1024x256_S1x256_1_0_0_1_n_n.rhsBatch by decide), dif_pos (show (1 : Fin S1024x256.rank) ∈ dot_S1x1024_S1024x256_S1x256_1_0_0_1_n_n.rhsNonContracting by decide)]
  rfl

/-- A plain product: entry (p, q) pairs row p of the left operand with column q of the right. -/
theorem dot_S1x1024_S1024x256_S1x256_1_0_0_1_n_n_apply {φ₁ φ₂ : FTy} (l : FVec Ideal S1x1024 φ₁) (r : FVec Ideal S1024x256 φ₂) (p : Fin 1) (q : Fin 256) :
    matmul dot_S1x1024_S1024x256_S1x256_1_0_0_1_n_n none l r (constant S1x256 .f32 0x00000000#32) (ix2 p q)
      = ∑ k : Fin 1024, l (ix2 p k) * r (ix2 k q) := by
  simp only [matmul]
  rw [Ideal.matmul_constant_zero_apply, ← Equiv.sum_comp (contrEquiv1 dot_S1x1024_S1024x256_S1x256_1_0_0_1_n_n 1024 rfl rfl).symm]
  refine Finset.sum_congr rfl fun k _ => ?_
  have hk := contrEquiv1_symm_val dot_S1x1024_S1024x256_S1x256_1_0_0_1_n_n 1024 rfl rfl k
  have el : dot_S1x1024_S1024x256_S1x256_1_0_0_1_n_n.lhsIdx (ix2 p q) ((contrEquiv1 dot_S1x1024_S1024x256_S1x256_1_0_0_1_n_n 1024 rfl rfl).symm k) = ix2 p k := funext fun a => Fin.ext (by
    match a with
    | ⟨0, _⟩ => exact dot_S1x1024_S1024x256_S1x256_1_0_0_1_n_n_l0 _ _
    | ⟨1, _⟩ => exact (dot_S1x1024_S1024x256_S1x256_1_0_0_1_n_n_l1 _ _).trans hk)
  have er : dot_S1x1024_S1024x256_S1x256_1_0_0_1_n_n.rhsIdx (ix2 p q) ((contrEquiv1 dot_S1x1024_S1024x256_S1x256_1_0_0_1_n_n 1024 rfl rfl).symm k) = ix2 k q := funext fun a => Fin.ext (by
    match a with
    | ⟨0, _⟩ => exact (dot_S1x1024_S1024x256_S1x256_1_0_0_1_n_n_r0 _ _).trans hk
    | ⟨1, _⟩ => exact dot_S1x1024_S1024x256_S1x256_1_0_0_1_n_n_r1 _ _)
  rw [el, er]

theorem dot_S1x1024_S512x1024_S1x512_1_1_0_0_n_n_l0 (j : S1x512.Idx) (q : dot_S1x1024_S512x1024_S1x512_1_1_0_0_n_n.contr.Idx) : (dot_S1x1024_S512x1024_S1x512_1_1_0_0_n_n.lhsIdx j q 0).val = (j 0).val := by
  unfold DotDims.lhsIdx
  rw [dif_neg (show ¬(0 : Fin S1x1024.rank) ∈ dot_S1x1024_S512x1024_S1x512_1_1_0_0_n_n.lhsBatch by decide), dif_pos (show (0 : Fin S1x1024.rank) ∈ dot_S1x1024_S512x1024_S1x512_1_1_0_0_n_n.lhsNonContracting by decide)]
  rfl

theorem dot_S1x1024_S512x1024_S1x512_1_1_0_0_n_n_l1 (j : S1x512.Idx) (q : dot_S1x1024_S512x1024_S1x512_1_1_0_0_n_n.contr.Idx) : (dot_S1x1024_S512x1024_S1x512_1_1_0_0_n_n.lhsIdx j q 1).val = (q ⟨0, by decide⟩).val :=
  dot_S1x1024_S512x1024_S1x512_1_1_0_0_n_n.lhsIdx_val_of_single rfl j q

theorem dot_S1x1024_S512x1024_S1x512_1_1_0_0_n_n_r0 (j : S1x512.Idx) (q : dot_S1x1024_S512x1024_S1x512_1_1_0_0_n_n.contr.Idx) : (dot_S1x1024_S512x1024_S1x512_1_1_0_0_n_n.rhsIdx j q 0).val = (j 1).val := by
  unfold DotDims.rhsIdx
  rw [dif_neg (show ¬(0 : Fin S512x1024.rank) ∈ dot_S1x1024_S512x1024_S1x512_1_1_0_0_n_n.rhsBatch by decide), dif_pos (show (0 : Fin S512x1024.rank) ∈ dot_S1x1024_S512x1024_S1x512_1_1_0_0_n_n.rhsNonContracting by decide)]
  rfl

theorem dot_S1x1024_S512x1024_S1x512_1_1_0_0_n_n_r1 (j : S1x512.Idx) (q : dot_S1x1024_S512x1024_S1x512_1_1_0_0_n_n.contr.Idx) : (dot_S1x1024_S512x1024_S1x512_1_1_0_0_n_n.rhsIdx j q 1).val = (q ⟨0, by decide⟩).val :=
  dot_S1x1024_S512x1024_S1x512_1_1_0_0_n_n.rhsIdx_val_of_single rfl j q

/-- The score product contracts the LAST axis of both operands: entry (p, q) pairs row p of the left with row q of the right. -/
theorem dot_S1x1024_S512x1024_S1x512_1_1_0_0_n_n_apply {φ₁ φ₂ : FTy} (l : FVec Ideal S1x1024 φ₁) (r : FVec Ideal S512x1024 φ₂) (p : Fin 1) (q : Fin 512) :
    matmul dot_S1x1024_S512x1024_S1x512_1_1_0_0_n_n none l r (constant S1x512 .f32 0x00000000#32) (ix2 p q)
      = ∑ k : Fin 1024, l (ix2 p k) * r (ix2 q k) := by
  simp only [matmul]
  rw [Ideal.matmul_constant_zero_apply, ← Equiv.sum_comp (contrEquiv1 dot_S1x1024_S512x1024_S1x512_1_1_0_0_n_n 1024 rfl rfl).symm]
  refine Finset.sum_congr rfl fun k _ => ?_
  have hk := contrEquiv1_symm_val dot_S1x1024_S512x1024_S1x512_1_1_0_0_n_n 1024 rfl rfl k
  have el : dot_S1x1024_S512x1024_S1x512_1_1_0_0_n_n.lhsIdx (ix2 p q) ((contrEquiv1 dot_S1x1024_S512x1024_S1x512_1_1_0_0_n_n 1024 rfl rfl).symm k) = ix2 p k := funext fun a => Fin.ext (by
    match a with
    | ⟨0, _⟩ => exact dot_S1x1024_S512x1024_S1x512_1_1_0_0_n_n_l0 _ _
    | ⟨1, _⟩ => exact (dot_S1x1024_S512x1024_S1x512_1_1_0_0_n_n_l1 _ _).trans hk)
  have er : dot_S1x1024_S512x1024_S1x512_1_1_0_0_n_n.rhsIdx (ix2 p q) ((contrEquiv1 dot_S1x1024_S512x1024_S1x512_1_1_0_0_n_n 1024 rfl rfl).symm k) = ix2 q k := funext fun a => Fin.ext (by
    match a with
    | ⟨0, _⟩ => exact dot_S1x1024_S512x1024_S1x512_1_1_0_0_n_n_r0 _ _
    | ⟨1, _⟩ => exact (dot_S1x1024_S512x1024_S1x512_1_1_0_0_n_n_r1 _ _).trans hk)
  rw [el, er]

end Cert.KernelIdeal.PayIdx
end
-- ==== Proof.AttnSpec.lean ====
/-
  Single-head attention, last query row: the function both programs compute, written once over the extended reals.

  For a batch row `b`, hidden states `h = x·Wi + bi`, queries / keys / values `h·W + bias`, the scores of the LAST
  query position against every key position `k` are `s k = (∑ e, Q 2047 e * K k e) * c`; the softmax weights are
  `exp (s k - M) / (0 + ∑ j, exp (s j - M))` with `M` the row maximum taken from `-∞`; the attended row is
  `∑ k, weight k * V k d`, and the result its projection `∑ d, attended d * Wo d o + bo o`.

  Beside it, the same attended row accumulated a tile of 512 keys at a time: a running maximum `m`, a running
  denominator `l` and a running numerator `acc`, each rescaled by `exp (m - m')` when the maximum moves to `m'`,
  started from `(-∞, 0, 0)`, and `acc d / l` at the end. That the two agree on real scores and values is
  OnlineSoftmax.lean's theorem.
-/
import Idealize.ShloMosaic.PureOps.Ideal

noncomputable section

open scoped BigOperators

namespace Cert.Attn

open Idealize.ShloMosaic

/-! ## The whole-row form -/

/-- A row's maximum as a fold of `max` from `-∞`, joined once more with `-∞`. -/
def rowMax (s : Fin 2048 → EReal) : EReal := max ⊥ ((Finset.univ : Finset (Fin 2048)).fold max ⊥ s)

/-- The softmax weight of key position `k`. -/
def weight (s : Fin 2048 → EReal) (k : Fin 2048) : EReal :=
  Ideal.div (Ideal.exp (s k - rowMax s)) (0 + ∑ j : Fin 2048, Ideal.exp (s j - rowMax s))

/-- The attended row: the values averaged by the softmax weights. -/
def attend (s : Fin 2048 → EReal) (V : Fin 2048 → Fin 1024 → EReal) (d : Fin 1024) : EReal :=
  ∑ k : Fin 2048, weight s k * V k d

/-! ## The tile-by-tile form -/

/-- Running maximum, running denominator, running numerator. -/
abbrev St := EReal × EReal × (Fin 1024 → EReal)

/-- Before the first tile. -/
def init : St := (⊥, 0, fun _ => 0)

/-- A tile's maximum: the fold of `max` from `-∞` over its 512 scores. -/
def tileMax (s : Fin 512 → EReal) : EReal := (Finset.univ : Finset (Fin 512)).fold max ⊥ s

/-- One tile folded into the running state. -/
def step (st : St) (s : Fin 512 → EReal) (V : Fin 512 → Fin 1024 → EReal) : St :=
  (max st.1 (tileMax s),
   Ideal.exp (st.1 - max st.1 (tileMax s)) * st.2.1 + ∑ k : Fin 512, Ideal.exp (s k - max st.1 (tileMax s)),
   fun d => Ideal.exp (st.1 - max st.1 (tileMax s)) * st.2.2 d
              + ∑ k : Fin 512, Ideal.exp (s k - max st.1 (tileMax s)) * V k d)

/-- Key position `k` of tile `t` in the whole row. -/
def pos (t : Fin 4) (k : Fin 512) : Fin 2048 := ⟨512 * t.val + k.val, by have := t.isLt; have := k.isLt; omega⟩

/-- The state after tiles `0 … n` of a row of 2048 keys. -/
def after (s : Fin 2048 → EReal) (V : Fin 2048 → Fin 1024 → EReal) : Fin 4 → St
  | ⟨0, _⟩ => step init (fun k => s (pos 0 k)) (fun k => V (pos 0 k))
  | ⟨n + 1, h⟩ => step (after s V ⟨n, Nat.lt_of_succ_lt h⟩) (fun k => s (pos ⟨n + 1, h⟩ k)) (fun k => V (pos ⟨n + 1, h⟩ k))

/-- The normalized numerator. -/
def normalized (st : St) (d : Fin 1024) : EReal := Ideal.div (st.2.2 d) st.2.1

/-! ## The function of the argument arrays -/

/-- Hidden states `x·Wi + bi`. -/
def hidden (x : Fin 8 → Fin 2048 → Fin 256 → EReal) (Wi : Fin 256 → Fin 1024 → EReal) (bi : Fin 1024 → EReal)
    (b : Fin 8) (p : Fin 2048) (d : Fin 1024) : EReal :=
  (∑ i : Fin 256, x b p i * Wi i d) + bi d

/-- A projection `h·W + bias` of the hidden states. -/
def proj (h : Fin 8 → Fin 2048 → Fin 1024 → EReal) (W : Fin 1024 → Fin 1024 → EReal) (bias : Fin 1024 → EReal)
    (b : Fin 8) (p : Fin 2048) (e : Fin 1024) : EReal :=
  (∑ d : Fin 1024, h b p d * W d e) + bias e

/-- The last query position. -/
abbrev lastPos : Fin 2048 := ⟨2047, by decide⟩

/-- The scaled scores of the last query position of batch row `b`. -/
def scores (Q K : Fin 8 → Fin 2048 → Fin 1024 → EReal) (c : EReal) (b : Fin 8) (k : Fin 2048) : EReal :=
  (∑ e : Fin 1024, Q b lastPos e * K b k e) * c

/-- The output projection of an attended row. -/
def outProj (a : Fin 1024 → EReal) (Wo : Fin 1024 → Fin 256 → EReal) (bo : Fin 256 → EReal) (o : Fin 256) : EReal :=
  (∑ d : Fin 1024, a d * Wo d o) + bo o

/-- The result at batch row `b`, output feature `o`. -/
def result (x : Fin 8 → Fin 2048 → Fin 256 → EReal) (Wi : Fin 256 → Fin 1024 → EReal) (bi : Fin 1024 → EReal)
    (Wq : Fin 1024 → Fin 1024 → EReal) (bq : Fin 1024 → EReal) (Wk : Fin 1024 → Fin 1024 → EReal) (bk : Fin 1024 → EReal)
    (Wv : Fin 1024 → Fin 1024 → EReal) (bv : Fin 1024 → EReal) (Wo : Fin 1024 → Fin 256 → EReal) (bo : Fin 256 → EReal)
    (c : EReal) (b : Fin 8) (o : Fin 256) : EReal :=
  outProj (attend (scores (proj (hidden x Wi bi) Wq bq) (proj (hidden x Wi bi) Wk bk) c b)
                  (proj (hidden x Wi bi) Wv bv b)) Wo bo o

end Cert.Attn

end
-- ==== Proof.PayIdx.lean ====
/-
  One update of the carried softmax state, read over the extended reals. With the running maximum `m`, denominator `l` and
  numerator `acc` on entry, a tile's raw scores `v32` and value rows `v29`, the body leaves
    m'   = max m (max over the tile of v32 k * (1/32)),
    l'   = exp (m - m') * l + ∑ k, exp (v32 k * (1/32) - m'),
    acc' = exp (m - m') * acc d + ∑ k, exp (v32 k * (1/32) - m') * v29 k d,
  which is exactly one step of the tile-by-tile softmax accumulation; the reset state is (-∞, 0, 0).
-/
import proofs.«121378_j18708877541425_2_alg».proof.Proof.MatIdx
import proofs.«121378_j18708877541425_2_alg».proof.Proof.Chain
import proofs.«121378_j18708877541425_2_alg».proof.Proof.AttnSpec
import Idealize.ShloMosaic.Lib.ValueLayout

set_option maxRecDepth 16384

noncomputable section

open Idealize.ShloMosaic Idealize.ShloMosaic.TcCoe Idealize.SL.Sem
open Idealize.ShloMosaic.Pipeline (Dat)

open scoped BigOperators
namespace Cert.KernelIdeal.PayIdx
open Cert.KernelIdeal Cert.KernelIdeal.Gen Idealize.ShloMosaic.ValueIdx

/-- The score scale the body multiplies by. -/
abbrev scale : EReal := Ideal.ofBits .f32 0x3D000000#32

abbrev o1 : Fin 1 := 0

/-- The scaled scores of a tile. -/
theorem pay7_apply (v32 : FVec Ideal S1x512 .f32) (k : Fin 512) : k0_pay7 v32 (ix2 o1 k) = v32 (ix2 o1 k) * scale := rfl

/-- A one-entry vector viewed as a one-by-one matrix. -/
theorem cast_S1_S1x1 (v : FVec Ideal S1 .f32) : shapeCast S1x1 v shapeCasts_S1_S1x1 (ix2 o1 o1) = v (ix1 o1) :=
  shapeCast_apply v shapeCasts_S1_S1x1 (ix2 o1 o1) (ix1 o1) rfl

/-- A one-by-one matrix spread along a row. -/
theorem bcast_S1x1_S1x512 (v : FVec Ideal S1x1 .f32) (k : Fin 512) : broadcastTo S1x512 v broadcasts_S1x1_S1x512 (ix2 o1 k) = v (ix2 o1 o1) :=
  broadcastTo_apply v broadcasts_S1x1_S1x512 (ix2 o1 k) (ix2 o1 o1) (fun a => by match a with | ⟨0, _⟩ => rfl | ⟨1, _⟩ => rfl)

theorem bcast_S1x1_S1x1024 (v : FVec Ideal S1x1 .f32) (d : Fin 1024) : broadcastTo S1x1024 v broadcasts_S1x1_S1x1024 (ix2 o1 d) = v (ix2 o1 o1) :=
  broadcastTo_apply v broadcasts_S1x1_S1x1024 (ix2 o1 d) (ix2 o1 o1) (fun a => by match a with | ⟨0, _⟩ => rfl | ⟨1, _⟩ => rfl)

/-- Re-inserting lane `k` into the one reduced index gives entry (0, k). -/
theorem lift_lane (k : Fin 512) : reduces_S1x512_S1.lift (ix1 o1) k = ix2 o1 k :=
  funext fun a => Fin.ext (by match a with | ⟨0, _⟩ => rfl | ⟨1, _⟩ => rfl)

/-- The tile's maximum: the lane reduction is the fold of `max` from -∞ over the tile's scaled scores. -/
theorem tile_max (v32 : FVec Ideal S1x512 .f32) (hacc : (0xFF800000#32 : BitVec 32) = 0xFF800000#32) :
    multiReduction .maximumf [1] S1 (k0_pay7 v32) 0xFF800000#32 reduces_S1x512_S1 (.inl rfl) hacc (ix1 o1)
      = Cert.Attn.tileMax (fun k => v32 (ix2 o1 k) * scale) := by
  refine (Ideal.multiReduction_maximumf_single (k0_pay7 v32) 0xFF800000#32 reduces_S1x512_S1 (.inl rfl) hacc (ix1 o1)).trans ?_
  unfold Cert.Attn.tileMax
  rw [show FloatOps.ofBits (F := Ideal) .f32 0xFF800000#32 = (⊥ : EReal) from ofBits_neg_inf]
  refine congrArg (fun f => Finset.fold max ⊥ f Finset.univ) (funext fun k => ?_)
  exact (congrArg (k0_pay7 v32) (lift_lane k)).trans (pay7_apply v32 k)

/-- The new running maximum. -/
theorem pay8_apply (v32 : FVec Ideal S1x512 .f32) (v35 : FVec Ideal S1x1 .f32) :
    k0_pay8 v32 v35 (ix2 o1 o1) = max (v35 (ix2 o1 o1)) (Cert.Attn.tileMax (fun k => v32 (ix2 o1 k) * scale)) := by
  unfold k0_pay8
  show max (v35 (ix2 o1 o1)) (shapeCast S1x1 _ shapeCasts_S1_S1x1 (ix2 o1 o1)) = _
  rw [cast_S1_S1x1, tile_max]

theorem pay13_apply (v32 : FVec Ideal S1x512 .f32) (v35 : FVec Ideal S1x1 .f32) :
    k0_pay13 v32 v35 (ix2 o1 o1) = max (v35 (ix2 o1 o1)) (Cert.Attn.tileMax (fun k => v32 (ix2 o1 k) * scale)) := by
  unfold k0_pay13
  rw [shapeCast_self]
  exact pay8_apply v32 v35

/-- The factor that rescales what was accumulated under the old maximum. -/
theorem pay9_apply (v32 : FVec Ideal S1x512 .f32) (v35 v39 : FVec Ideal S1x1 .f32) :
    k0_pay9 v32 v35 v39 (ix2 o1 o1) = Ideal.exp (v39 (ix2 o1 o1) - k0_pay8 v32 v35 (ix2 o1 o1)) := rfl

/-- The tile's unnormalized weights. -/
theorem pay10_apply (v32 : FVec Ideal S1x512 .f32) (v35 : FVec Ideal S1x1 .f32) (k : Fin 512) :
    k0_pay10 v32 v35 (ix2 o1 k) = Ideal.exp (v32 (ix2 o1 k) * scale - k0_pay8 v32 v35 (ix2 o1 o1)) := by
  unfold k0_pay10
  show Ideal.exp (k0_pay7 v32 (ix2 o1 k) - broadcastTo S1x512 (k0_pay8 v32 v35) broadcasts_S1x1_S1x512 (ix2 o1 k)) = _
  rw [bcast_S1x1_S1x512, pay7_apply]

/-- A tile's weights summed along the lane axis. -/
theorem tile_sum (src : FVec Ideal S1x512 .f32) (hacc : (0x00000000#32 : BitVec 32) = 0x00000000#32) :
    multiReduction .add [1] S1 src 0x00000000#32 reduces_S1x512_S1 (.inl rfl) hacc (ix1 o1) = ∑ k : Fin 512, src (ix2 o1 k) :=
  (Ideal.multiReduction_add_single src 0x00000000#32 reduces_S1x512_S1 (.inl rfl) hacc (ix1 o1)).trans
    (Finset.sum_congr rfl fun k _ => congrArg src (lift_lane k))

/-- The new running denominator. -/
theorem pay11_apply (v32 : FVec Ideal S1x512 .f32) (v35 v39 v45 : FVec Ideal S1x1 .f32) :
    k0_pay11 v32 v35 v39 v45 (ix2 o1 o1)
      = k0_pay9 v32 v35 v39 (ix2 o1 o1) * v45 (ix2 o1 o1) + ∑ k : Fin 512, k0_pay10 v32 v35 (ix2 o1 k) := by
  unfold k0_pay11
  rw [shapeCast_self]
  show k0_pay9 v32 v35 v39 (ix2 o1 o1) * v45 (ix2 o1 o1) + shapeCast S1x1 _ shapeCasts_S1_S1x1 (ix2 o1 o1) = _
  rw [cast_S1_S1x1, tile_sum]

/-- The new running numerator. -/
theorem pay12_apply (v29 : FVec Ideal S512x1024 .bf16) (v32 : FVec Ideal S1x512 .f32) (v35 v39 : FVec Ideal S1x1 .f32)
    (v53 : FVec Ideal S1x1024 .f32) (d : Fin 1024) :
    k0_pay12 v29 v32 v35 v39 v53 (ix2 o1 d)
      = k0_pay9 v32 v35 v39 (ix2 o1 o1) * v53 (ix2 o1 d) + ∑ k : Fin 512, k0_pay10 v32 v35 (ix2 o1 k) * v29 (ix2 k d) := by
  unfold k0_pay12
  rw [shapeCast_self]
  show broadcastTo S1x1024 (k0_pay9 v32 v35 v39) broadcasts_S1x1_S1x1024 (ix2 o1 d) * v53 (ix2 o1 d)
      + matmul dot_S1x512_S512x1024_S1x1024_1_0_0_1_n_n none (truncf .bf16 (k0_pay10 v32 v35) bitsLt_bf16_f32) v29
          (constant S1x1024 .f32 0x00000000#32) (ix2 o1 d) = _
  rw [bcast_S1x1_S1x1024, dot_S1x512_S512x1024_S1x1024_1_0_0_1_n_n_apply]
  rfl

/-- The carried state as extended reals: the two one-by-one matrices at their entry, the numerator row by coordinate. -/
def toSt (st : Chain.St Ideal) : Cert.Attn.St := (st.1 (ix2 o1 o1), st.2.1 (ix2 o1 o1), fun d => st.2.2 (ix2 o1 d))

/-- The reset state is (-∞, 0, 0). -/
theorem toSt_reset : toSt (Chain.reset (F := Ideal)) = Cert.Attn.init := by
  unfold toSt Chain.reset Cert.Attn.init k0_pay1 k0_pay2 k0_pay3
  simp only [shapeCast_self]
  show ((Ideal.ofBits .f32 0xFF800000#32 : EReal), (Ideal.ofBits .f32 0x00000000#32 : EReal), fun _ : Fin 1024 => (Ideal.ofBits .f32 0x00000000#32 : EReal)) = _
  rw [ofBits_neg_inf, Ideal.ofBits_zero_f32]

/-- One body update is one step of the tile-by-tile accumulation, on the tile's scaled scores and its value rows. -/
theorem toSt_upd (v29 : FVec Ideal S512x1024 .bf16) (v32 : FVec Ideal S1x512 .f32) (st : Chain.St Ideal) :
    toSt (Chain.upd v29 v32 st)
      = Cert.Attn.step (toSt st) (fun k => v32 (ix2 o1 k) * scale) (fun k d => v29 (ix2 k d)) := by
  unfold toSt Chain.upd Cert.Attn.step
  dsimp only
  refine Prod.ext ?_ (Prod.ext ?_ ?_)
  · exact pay13_apply v32 st.1
  · show k0_pay11 v32 st.1 st.1 st.2.1 (ix2 o1 o1) = _
    rw [pay11_apply, pay9_apply, pay8_apply]
    refine congrArg _ (Finset.sum_congr rfl fun k _ => ?_)
    rw [pay10_apply, pay8_apply]
  · funext d
    show k0_pay12 v29 v32 st.1 st.1 st.2.2 (ix2 o1 d) = _
    rw [pay12_apply, pay9_apply, pay8_apply]
    refine congrArg _ (Finset.sum_congr rfl fun k _ => ?_)
    rw [pay10_apply, pay8_apply]

end Cert.KernelIdeal.PayIdx
end
-- ==== Proof.TileIdx.lean ====
/-
  The tile's linear algebra, read at an index over the extended reals. From the tile of inputs `x0` (512 positions × 256
  features), the weights and the biases, the body forms the hidden rows `x0·Wi + bi`, their key and value projections, and the
  raw scores of the row's query against the 512 keys; at the row's last tile it divides the numerator by the denominator and
  projects it. Every product is a plain sum over the contracted coordinate, every bias a row added to each position.
-/
import proofs.«121378_j18708877541425_2_alg».proof.Proof.MatIdx
import Idealize.ShloMosaic.Lib.ValueLayout

set_option maxRecDepth 16384

noncomputable section

open Idealize.ShloMosaic Idealize.ShloMosaic.TcCoe Idealize.SL.Sem
open Idealize.ShloMosaic.Pipeline (Dat)

open scoped BigOperators
namespace Cert.KernelIdeal.TileIdx
open Cert.KernelIdeal Cert.KernelIdeal.Gen Cert.KernelIdeal.PayIdx Idealize.ShloMosaic.ValueIdx

abbrev z1 : Fin 1 := 0

/-- A [1,512,256] block viewed as a [512,256] matrix. -/
theorem drop_S1x512x256 (v : FVec Ideal S1x512x256 .f32) (k : Fin 512) (i : Fin 256) :
    shapeCast S512x256 v shapeCasts_S1x512x256_S512x256 (ix2 k i) = v (ix3 z1 k i) :=
  shapeCast_apply v shapeCasts_S1x512x256_S512x256 (ix2 k i) (ix3 z1 k i) (by
    rw [Shape.rowMajor_val_three, Shape.rowMajor_val_two]
    show (0 * 512 + k.val) * 256 + i.val = k.val * 256 + i.val
    omega)

/-- A [1,1,1024] block viewed as a [1,1024] row. -/
theorem drop_S1x1x1024 (v : FVec Ideal S1x1x1024 .bf16) (e : Fin 1024) :
    shapeCast S1x1024 v shapeCasts_S1x1x1024_S1x1024 (ix2 z1 e) = v (ix3 z1 z1 e) :=
  shapeCast_apply v shapeCasts_S1x1x1024_S1x1024 (ix2 z1 e) (ix3 z1 z1 e) (by
    rw [Shape.rowMajor_val_three, Shape.rowMajor_val_two]
    show (0 * 1 + 0) * 1024 + e.val = 0 * 1024 + e.val
    omega)

/-- A [1,256] row stored as a [1,1,256] block. -/
theorem add_S1x256 (v : FVec Ideal S1x256 .f32) (o : Fin 256) :
    shapeCast S1x1x256 v shapeCasts_S1x256_S1x1x256 (ix3 z1 z1 o) = v (ix2 z1 o) :=
  shapeCast_apply v shapeCasts_S1x256_S1x1x256 (ix3 z1 z1 o) (ix2 z1 o) (by
    rw [Shape.rowMajor_val_three, Shape.rowMajor_val_two]
    show 0 * 256 + o.val = (0 * 1 + 0) * 256 + o.val
    omega)

/-- A bias row added to each of the 512 positions. -/
theorem row_S1x1024_S512x1024 (v : FVec Ideal S1x1024 .f32) (k : Fin 512) (d : Fin 1024) :
    broadcastTo S512x1024 v broadcasts_S1x1024_S512x1024 (ix2 k d) = v (ix2 z1 d) :=
  broadcastTo_apply v broadcasts_S1x1024_S512x1024 (ix2 k d) (ix2 z1 d) (fun a => by match a with | ⟨0, _⟩ => rfl | ⟨1, _⟩ => rfl)

theorem one_S1x1_S1x1024 (v : FVec Ideal S1x1 .f32) (d : Fin 1024) :
    broadcastTo S1x1024 v broadcasts_S1x1_S1x1024 (ix2 z1 d) = v (ix2 z1 z1) :=
  broadcastTo_apply v broadcasts_S1x1_S1x1024 (ix2 z1 d) (ix2 z1 z1) (fun a => by match a with | ⟨0, _⟩ => rfl | ⟨1, _⟩ => rfl)

/-- The hidden rows of the tile: `x0·Wi + bi`. -/
theorem pay4_apply (x0 : FVec Ideal S1x512x256 .f32) (x2 : FVec Ideal S256x1024 .bf16) (x3 : FVec Ideal S1x1024 .f32)
    (k : Fin 512) (d : Fin 1024) :
    (k0_pay4 (F := Ideal) x0 x2 x3 (ix2 k d) : EReal)
      = (∑ i : Fin 256, (x0 (ix3 z1 k i) : EReal) * (x2 (ix2 i d) : EReal)) + (x3 (ix2 z1 d) : EReal) := by
  unfold k0_pay4
  simp only [shapeCast_self]
  show matmul dot_S512x256_S256x1024_S512x1024_1_0_0_1_n_n none
        (truncf .bf16 (shapeCast S512x256 x0 shapeCasts_S1x512x256_S512x256) bitsLt_bf16_f32) x2
        (constant S512x1024 .f32 0x00000000#32) (ix2 k d)
      + broadcastTo S512x1024 x3 broadcasts_S1x1024_S512x1024 (ix2 k d) = _
  rw [dot_S512x256_S256x1024_S512x1024_1_0_0_1_n_n_apply, row_S1x1024_S512x1024]
  refine congrArg (· + x3 (ix2 z1 d)) (Finset.sum_congr rfl fun i _ => ?_)
  show shapeCast S512x256 x0 shapeCasts_S1x512x256_S512x256 (ix2 k i) * x2 (ix2 i d) = _
  rw [drop_S1x512x256]

/-- The value rows of the tile: `h·Wv + bv`. -/
theorem pay5_apply (x0 : FVec Ideal S1x512x256 .f32) (x2 : FVec Ideal S256x1024 .bf16) (x3 : FVec Ideal S1x1024 .f32)
    (x6 : FVec Ideal S1024x1024 .bf16) (x7 : FVec Ideal S1x1024 .f32) (k : Fin 512) (e : Fin 1024) :
    (k0_pay5 (F := Ideal) x0 x2 x3 x6 x7 (ix2 k e) : EReal)
      = (∑ d : Fin 1024, (k0_pay4 (F := Ideal) x0 x2 x3 (ix2 k d) : EReal) * (x6 (ix2 d e) : EReal)) + (x7 (ix2 z1 e) : EReal) := by
  unfold k0_pay5
  simp only [shapeCast_self]
  show matmul dot_S512x1024_S1024x1024_S512x1024_1_0_0_1_n_n none (k0_pay4 x0 x2 x3) x6
        (constant S512x1024 .f32 0x00000000#32) (ix2 k e)
      + broadcastTo S512x1024 x7 broadcasts_S1x1024_S512x1024 (ix2 k e) = _
  rw [dot_S512x1024_S1024x1024_S512x1024_1_0_0_1_n_n_apply, row_S1x1024_S512x1024]

/-- The raw scores: the row's query against each of the tile's key rows `h·Wk + bk`. -/
theorem pay6_apply (x0 : FVec Ideal S1x512x256 .f32) (x2 : FVec Ideal S256x1024 .bf16) (x3 : FVec Ideal S1x1024 .f32)
    (x4 : FVec Ideal S1024x1024 .bf16) (x5 : FVec Ideal S1x1024 .f32) (x1 : FVec Ideal S1x1x1024 .bf16) (k : Fin 512) :
    (k0_pay6 (F := Ideal) x0 x2 x3 x4 x5 x1 (ix2 z1 k) : EReal)
      = ∑ e : Fin 1024, (x1 (ix3 z1 z1 e) : EReal)
          * ((∑ d : Fin 1024, (k0_pay4 (F := Ideal) x0 x2 x3 (ix2 k d) : EReal) * (x4 (ix2 d e) : EReal)) + (x5 (ix2 z1 e) : EReal)) := by
  unfold k0_pay6
  simp only [shapeCast_self]
  rw [dot_S1x1024_S512x1024_S1x512_1_1_0_0_n_n_apply]
  refine Finset.sum_congr rfl fun e _ => ?_
  rw [drop_S1x1x1024]
  show x1 (ix3 z1 z1 e) * (matmul dot_S512x1024_S1024x1024_S512x1024_1_0_0_1_n_n none (k0_pay4 x0 x2 x3) x4
        (constant S512x1024 .f32 0x00000000#32) (ix2 k e)
      + broadcastTo S512x1024 x5 broadcasts_S1x1024_S512x1024 (ix2 k e)) = _
  rw [dot_S512x1024_S1024x1024_S512x1024_1_0_0_1_n_n_apply, row_S1x1024_S512x1024]

/-- The output block: the numerator over the denominator, projected, plus the output bias. -/
theorem pay14_apply (v68 : FVec Ideal S1x1024 .f32) (v69 : FVec Ideal S1x1 .f32) (v73 : FVec Ideal S1024x256 .bf16)
    (v76 : FVec Ideal S1x256 .f32) (o : Fin 256) :
    (k0_pay14 (F := Ideal) v68 v69 v73 v76 (ix3 z1 z1 o) : EReal)
      = (∑ d : Fin 1024, Ideal.div (v68 (ix2 z1 d)) (v69 (ix2 z1 z1)) * (v73 (ix2 d o) : EReal)) + (v76 (ix2 z1 o) : EReal) := by
  unfold k0_pay14
  simp only [shapeCast_self]
  rw [add_S1x256]
  show matmul dot_S1x1024_S1024x256_S1x256_1_0_0_1_n_n none
        (truncf .bf16 (divf v68 (broadcastTo S1x1024 v69 broadcasts_S1x1_S1x1024)) bitsLt_bf16_f32) v73
        (constant S1x256 .f32 0x00000000#32) (ix2 z1 o) + v76 (ix2 z1 o) = _
  rw [dot_S1x1024_S1024x256_S1x256_1_0_0_1_n_n_apply]
  refine congrArg (· + v76 (ix2 z1 o)) (Finset.sum_congr rfl fun d _ => ?_)
  show Ideal.div (v68 (ix2 z1 d)) (broadcastTo S1x1024 v69 broadcasts_S1x1_S1x1024 (ix2 z1 d)) * v73 (ix2 d o) = _
  rw [one_S1x1_S1x1024]

end Cert.KernelIdeal.TileIdx
end
-- ==== Proof.Blocks.lean ====
/-
  What each input window's block holds at a grid point, as entries of the window's array on entry to the region. The grid
  is 8 batch rows × 4 key tiles in row-major order, so point `t` is tile `t % 4` of row `t / 4`: the input window reads
  positions `512·(t % 4) … 512·(t % 4) + 511` of row `t / 4`, the query window reads row `t / 4`, and the weight and bias
  windows read their whole arrays at every point.
-/
import proofs.«121378_j18708877541425_2_alg».proof.Proof.Gen.KernelIdeal.Frame.Runs
import Idealize.ShloMosaic.Lib.ValueIdx
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Blocks
open Cert.KernelIdeal Cert.KernelIdeal.Gen Idealize.ShloMosaic.ValueIdx
variable {F : FTy → Type} [FloatOps F]
variable (m : (ℓ : Loc nD τ sig) → Buf (Elt F) ℓ)

/-- The batch row of a grid point. -/
def row (t : Fin cfg0.N) : Fin 8 := ⟨t.val / 4, by have := t.isLt; have hN : cfg0.N = 32 := N_0; omega⟩

/-- The key tile of a grid point. -/
def tile (t : Fin cfg0.N) : Fin 4 := ⟨t.val % 4, by omega⟩

/-- Position `k` of tile `s` among the row's 2048 positions. -/
def at512 (s : Fin 4) (k : Fin 512) : Fin 2048 := ⟨512 * s.val + k.val, by have := s.isLt; have := k.isLt; omega⟩

theorem idx0 : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)

/-- The input block: 512 consecutive positions of the point's batch row. -/
theorem blk0 (c : Dev nD) (t : Fin cfg0.N) (z : Fin 1) (k : Fin 512) (i : Fin 256) :
    iblk m c 0 t (ix3 z k i) = V m c main_arg0 (ix3 (row t) (at512 (tile t) k) i) := by
  obtain ⟨e0, e1, e2⟩ := idx0 t
  have hz : z.val = 0 := by have := z.isLt; omega
  unfold iblk
  rw [View.read_apply]
  show V m c main_arg0 _ = V m c main_arg0 _
  refine congrArg (V m c main_arg0) (funext fun a => Fin.ext ?_)
  match a with
  | ⟨0, _⟩ => show win0_0.index t (0 : Fin 3) * 1 + 1 * z.val = t.val / 4; omega
  | ⟨1, _⟩ => show win0_0.index t (1 : Fin 3) * 512 + 1 * k.val = 512 * (t.val % 4) + k.val; omega
  | ⟨2, _⟩ => show win0_0.index t (2 : Fin 3) * 256 + 1 * i.val = i.val; omega

theorem idx1 : ∀ t : Fin cfg0.N, win0_1.index t (0 : Fin 3) = t.val / 4 ∧ win0_1.index t (1 : Fin 3) = 0
    ∧ win0_1.index t (2 : Fin 3) = 0 :=
  (by decide +kernel : ∀ t : Fin grid0.N, _)

/-- The query block: the one query row of the point's batch row. -/
theorem blk1 (c : Dev nD) (t : Fin cfg0.N) (z z' : Fin 1) (e : Fin 1024) :
    iblk m c 1 t (ix3 z z' e) = V m c main_v22 (ix3 (row t) z' e) := by
  obtain ⟨e0, e1, e2⟩ := idx1 t
  have hz : z.val = 0 := by have := z.isLt; omega
  unfold iblk
  rw [View.read_apply]
  show V m c main_v22 _ = V m c main_v22 _
  refine congrArg (V m c main_v22) (funext fun a => Fin.ext ?_)
  match a with
  | ⟨0, _⟩ => show win0_1.index t (0 : Fin 3) * 1 + 1 * z.val = t.val / 4; omega
  | ⟨1, _⟩ => show win0_1.index t (1 : Fin 3) * 1 + 1 * z'.val = z'.val; omega
  | ⟨2, _⟩ => show win0_1.index t (2 : Fin 3) * 1024 + 1 * e.val = e.val; omega

theorem idx2 : ∀ t : Fin cfg0.N, win0_2.index t (0 : Fin 2) = 0 ∧ win0_2.index t (1 : Fin 2) = 0 :=
  (by decide +kernel : ∀ t : Fin grid0.N, _)

/-- The input-projection weights, whole. -/
theorem blk2 (c : Dev nD) (t : Fin cfg0.N) (p : Fin 256) (q : Fin 1024) :
    iblk m c 2 t (ix2 p q) = V m c main_v0 (ix2 p q) := by
  obtain ⟨e0, e1⟩ := idx2 t
  unfold iblk
  rw [View.read_apply]
  show V m c main_v0 _ = V m c main_v0 _
  refine congrArg (V m c main_v0) (funext fun a => Fin.ext ?_)
  match a with
  | ⟨0, _⟩ => show win0_2.index t (0 : Fin 2) * 256 + 1 * p.val = p.val; omega
  | ⟨1, _⟩ => show win0_2.index t (1 : Fin 2) * 1024 + 1 * q.val = q.val; omega

theorem idx3 : ∀ t : Fin cfg0.N, win0_3.index t (0 : Fin 2) = 0 ∧ win0_3.index t (1 : Fin 2) = 0 :=
  (by decide +kernel : ∀ t : Fin grid0.N, _)

/-- The input-projection bias row, whole. -/
theorem blk3 (c : Dev nD) (t : Fin cfg0.N) (p : Fin 1) (q : Fin 1024) :
    iblk m c 3 t (ix2 p q) = V m c main_v5 (ix2 p q) := by
  obtain ⟨e0, e1⟩ := idx3 t
  unfold iblk
  rw [View.read_apply]
  show V m c main_v5 _ = V m c main_v5 _
  refine congrArg (V m c main_v5) (funext fun a => Fin.ext ?_)
  match a with
  | ⟨0, _⟩ => show win0_3.index t (0 : Fin 2) * 1 + 1 * p.val = p.val; omega
  | ⟨1, _⟩ => show win0_3.index t (1 : Fin 2) * 1024 + 1 * q.val = q.val; omega

theorem idx4 : ∀ t : Fin cfg0.N, win0_4.index t (0 : Fin 2) = 0 ∧ win0_4.index t (1 : Fin 2) = 0 :=
  (by decide +kernel : ∀ t : Fin grid0.N, _)

/-- The key-projection weights, whole. -/
theorem blk4 (c : Dev nD) (t : Fin cfg0.N) (p : Fin 1024) (q : Fin 1024) :
    iblk m c 4 t (ix2 p q) = V m c main_v2 (ix2 p q) := by
  obtain ⟨e0, e1⟩ := idx4 t
  unfold iblk
  rw [View.read_apply]
  show V m c main_v2 _ = V m c main_v2 _
  refine congrArg (V m c main_v2) (funext fun a => Fin.ext ?_)
  match a with
  | ⟨0, _⟩ => show win0_4.index t (0 : Fin 2) * 1024 + 1 * p.val = p.val; omega
  | ⟨1, _⟩ => show win0_4.index t (1 : Fin 2) * 1024 + 1 * q.val = q.val; omega

theorem idx5 : ∀ t : Fin cfg0.N, win0_5.index t (0 : Fin 2) = 0 ∧ win0_5.index t (1 : Fin 2) = 0 :=
  (by decide +kernel : ∀ t : Fin grid0.N, _)

/-- The key-projection bias row, whole. -/
theorem blk5 (c : Dev nD) (t : Fin cfg0.N) (p : Fin 1) (q : Fin 1024) :
    iblk m c 5 t (ix2 p q) = V m c main_v6 (ix2 p q) := by
  obtain ⟨e0, e1⟩ := idx5 t
  unfold iblk
  rw [View.read_apply]
  show V m c main_v6 _ = V m c main_v6 _
  refine congrArg (V m c main_v6) (funext fun a => Fin.ext ?_)
  match a with
  | ⟨0, _⟩ => show win0_5.index t (0 : Fin 2) * 1 + 1 * p.val = p.val; omega
  | ⟨1, _⟩ => show win0_5.index t (1 : Fin 2) * 1024 + 1 * q.val = q.val; omega

theorem idx6 : ∀ t : Fin cfg0.N, win0_6.index t (0 : Fin 2) = 0 ∧ win0_6.index t (1 : Fin 2) = 0 :=
  (by decide +kernel : ∀ t : Fin grid0.N, _)

/-- The value-projection weights, whole. -/
theorem blk6 (c : Dev nD) (t : Fin cfg0.N) (p : Fin 1024) (q : Fin 1024) :
    iblk m c 6 t (ix2 p q) = V m c main_v3 (ix2 p q) := by
  obtain ⟨e0, e1⟩ := idx6 t
  unfold iblk
  rw [View.read_apply]
  show V m c main_v3 _ = V m c main_v3 _
  refine congrArg (V m c main_v3) (funext fun a => Fin.ext ?_)
  match a with
  | ⟨0, _⟩ => show win0_6.index t (0 : Fin 2) * 1024 + 1 * p.val = p.val; omega
  | ⟨1, _⟩ => show win0_6.index t (1 : Fin 2) * 1024 + 1 * q.val = q.val; omega

theorem idx7 : ∀ t : Fin cfg0.N, win0_7.index t (0 : Fin 2) = 0 ∧ win0_7.index t (1 : Fin 2) = 0 :=
  (by decide +kernel : ∀ t : Fin grid0.N, _)

/-- The value-projection bias row, whole. -/
theorem blk7 (c : Dev nD) (t : Fin cfg0.N) (p : Fin 1) (q : Fin 1024) :
    iblk m c 7 t (ix2 p q) = V m c main_v7 (ix2 p q) := by
  obtain ⟨e0, e1⟩ := idx7 t
  unfold iblk
  rw [View.read_apply]
  show V m c main_v7 _ = V m c main_v7 _
  refine congrArg (V m c main_v7) (funext fun a => Fin.ext ?_)
  match a with
  | ⟨0, _⟩ => show win0_7.index t (0 : Fin 2) * 1 + 1 * p.val = p.val; omega
  | ⟨1, _⟩ => show win0_7.index t (1 : Fin 2) * 1024 + 1 * q.val = q.val; omega

theorem idx8 : ∀ t : Fin cfg0.N, win0_8.index t (0 : Fin 2) = 0 ∧ win0_8.index t (1 : Fin 2) = 0 :=
  (by decide +kernel : ∀ t : Fin grid0.N, _)

/-- The output-projection weights, whole. -/
theorem blk8 (c : Dev nD) (t : Fin cfg0.N) (p : Fin 1024) (q : Fin 256) :
    iblk m c 8 t (ix2 p q) = V m c main_v4 (ix2 p q) := by
  obtain ⟨e0, e1⟩ := idx8 t
  unfold iblk
  rw [View.read_apply]
  show V m c main_v4 _ = V m c main_v4 _
  refine congrArg (V m c main_v4) (funext fun a => Fin.ext ?_)
  match a with
  | ⟨0, _⟩ => show win0_8.index t (0 : Fin 2) * 1024 + 1 * p.val = p.val; omega
  | ⟨1, _⟩ => show win0_8.index t (1 : Fin 2) * 256 + 1 * q.val = q.val; omega

theorem idx9 : ∀ t : Fin cfg0.N, win0_9.index t (0 : Fin 2) = 0 ∧ win0_9.index t (1 : Fin 2) = 0 :=
  (by decide +kernel : ∀ t : Fin grid0.N, _)

/-- The output-projection bias row, whole. -/
theorem blk9 (c : Dev nD) (t : Fin cfg0.N) (p : Fin 1) (q : Fin 256) :
    iblk m c 9 t (ix2 p q) = V m c main_v8 (ix2 p q) := by
  obtain ⟨e0, e1⟩ := idx9 t
  unfold iblk
  rw [View.read_apply]
  show V m c main_v8 _ = V m c main_v8 _
  refine congrArg (V m c main_v8) (funext fun a => Fin.ext ?_)
  match a with
  | ⟨0, _⟩ => show win0_9.index t (0 : Fin 2) * 1 + 1 * p.val = p.val; omega
  | ⟨1, _⟩ => show win0_9.index t (1 : Fin 2) * 256 + 1 * q.val = q.val; omega

end Cert.KernelIdeal.Blocks
end
-- ==== Proof.HostIn.lean ====
/-
  What the host operations before the kernel's region leave in the arrays the region reads, at the ideal values.

  Before the region the program changes the format of the five weight matrices (the identity on the extended reals),
  reshapes the four bias vectors to one row each, and computes the query of the LAST position alone: row 2047 of the
  input sliced out, projected to the hidden width (`x·Wi + bi`), and projected again by the query weights
  (`h·Wq + bq`), with changes of format in between that are the identity here. Each array is read at explicit
  coordinates as the corresponding function of the argument arrays' launch contents.
-/
import proofs.«121378_j18708877541425_2_alg».proof.Proof.Gen.KernelIdeal.Frame.Runs
import proofs.«121378_j18708877541425_2_alg».proof.Proof.AttnSpec
import Idealize.ShloMosaic.Lib.ValueIdx
import Idealize.ShloMosaic.Lib.Pipeline.Value
import Idealize.ShloMosaic.Lib.StableHlo.Run
import Idealize.ShloMosaic.PureOps.Ideal.Laws

noncomputable section

open scoped BigOperators

namespace Cert.KernelIdeal.HostIn

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

/-- An argument array's contents at launch. -/
abbrev A (k : Ref sig .tc) : Buf (Elt Ideal) ((c : Thread nD τ).loc k) := m ((c : Thread nD τ).loc k)

/-! ## The weights: a change of format, the identity at the ideal values -/

/-- The input weights after the change of format are the input weights. -/
theorem v0_eq : @Eq (S256x1024.Idx → EReal) (V m c main_v0)
    (truncf (F := Ideal) (s := S256x1024) (φ := .f32) .bf16 (A m c main_arg1) bitsLt_bf16_f32) := by
  show StableHlo.after hostOps0 (fun b => m (c, b)) (Proc.devRef .tc main_v0) = _
  after_results

theorem wi_apply (i : Fin 256) (d : Fin 1024) :
    (V m c main_v0 : S256x1024.Idx → EReal) (ix2 i d) = A m c main_arg1 (ix2 i d) := by
  rw [v0_eq]; rfl

/-- The key weights after the change of format are the key weights. -/
theorem v2_eq : @Eq (S1024x1024.Idx → EReal) (V m c main_v2)
    (truncf (F := Ideal) (s := S1024x1024) (φ := .f32) .bf16 (A m c main_arg5) bitsLt_bf16_f32) := by
  show StableHlo.after hostOps0 (fun b => m (c, b)) (Proc.devRef .tc main_v2) = _
  after_results

theorem wk_apply (d : Fin 1024) (e : Fin 1024) :
    (V m c main_v2 : S1024x1024.Idx → EReal) (ix2 d e) = A m c main_arg5 (ix2 d e) := by
  rw [v2_eq]; rfl

/-- The value weights after the change of format are the value weights. -/
theorem v3_eq : @Eq (S1024x1024.Idx → EReal) (V m c main_v3)
    (truncf (F := Ideal) (s := S1024x1024) (φ := .f32) .bf16 (A m c main_arg7) bitsLt_bf16_f32) := by
  show StableHlo.after hostOps0 (fun b => m (c, b)) (Proc.devRef .tc main_v3) = _
  after_results

theorem wv_apply (d : Fin 1024) (e : Fin 1024) :
    (V m c main_v3 : S1024x1024.Idx → EReal) (ix2 d e) = A m c main_arg7 (ix2 d e) := by
  rw [v3_eq]; rfl

/-- The output weights after the change of format are the output weights. -/
theorem v4_eq : @Eq (S1024x256.Idx → EReal) (V m c main_v4)
    (truncf (F := Ideal) (s := S1024x256) (φ := .f32) .bf16 (A m c main_arg9) bitsLt_bf16_f32) := by
  show StableHlo.after hostOps0 (fun b => m (c, b)) (Proc.devRef .tc main_v4) = _
  after_results

theorem wo_apply (d : Fin 1024) (o : Fin 256) :
    (V m c main_v4 : S1024x256.Idx → EReal) (ix2 d o) = A m c main_arg9 (ix2 d o) := by
  rw [v4_eq]; rfl

/-! ## The biases: a vector reshaped to one row -/

/-- The input bias as one row. -/
theorem v5_eq : @Eq (S1x1024.Idx → EReal) (V m c main_v5)
    (shapeCast S1x1024 (A m c main_arg2 : S1024.Idx → EReal) shapeCasts_S1024_S1x1024) := by
  show StableHlo.after hostOps0 (fun b => m (c, b)) (Proc.devRef .tc main_v5) = _
  after_results
  rfl

theorem bi_apply (z : Fin 1) (d : Fin 1024) :
    (V m c main_v5 : S1x1024.Idx → EReal) (ix2 z d) = A m c main_arg2 (ix1 d) := by
  rw [v5_eq]
  exact shapeCast_apply _ _ (ix2 z d) (ix1 d) (by
    rw [Shape.rowMajor_val_one, Shape.rowMajor_val_two]
    show d.val = z.val * 1024 + d.val
    have := z.isLt
    omega)

/-- The key bias as one row. -/
theorem v6_eq : @Eq (S1x1024.Idx → EReal) (V m c main_v6)
    (shapeCast S1x1024 (A m c main_arg6 : S1024.Idx → EReal) shapeCasts_S1024_S1x1024) := by
  show StableHlo.after hostOps0 (fun b => m (c, b)) (Proc.devRef .tc main_v6) = _
  after_results
  rfl

theorem bk_apply (z : Fin 1) (e : Fin 1024) :
    (V m c main_v6 : S1x1024.Idx → EReal) (ix2 z e) = A m c main_arg6 (ix1 e) := by
  rw [v6_eq]
  exact shapeCast_apply _ _ (ix2 z e) (ix1 e) (by
    rw [Shape.rowMajor_val_one, Shape.rowMajor_val_two]
    show e.val = z.val * 1024 + e.val
    have := z.isLt
    omega)

/-- The value bias as one row. -/
theorem v7_eq : @Eq (S1x1024.Idx → EReal) (V m c main_v7)
    (shapeCast S1x1024 (A m c main_arg8 : S1024.Idx → EReal) shapeCasts_S1024_S1x1024) := by
  show StableHlo.after hostOps0 (fun b => m (c, b)) (Proc.devRef .tc main_v7) = _
  after_results
  rfl

theorem bv_apply (z : Fin 1) (e : Fin 1024) :
    (V m c main_v7 : S1x1024.Idx → EReal) (ix2 z e) = A m c main_arg8 (ix1 e) := by
  rw [v7_eq]
  exact shapeCast_apply _ _ (ix2 z e) (ix1 e) (by
    rw [Shape.rowMajor_val_one, Shape.rowMajor_val_two]
    show e.val = z.val * 1024 + e.val
    have := z.isLt
    omega)

/-- The output bias as one row. -/
theorem v8_eq : @Eq (S1x256.Idx → EReal) (V m c main_v8)
    (shapeCast S1x256 (A m c main_arg10 : S256.Idx → EReal) shapeCasts_S256_S1x256) := by
  show StableHlo.after hostOps0 (fun b => m (c, b)) (Proc.devRef .tc main_v8) = _
  after_results
  rfl

theorem bo_apply (z : Fin 1) (o : Fin 256) :
    (V m c main_v8 : S1x256.Idx → EReal) (ix2 z o) = A m c main_arg10 (ix1 o) := by
  rw [v8_eq]
  exact shapeCast_apply _ _ (ix2 z o) (ix1 o) (by
    rw [Shape.rowMajor_val_one, Shape.rowMajor_val_two]
    show o.val = z.val * 256 + o.val
    have := z.isLt
    omega)

/-! ## The two matrix products of the query's computation -/

/-- The host's matrix product at the ideal values, at row `b` and column `e`: the sum over the contracted coordinate. -/
theorem dotIn_apply (l : FVec Ideal S8x256 .bf16) (r : FVec Ideal S256x1024 .bf16) (b : Fin 8) (e : Fin 1024) :
    Host.dotGeneral dot_S8x256_S256x1024_S8x1024_1_0_0_1_n_n none l r (ix2 b e) = ∑ k : Fin 256, l (ix2 b k) * r (ix2 k e) := by
  simp only [Host.dotGeneral]
  rw [Ideal.dotGeneral_apply, ← Equiv.sum_comp (ValueIdx.contrEquiv1 dot_S8x256_S256x1024_S8x1024_1_0_0_1_n_n 256 rfl rfl).symm]
  refine Finset.sum_congr rfl fun k _ => ?_
  have hk := ValueIdx.contrEquiv1_symm_val dot_S8x256_S256x1024_S8x1024_1_0_0_1_n_n 256 rfl rfl k
  have l0 : ∀ q : dot_S8x256_S256x1024_S8x1024_1_0_0_1_n_n.contr.Idx, (dot_S8x256_S256x1024_S8x1024_1_0_0_1_n_n.lhsIdx (ix2 b e) q 0).val = b.val := fun q => by
    unfold DotDims.lhsIdx
    rw [dif_neg (show ¬(0 : Fin S8x256.rank) ∈ dot_S8x256_S256x1024_S8x1024_1_0_0_1_n_n.lhsBatch by decide), dif_pos (show (0 : Fin S8x256.rank) ∈ dot_S8x256_S256x1024_S8x1024_1_0_0_1_n_n.lhsNonContracting by decide)]
    rfl
  have r1 : ∀ q : dot_S8x256_S256x1024_S8x1024_1_0_0_1_n_n.contr.Idx, (dot_S8x256_S256x1024_S8x1024_1_0_0_1_n_n.rhsIdx (ix2 b e) q 1).val = e.val := fun q => by
    unfold DotDims.rhsIdx
    rw [dif_neg (show ¬(1 : Fin S256x1024.rank) ∈ dot_S8x256_S256x1024_S8x1024_1_0_0_1_n_n.rhsBatch by decide), dif_pos (show (1 : Fin S256x1024.rank) ∈ dot_S8x256_S256x1024_S8x1024_1_0_0_1_n_n.rhsNonContracting by decide)]
    rfl
  have el : dot_S8x256_S256x1024_S8x1024_1_0_0_1_n_n.lhsIdx (ix2 b e) ((ValueIdx.contrEquiv1 dot_S8x256_S256x1024_S8x1024_1_0_0_1_n_n 256 rfl rfl).symm k) = ix2 b k := funext fun a => Fin.ext (by
    match a with
    | ⟨0, _⟩ => exact l0 _
    | ⟨1, _⟩ => exact (dot_S8x256_S256x1024_S8x1024_1_0_0_1_n_n.lhsIdx_val_of_single rfl _ _).trans hk)
  have er : dot_S8x256_S256x1024_S8x1024_1_0_0_1_n_n.rhsIdx (ix2 b e) ((ValueIdx.contrEquiv1 dot_S8x256_S256x1024_S8x1024_1_0_0_1_n_n 256 rfl rfl).symm k) = ix2 k e := funext fun a => Fin.ext (by
    match a with
    | ⟨0, _⟩ => exact (dot_S8x256_S256x1024_S8x1024_1_0_0_1_n_n.rhsIdx_val_of_single rfl _ _).trans hk
    | ⟨1, _⟩ => exact r1 _)
  rw [el, er]

/-- The host's matrix product at the ideal values, at row `b` and column `e`: the sum over the contracted coordinate. -/
theorem dotQ_apply (l : FVec Ideal S8x1024 .bf16) (r : FVec Ideal S1024x1024 .bf16) (b : Fin 8) (e : Fin 1024) :
    Host.dotGeneral dot_S8x1024_S1024x1024_S8x1024_1_0_0_1_n_n none l r (ix2 b e) = ∑ k : Fin 1024, l (ix2 b k) * r (ix2 k e) := by
  simp only [Host.dotGeneral]
  rw [Ideal.dotGeneral_apply, ← Equiv.sum_comp (ValueIdx.contrEquiv1 dot_S8x1024_S1024x1024_S8x1024_1_0_0_1_n_n 1024 rfl rfl).symm]
  refine Finset.sum_congr rfl fun k _ => ?_
  have hk := ValueIdx.contrEquiv1_symm_val dot_S8x1024_S1024x1024_S8x1024_1_0_0_1_n_n 1024 rfl rfl k
  have l0 : ∀ q : dot_S8x1024_S1024x1024_S8x1024_1_0_0_1_n_n.contr.Idx, (dot_S8x1024_S1024x1024_S8x1024_1_0_0_1_n_n.lhsIdx (ix2 b e) q 0).val = b.val := fun q => by
    unfold DotDims.lhsIdx
    rw [dif_neg (show ¬(0 : Fin S8x1024.rank) ∈ dot_S8x1024_S1024x1024_S8x1024_1_0_0_1_n_n.lhsBatch by decide), dif_pos (show (0 : Fin S8x1024.rank) ∈ dot_S8x1024_S1024x1024_S8x1024_1_0_0_1_n_n.lhsNonContracting by decide)]
    rfl
  have r1 : ∀ q : dot_S8x1024_S1024x1024_S8x1024_1_0_0_1_n_n.contr.Idx, (dot_S8x1024_S1024x1024_S8x1024_1_0_0_1_n_n.rhsIdx (ix2 b e) q 1).val = e.val := fun q => by
    unfold DotDims.rhsIdx
    rw [dif_neg (show ¬(1 : Fin S1024x1024.rank) ∈ dot_S8x1024_S1024x1024_S8x1024_1_0_0_1_n_n.rhsBatch by decide), dif_pos (show (1 : Fin S1024x1024.rank) ∈ dot_S8x1024_S1024x1024_S8x1024_1_0_0_1_n_n.rhsNonContracting by decide)]
    rfl
  have el : dot_S8x1024_S1024x1024_S8x1024_1_0_0_1_n_n.lhsIdx (ix2 b e) ((ValueIdx.contrEquiv1 dot_S8x1024_S1024x1024_S8x1024_1_0_0_1_n_n 1024 rfl rfl).symm k) = ix2 b k := funext fun a => Fin.ext (by
    match a with
    | ⟨0, _⟩ => exact l0 _
    | ⟨1, _⟩ => exact (dot_S8x1024_S1024x1024_S8x1024_1_0_0_1_n_n.lhsIdx_val_of_single rfl _ _).trans hk)
  have er : dot_S8x1024_S1024x1024_S8x1024_1_0_0_1_n_n.rhsIdx (ix2 b e) ((ValueIdx.contrEquiv1 dot_S8x1024_S1024x1024_S8x1024_1_0_0_1_n_n 1024 rfl rfl).symm k) = ix2 k e := funext fun a => Fin.ext (by
    match a with
    | ⟨0, _⟩ => exact (dot_S8x1024_S1024x1024_S8x1024_1_0_0_1_n_n.rhsIdx_val_of_single rfl _ _).trans hk
    | ⟨1, _⟩ => exact r1 _)
  rw [el, er]

/-! ## The query of the last position -/

/-- Row 2047 of the input of every batch row, as an [8, 256] array. -/
def xLast : FVec Ideal S8x256 .bf16 :=
  truncf (F := Ideal) .bf16
    (shapeCast S8x256 (extractStridedSlice S8x1x256 ![0, 2047, 0] (A m c main_arg0 : S8x2048x256.Idx → EReal)
      slices_S8x2048x256_S8x1x256_0_2047_0) shapeCasts_S8x1x256_S8x256 : FVec Ideal S8x256 .f32) bitsLt_bf16_f32

/-- Its hidden state: the product with the input weights plus the broadcast bias. -/
def hLast : FVec Ideal S8x1024 .f32 :=
  addf (Host.dotGeneral dot_S8x256_S256x1024_S8x1024_1_0_0_1_n_n none (xLast m c)
      (truncf (F := Ideal) (s := S256x1024) (φ := .f32) .bf16 (A m c main_arg1) bitsLt_bf16_f32))
    (broadcastInDim S8x1024 ![0, 1] bcast_S1x1024_S8x1024_0_1
      (broadcastInDim S1x1024 ![1] bcast_S1024_S1x1024_1 (A m c main_arg2 : S1024.Idx → EReal)))

/-- Its query: the product of the hidden state with the query weights plus the broadcast bias. -/
def qLast : FVec Ideal S8x1024 .f32 :=
  addf (Host.dotGeneral dot_S8x1024_S1024x1024_S8x1024_1_0_0_1_n_n none
      (truncf (F := Ideal) .bf16 (hLast m c) bitsLt_bf16_f32)
      (truncf (F := Ideal) (s := S1024x1024) (φ := .f32) .bf16 (A m c main_arg3) bitsLt_bf16_f32))
    (broadcastInDim S8x1024 ![0, 1] bcast_S1x1024_S8x1024_0_1
      (broadcastInDim S1x1024 ![1] bcast_S1024_S1x1024_1 (A m c main_arg4 : S1024.Idx → EReal)))

/-- The array the region reads its query from is that query, reshaped to [8, 1, 1024]. -/
theorem v22_eq : @Eq (S8x1x1024.Idx → EReal) (V m c main_v22)
    (shapeCast S8x1x1024 (truncf (F := Ideal) .bf16 (qLast m c) bitsLt_bf16_f32 : S8x1024.Idx → EReal)
      shapeCasts_S8x1024_S8x1x1024) := by
  show StableHlo.after hostOps0 (fun b => m (c, b)) (Proc.devRef .tc main_v22) = _
  after_results_simp
  rfl

/-- Row 2047 of the input at batch row `b`, feature `i`. -/
theorem xLast_apply (b : Fin 8) (i : Fin 256) : xLast m c (ix2 b i) = A m c main_arg0 (ix3 b Cert.Attn.lastPos i) := by
  unfold xLast
  rw [truncf_apply]
  refine (shapeCast_apply _ shapeCasts_S8x1x256_S8x256 (ix2 b i) (ix3 b (0 : Fin 1) i) (by
    rw [Shape.rowMajor_val_three, Shape.rowMajor_val_two]
    show (b.val * 1 + 0) * 256 + i.val = b.val * 256 + i.val
    omega)).trans ?_
  exact extractStridedSlice_apply _ _ slices_S8x2048x256_S8x1x256_0_2047_0 (ix3 b (0 : Fin 1) i) (ix3 b Cert.Attn.lastPos i) (fun a => by
    match a with
    | ⟨0, _⟩ => show b.val = 0 + b.val; omega
    | ⟨1, _⟩ => rfl
    | ⟨2, _⟩ => show i.val = 0 + i.val; omega)

/-- A bias broadcast over the batch rows, at (b, d), is the bias at `d`. -/
theorem bias_apply (x : S1024.Idx → EReal) (b : Fin 8) (d : Fin 1024) :
    broadcastInDim S8x1024 ![0, 1] bcast_S1x1024_S8x1024_0_1 (broadcastInDim S1x1024 ![1] bcast_S1024_S1x1024_1 x) (ix2 b d)
      = x (ix1 d) := by
  refine (broadcastInDim_apply _ bcast_S1x1024_S8x1024_0_1 _ (ix2 b d) (ix2 (0 : Fin 1) d) (fun a => by
    match a with
    | ⟨0, _⟩ => show 0 = if (1 : Nat) = 1 then 0 else b.val; rw [if_pos rfl]
    | ⟨1, _⟩ => show d.val = if (1024 : Nat) = 1 then 0 else d.val; rw [if_neg (by decide)])).trans ?_
  exact broadcastInDim_apply _ bcast_S1024_S1x1024_1 x (ix2 (0 : Fin 1) d) (ix1 d) (fun a => by
    match a with
    | ⟨0, _⟩ => show d.val = if (1024 : Nat) = 1 then 0 else d.val; rw [if_neg (by decide)])

/-- The hidden state of the last position. -/
theorem hLast_apply (b : Fin 8) (d : Fin 1024) :
    hLast m c (ix2 b d)
      = Cert.Attn.hidden (fun b p i => A m c main_arg0 (ix3 b p i)) (fun i d => A m c main_arg1 (ix2 i d))
          (fun d => A m c main_arg2 (ix1 d)) b Cert.Attn.lastPos d := by
  unfold hLast Cert.Attn.hidden
  rw [addf_apply, dotIn_apply, bias_apply]
  simp only [xLast_apply, truncf_apply]

/-- The query of the last position. -/
theorem qLast_apply (b : Fin 8) (e : Fin 1024) :
    qLast m c (ix2 b e)
      = Cert.Attn.proj (Cert.Attn.hidden (fun b p i => A m c main_arg0 (ix3 b p i)) (fun i d => A m c main_arg1 (ix2 i d))
            (fun d => A m c main_arg2 (ix1 d)))
          (fun d e => A m c main_arg3 (ix2 d e)) (fun e => A m c main_arg4 (ix1 e)) b Cert.Attn.lastPos e := by
  unfold qLast Cert.Attn.proj
  rw [addf_apply, dotQ_apply, bias_apply]
  simp only [hLast_apply, truncf_apply]

/-- The query the region reads, at batch row `b`, feature `e`. -/
theorem q_apply (b : Fin 8) (z : Fin 1) (e : Fin 1024) :
    (V m c main_v22 : S8x1x1024.Idx → EReal) (ix3 b z e)
      = Cert.Attn.proj (Cert.Attn.hidden (fun b p i => A m c main_arg0 (ix3 b p i)) (fun i d => A m c main_arg1 (ix2 i d))
            (fun d => A m c main_arg2 (ix1 d)))
          (fun d e => A m c main_arg3 (ix2 d e)) (fun e => A m c main_arg4 (ix1 e)) b Cert.Attn.lastPos e := by
  rw [v22_eq]
  refine (shapeCast_apply _ shapeCasts_S8x1024_S8x1x1024 (ix3 b z e) (ix2 b e) (by
    rw [Shape.rowMajor_val_three, Shape.rowMajor_val_two]
    show b.val * 1024 + e.val = (b.val * 1 + z.val) * 1024 + e.val
    have := z.isLt
    omega)).trans ?_
  rw [truncf_apply, qLast_apply]

end Cert.KernelIdeal.HostIn

end
-- ==== Proof.OnlineSoftmax.lean ====
/-
  The tile-by-tile accumulation of a softmax average equals the whole-row softmax average, on real scores and values.

  The argument: the softmax average does not depend on the shift subtracted inside the exponentials. After each tile
  the running state is `(M, ∑ exp (s k - M), ∑ exp (s k - M) * V k d)` over the keys seen so far, for SOME real `M`
  (which real is irrelevant); rescaling by `exp (M - M')` moves every term from shift `M` to shift `M'` because
  `exp (M - M') * exp (s - M) = exp (s - M')`. The whole-row form is the same quotient at another real shift.
-/
import proofs.«121378_j18708877541425_2_alg».proof.Proof.AttnSpec

noncomputable section

open scoped BigOperators

namespace Cert.Attn

open Idealize.ShloMosaic

/-! ## Coercion of reals into the extended reals -/

/-- The coercion commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with `max`. -/
theorem coe_max (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- Folding `max` from `-∞` over a nonempty family of reals gives a real. -/
theorem fold_max_real {ι : Type*} (s : Finset ι) (hs : s.Nonempty) (f : ι → ℝ) :
    ∃ r : ℝ, s.fold max ⊥ (fun k => (f k : EReal)) = (r : EReal) := by
  induction hs using Finset.Nonempty.cons_induction with
  | singleton a => exact ⟨f a, by rw [Finset.fold_singleton, max_eq_left bot_le]⟩
  | cons a s ha hs ih =>
    obtain ⟨r, hr⟩ := ih
    exact ⟨max (f a) r, by rw [Finset.fold_cons, hr, coe_max]⟩

/-- A tile's maximum of real scores is a real. -/
theorem tileMax_real (ts : Fin 512 → ℝ) : ∃ T : ℝ, tileMax (fun k => (ts k : EReal)) = (T : EReal) :=
  fold_max_real Finset.univ Finset.univ_nonempty ts

/-- A row's maximum of real scores is a real. -/
theorem rowMax_real (sr : Fin 2048 → ℝ) : ∃ R : ℝ, rowMax (fun k => (sr k : EReal)) = (R : EReal) := by
  obtain ⟨R, hR⟩ := fold_max_real (Finset.univ : Finset (Fin 2048)) Finset.univ_nonempty sr
  exact ⟨R, by rw [rowMax, hR, max_eq_right bot_le]⟩

/-! ## One tile on real data -/

/-- Tile `t`'s share of the denominator at shift `M`. -/
def tileDen (sr : Fin 2048 → ℝ) (t : Fin 4) (M : ℝ) : ℝ :=
  ∑ j : Fin 512, Real.exp (sr (pos t j) - M)

/-- Tile `t`'s share of the numerator at shift `M`. -/
def tileNum (sr : Fin 2048 → ℝ) (Vr : Fin 2048 → Fin 1024 → ℝ) (t : Fin 4) (M : ℝ) (d : Fin 1024) : ℝ :=
  ∑ j : Fin 512, Real.exp (sr (pos t j) - M) * Vr (pos t j) d

/-- Rescaling moves an exponential from shift `M` to shift `M'`. -/
theorem exp_shift (M M' x : ℝ) : Real.exp (M - M') * Real.exp (x - M) = Real.exp (x - M') := by
  rw [← Real.exp_add]; congr 1; ring

theorem tileDen_shift (sr : Fin 2048 → ℝ) (t : Fin 4) (M M' : ℝ) :
    Real.exp (M - M') * tileDen sr t M = tileDen sr t M' := by
  unfold tileDen
  rw [Finset.mul_sum]
  exact Finset.sum_congr rfl (fun j _ => exp_shift M M' _)

theorem tileNum_shift (sr : Fin 2048 → ℝ) (Vr : Fin 2048 → Fin 1024 → ℝ) (t : Fin 4) (M M' : ℝ) (d : Fin 1024) :
    Real.exp (M - M') * tileNum sr Vr t M d = tileNum sr Vr t M' d := by
  unfold tileNum
  rw [Finset.mul_sum]
  exact Finset.sum_congr rfl (fun j _ => by rw [← mul_assoc, exp_shift])

/-- The first tile: from `(-∞, 0, 0)` the state becomes the tile's own sums at the tile's maximum. -/
theorem step_init_real (ts : Fin 512 → ℝ) (tv : Fin 512 → Fin 1024 → ℝ) :
    ∃ M : ℝ, step init (fun k => (ts k : EReal)) (fun k e => (tv k e : EReal))
      = ((M : EReal), ((∑ k : Fin 512, Real.exp (ts k - M) : ℝ) : EReal),
         fun d => ((∑ k : Fin 512, Real.exp (ts k - M) * tv k d : ℝ) : EReal)) := by
  obtain ⟨T, hT⟩ := tileMax_real ts
  refine ⟨T, ?_⟩
  simp only [step, init, hT, max_bot_left, EReal.bot_sub, Ideal.exp_bot, zero_mul, zero_add,
    ← EReal.coe_sub, Ideal.exp_coe, ← EReal.coe_mul, ← coe_sum]

/-- A later tile: a real state stays real, rescaled by `exp (M - M')` and extended by the tile's sums at `M'`. -/
theorem step_real (M L : ℝ) (A : Fin 1024 → ℝ) (ts : Fin 512 → ℝ) (tv : Fin 512 → Fin 1024 → ℝ) :
    ∃ M' : ℝ, step ((M : EReal), (L : EReal), fun d => (A d : EReal))
        (fun k => (ts k : EReal)) (fun k e => (tv k e : EReal))
      = ((M' : EReal), ((Real.exp (M - M') * L + ∑ k : Fin 512, Real.exp (ts k - M') : ℝ) : EReal),
         fun d => ((Real.exp (M - M') * A d + ∑ k : Fin 512, Real.exp (ts k - M') * tv k d : ℝ) : EReal)) := by
  obtain ⟨T, hT⟩ := tileMax_real ts
  refine ⟨max M T, ?_⟩
  simp only [step, hT, coe_max, ← EReal.coe_sub, Ideal.exp_coe, ← EReal.coe_mul, ← coe_sum, ← EReal.coe_add]

/-! ## The state after a set of tiles -/

/-- The state holds, at some real shift `M`, the denominator and numerator sums over the tiles in `T`. -/
def Holds (sr : Fin 2048 → ℝ) (Vr : Fin 2048 → Fin 1024 → ℝ) (T : Finset (Fin 4)) (st : St) : Prop :=
  ∃ M : ℝ, st = ((M : EReal), ((∑ t ∈ T, tileDen sr t M : ℝ) : EReal),
                 fun d => ((∑ t ∈ T, tileNum sr Vr t M d : ℝ) : EReal))

theorem holds_first (sr : Fin 2048 → ℝ) (Vr : Fin 2048 → Fin 1024 → ℝ) (t : Fin 4) :
    Holds sr Vr {t} (step init (fun k => (sr (pos t k) : EReal)) (fun k e => (Vr (pos t k) e : EReal))) := by
  obtain ⟨M, h⟩ := step_init_real (fun k => sr (pos t k)) (fun k e => Vr (pos t k) e)
  refine ⟨M, ?_⟩
  rw [h]
  simp only [Finset.sum_singleton, tileDen, tileNum]

theorem holds_step (sr : Fin 2048 → ℝ) (Vr : Fin 2048 → Fin 1024 → ℝ) (T : Finset (Fin 4)) (t : Fin 4)
    (ht : t ∉ T) (st : St) (hst : Holds sr Vr T st) :
    Holds sr Vr (insert t T)
      (step st (fun k => (sr (pos t k) : EReal)) (fun k e => (Vr (pos t k) e : EReal))) := by
  obtain ⟨M, rfl⟩ := hst
  obtain ⟨M', h⟩ := step_real M (∑ u ∈ T, tileDen sr u M) (fun d => ∑ u ∈ T, tileNum sr Vr u M d)
    (fun k => sr (pos t k)) (fun k e => Vr (pos t k) e)
  refine ⟨M', ?_⟩
  rw [h]
  have hden : Real.exp (M - M') * ∑ u ∈ T, tileDen sr u M + ∑ k : Fin 512, Real.exp (sr (pos t k) - M')
      = ∑ u ∈ insert t T, tileDen sr u M' := by
    rw [Finset.sum_insert ht, Finset.mul_sum, add_comm]
    congr 1
    exact Finset.sum_congr rfl (fun u _ => tileDen_shift sr u M M')
  have hnum : ∀ d, Real.exp (M - M') * ∑ u ∈ T, tileNum sr Vr u M d
        + ∑ k : Fin 512, Real.exp (sr (pos t k) - M') * Vr (pos t k) d
      = ∑ u ∈ insert t T, tileNum sr Vr u M' d := by
    intro d
    rw [Finset.sum_insert ht, Finset.mul_sum, add_comm]
    congr 1
    exact Finset.sum_congr rfl (fun u _ => tileNum_shift sr Vr u M M' d)
  rw [hden]
  simp only [hnum]

/-- After all four tiles the state holds the sums over every tile. -/
theorem holds_after (sr : Fin 2048 → ℝ) (Vr : Fin 2048 → Fin 1024 → ℝ) :
    Holds sr Vr Finset.univ
      (after (fun k => ((sr k : ℝ) : EReal)) (fun k e => ((Vr k e : ℝ) : EReal)) ⟨3, by decide⟩) := by
  have h0 := holds_first sr Vr 0
  have h1 := holds_step sr Vr {0} 1 (by decide) _ h0
  have h2 := holds_step sr Vr _ 2 (by decide) _ h1
  have h3 := holds_step sr Vr _ 3 (by decide) _ h2
  have hT : (insert (3 : Fin 4) (insert (2 : Fin 4) (insert (1 : Fin 4) {(0 : Fin 4)}))) = Finset.univ := by decide
  rw [hT] at h3
  simp only [after]
  exact h3

/-! ## The whole row as four tiles -/

/-- Every key position is position `j` of tile `t` for exactly one `(t, j)`. -/
theorem pos_bijective : Function.Bijective (fun p : Fin 4 × Fin 512 => pos p.1 p.2) := by
  constructor
  · rintro ⟨t, j⟩ ⟨t', j'⟩ h
    have h' : 512 * t.val + j.val = 512 * t'.val + j'.val := congrArg Fin.val h
    have := j.isLt
    have := j'.isLt
    have ht : t.val = t'.val := by omega
    have hj : j.val = j'.val := by omega
    exact Prod.ext (Fin.ext ht) (Fin.ext hj)
  · intro k
    refine ⟨(⟨k.val / 512, by have := k.isLt; omega⟩, ⟨k.val % 512, Nat.mod_lt _ (by decide)⟩), ?_⟩
    apply Fin.ext
    show 512 * (k.val / 512) + k.val % 512 = k.val
    omega

/-- A sum over the row is the sum over the tiles of the sums within each tile. -/
theorem sum_tiles (f : Fin 2048 → ℝ) : ∑ k : Fin 2048, f k = ∑ t : Fin 4, ∑ j : Fin 512, f (pos t j) := by
  rw [← Fintype.sum_prod_type' (fun t j => f (pos t j))]
  exact (Fintype.sum_bijective (fun p : Fin 4 × Fin 512 => pos p.1 p.2) pos_bijective _ _ (fun _ => rfl)).symm

/-! ## The softmax average does not depend on the shift -/

theorem softmax_shift (sr v : Fin 2048 → ℝ) (M R : ℝ) :
    (∑ k, Real.exp (sr k - M) * v k) / (∑ k, Real.exp (sr k - M))
      = ∑ k, Real.exp (sr k - R) * (1 / ∑ j, Real.exp (sr j - R)) * v k := by
  have h1 : ∑ k, Real.exp (sr k - M) * v k = Real.exp (R - M) * ∑ k, Real.exp (sr k - R) * v k := by
    rw [Finset.mul_sum]
    exact Finset.sum_congr rfl (fun k _ => by rw [← mul_assoc, exp_shift])
  have h2 : ∑ k, Real.exp (sr k - M) = Real.exp (R - M) * ∑ k, Real.exp (sr k - R) := by
    rw [Finset.mul_sum]
    exact Finset.sum_congr rfl (fun k _ => (exp_shift R M _).symm)
  rw [h1, h2, mul_div_mul_left _ _ (Real.exp_ne_zero _), Finset.sum_div]
  exact Finset.sum_congr rfl (fun k _ => by ring)

/-- A sum of exponentials over the row is not zero. -/
theorem sum_exp_ne_zero (sr : Fin 2048 → ℝ) (M : ℝ) : (∑ k : Fin 2048, Real.exp (sr k - M)) ≠ 0 :=
  (Finset.sum_pos (fun _ _ => Real.exp_pos _) Finset.univ_nonempty).ne'

/-! ## The law -/

theorem normalized_after_eq_attend (sr : Fin 2048 → ℝ) (Vr : Fin 2048 → Fin 1024 → ℝ) (d : Fin 1024) :
    normalized (after (fun k => ((sr k : ℝ) : EReal)) (fun k e => ((Vr k e : ℝ) : EReal)) ⟨3, by decide⟩) d
      = attend (fun k => ((sr k : ℝ) : EReal)) (fun k e => ((Vr k e : ℝ) : EReal)) d := by
  obtain ⟨M, hM⟩ := holds_after sr Vr
  obtain ⟨R, hR⟩ := rowMax_real sr
  have hL : (∑ t : Fin 4, tileDen sr t M) = ∑ k : Fin 2048, Real.exp (sr k - M) :=
    (sum_tiles (fun k => Real.exp (sr k - M))).symm
  have hA : (∑ t : Fin 4, tileNum sr Vr t M d) = ∑ k : Fin 2048, Real.exp (sr k - M) * Vr k d :=
    (sum_tiles (fun k => Real.exp (sr k - M) * Vr k d)).symm
  rw [hM]
  simp only [normalized]
  rw [hL, hA, Ideal.div_coe (sum_exp_ne_zero sr M), ← EReal.coe_mul, ← div_eq_mul_one_div,
    softmax_shift sr (fun k => Vr k d) M R]
  simp only [attend, weight, hR, ← EReal.coe_sub, Ideal.exp_coe, ← coe_sum, zero_add,
    Ideal.div_coe (sum_exp_ne_zero sr R), ← EReal.coe_mul]

end Cert.Attn

end
-- ==== Proof.AttnReal.lean ====
/-
  On real argument arrays the specification's result is the output projection of the tile-by-tile accumulation.

  Sums, products and finite sums of real numbers are real, so the hidden states, the three projections and the scaled
  scores are real entry by entry. On real scores and values the tile-by-tile accumulation, normalized, equals the
  whole-row softmax average; the two sides of the statement differ in nothing else.
-/
import proofs.«121378_j18708877541425_2_alg».proof.Proof.OnlineSoftmax

noncomputable section

open scoped BigOperators

namespace Cert.Attn

open Idealize.ShloMosaic

/-! ## Real numbers among the extended reals -/

/-- An extended real that is a real number. -/
def IsReal (z : EReal) : Prop := ∃ r : ℝ, z = ((r : ℝ) : EReal)

theorem IsReal.add {a b : EReal} (ha : IsReal a) (hb : IsReal b) : IsReal (a + b) := by
  obtain ⟨r, rfl⟩ := ha
  obtain ⟨t, rfl⟩ := hb
  exact ⟨r + t, (EReal.coe_add r t).symm⟩

theorem IsReal.mul {a b : EReal} (ha : IsReal a) (hb : IsReal b) : IsReal (a * b) := by
  obtain ⟨r, rfl⟩ := ha
  obtain ⟨t, rfl⟩ := hb
  exact ⟨r * t, (EReal.coe_mul r t).symm⟩

theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact IsReal.add (h a (Finset.mem_insert_self a s)) (ih fun i hi => h i (Finset.mem_insert_of_mem hi))

/-! ## The intermediate arrays are real -/

theorem hidden_real (x : Fin 8 → Fin 2048 → Fin 256 → EReal) (Wi : Fin 256 → Fin 1024 → EReal) (bi : Fin 1024 → EReal)
    (hx : ∀ b p i, IsReal (x b p i)) (hWi : ∀ i d, IsReal (Wi i d)) (hbi : ∀ d, IsReal (bi d))
    (b : Fin 8) (p : Fin 2048) (d : Fin 1024) : IsReal (hidden x Wi bi b p d) :=
  IsReal.add (IsReal.sum _ _ fun i _ => IsReal.mul (hx b p i) (hWi i d)) (hbi d)

theorem proj_real (h : Fin 8 → Fin 2048 → Fin 1024 → EReal) (W : Fin 1024 → Fin 1024 → EReal) (bias : Fin 1024 → EReal)
    (hh : ∀ b p d, IsReal (h b p d)) (hW : ∀ d e, IsReal (W d e)) (hbias : ∀ e, IsReal (bias e))
    (b : Fin 8) (p : Fin 2048) (e : Fin 1024) : IsReal (proj h W bias b p e) :=
  IsReal.add (IsReal.sum _ _ fun d _ => IsReal.mul (hh b p d) (hW d e)) (hbias e)

theorem scores_real (Q K : Fin 8 → Fin 2048 → Fin 1024 → EReal) (c : EReal)
    (hQ : ∀ b p e, IsReal (Q b p e)) (hK : ∀ b p e, IsReal (K b p e)) (hc : IsReal c)
    (b : Fin 8) (k : Fin 2048) : IsReal (scores Q K c b k) :=
  IsReal.mul (IsReal.sum _ _ fun e _ => IsReal.mul (hQ b lastPos e) (hK b k e)) hc

/-! ## The result -/

theorem result_eq_tiled (x : Fin 8 → Fin 2048 → Fin 256 → EReal) (Wi : Fin 256 → Fin 1024 → EReal) (bi : Fin 1024 → EReal)
    (Wq : Fin 1024 → Fin 1024 → EReal) (bq : Fin 1024 → EReal) (Wk : Fin 1024 → Fin 1024 → EReal) (bk : Fin 1024 → EReal)
    (Wv : Fin 1024 → Fin 1024 → EReal) (bv : Fin 1024 → EReal) (Wo : Fin 1024 → Fin 256 → EReal) (bo : Fin 256 → EReal) (c : EReal)
    (hx : ∀ b p i, ∃ r : ℝ, x b p i = ((r : ℝ) : EReal)) (hWi : ∀ i d, ∃ r : ℝ, Wi i d = ((r : ℝ) : EReal)) (hbi : ∀ d, ∃ r : ℝ, bi d = ((r : ℝ) : EReal))
    (hWq : ∀ d e, ∃ r : ℝ, Wq d e = ((r : ℝ) : EReal)) (hbq : ∀ e, ∃ r : ℝ, bq e = ((r : ℝ) : EReal))
    (hWk : ∀ d e, ∃ r : ℝ, Wk d e = ((r : ℝ) : EReal)) (hbk : ∀ e, ∃ r : ℝ, bk e = ((r : ℝ) : EReal))
    (hWv : ∀ d e, ∃ r : ℝ, Wv d e = ((r : ℝ) : EReal)) (hbv : ∀ e, ∃ r : ℝ, bv e = ((r : ℝ) : EReal))
    (hc : ∃ r : ℝ, c = ((r : ℝ) : EReal)) (b : Fin 8) (o : Fin 256) :
    result x Wi bi Wq bq Wk bk Wv bv Wo bo c b o
      = outProj (normalized (after (scores (proj (hidden x Wi bi) Wq bq) (proj (hidden x Wi bi) Wk bk) c b)
                                   (proj (hidden x Wi bi) Wv bv b) ⟨3, by decide⟩)) Wo bo o := by
  have hh := hidden_real x Wi bi hx hWi hbi
  have hs : ∀ k, IsReal (scores (proj (hidden x Wi bi) Wq bq) (proj (hidden x Wi bi) Wk bk) c b k) :=
    scores_real _ _ c (proj_real _ Wq bq hh hWq hbq) (proj_real _ Wk bk hh hWk hbk) hc b
  have hV : ∀ k e, IsReal (proj (hidden x Wi bi) Wv bv b k e) := proj_real _ Wv bv hh hWv hbv b
  choose sr hsr using hs
  choose Vr hVr using hV
  have es : scores (proj (hidden x Wi bi) Wq bq) (proj (hidden x Wi bi) Wk bk) c b
      = fun k => ((sr k : ℝ) : EReal) := funext hsr
  have eV : proj (hidden x Wi bi) Wv bv b = fun k e => ((Vr k e : ℝ) : EReal) :=
    funext fun k => funext fun e => hVr k e
  have key : attend (fun k => ((sr k : ℝ) : EReal)) (fun k e => ((Vr k e : ℝ) : EReal))
      = normalized (after (fun k => ((sr k : ℝ) : EReal)) (fun k e => ((Vr k e : ℝ) : EReal)) ⟨3, by decide⟩) :=
    funext fun d => (normalized_after_eq_attend sr Vr d).symm
  unfold result
  rw [es, eV, key]

end Cert.Attn

end
-- ==== Proof.KernelIsAttn.lean ====
/-
  The kernel's per-point quantities are the specification's. At grid point `4·b + s` (tile `s` of batch row `b`) the
  block of inputs holds positions `512·s … 512·s + 511` of row `b`, the weight and bias blocks hold the argument arrays,
  and the query block holds the last position's query. So the tile's hidden rows, value rows and scaled scores are the
  specification's hidden states, value projection and scores at those positions; the carried state after tile `s` is the
  specification's tile-by-tile state after tiles `0 … s`; and the block stored at the row's last tile is the output
  projection of its normalized numerator.
-/
import proofs.«121378_j18708877541425_2_alg».proof.Proof.PayIdx
import proofs.«121378_j18708877541425_2_alg».proof.Proof.TileIdx
import proofs.«121378_j18708877541425_2_alg».proof.Proof.Blocks
import proofs.«121378_j18708877541425_2_alg».proof.Proof.HostIn
import proofs.«121378_j18708877541425_2_alg».proof.Proof.AttnReal

set_option maxRecDepth 16384

noncomputable section

open scoped BigOperators

namespace Cert.KernelIdeal.KernelIsAttn

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

/-! ## The argument arrays by coordinates, and the specification's intermediate arrays over them -/

abbrev X : Fin 8 → Fin 2048 → Fin 256 → EReal := fun b p i => HostIn.A m c main_arg0 (ix3 b p i)
abbrev Wi : Fin 256 → Fin 1024 → EReal := fun i d => HostIn.A m c main_arg1 (ix2 i d)
abbrev bi : Fin 1024 → EReal := fun d => HostIn.A m c main_arg2 (ix1 d)
abbrev Wq : Fin 1024 → Fin 1024 → EReal := fun d e => HostIn.A m c main_arg3 (ix2 d e)
abbrev bq : Fin 1024 → EReal := fun e => HostIn.A m c main_arg4 (ix1 e)
abbrev Wk : Fin 1024 → Fin 1024 → EReal := fun d e => HostIn.A m c main_arg5 (ix2 d e)
abbrev bk : Fin 1024 → EReal := fun e => HostIn.A m c main_arg6 (ix1 e)
abbrev Wv : Fin 1024 → Fin 1024 → EReal := fun d e => HostIn.A m c main_arg7 (ix2 d e)
abbrev bv : Fin 1024 → EReal := fun e => HostIn.A m c main_arg8 (ix1 e)
abbrev Wo : Fin 1024 → Fin 256 → EReal := fun d o => HostIn.A m c main_arg9 (ix2 d o)
abbrev bo : Fin 256 → EReal := fun o => HostIn.A m c main_arg10 (ix1 o)

/-- The hidden states. -/
abbrev Hd : Fin 8 → Fin 2048 → Fin 1024 → EReal := Cert.Attn.hidden (X m c) (Wi m c) (bi m c)
/-- The queries. -/
abbrev Qp : Fin 8 → Fin 2048 → Fin 1024 → EReal := Cert.Attn.proj (Hd m c) (Wq m c) (bq m c)
/-- The keys. -/
abbrev Kp : Fin 8 → Fin 2048 → Fin 1024 → EReal := Cert.Attn.proj (Hd m c) (Wk m c) (bk m c)
/-- The values. -/
abbrev Vp : Fin 8 → Fin 2048 → Fin 1024 → EReal := Cert.Attn.proj (Hd m c) (Wv m c) (bv m c)

/-! ## Grid points -/

/-- The grid point of tile `s` of batch row `b`. -/
def pt (b : Fin 8) (s : Fin 4) : Fin cfg0.N :=
  ⟨4 * b.val + s.val, by have := b.isLt; have := s.isLt; have hN : cfg0.N = 32 := N_0; omega⟩

theorem row_pt (b : Fin 8) (s : Fin 4) : Blocks.row (pt b s) = b :=
  Fin.ext (by show (4 * b.val + s.val) / 4 = b.val; have := s.isLt; omega)

theorem tile_pt (b : Fin 8) (s : Fin 4) : Blocks.tile (pt b s) = s :=
  Fin.ext (by show (4 * b.val + s.val) % 4 = s.val; have := s.isLt; omega)

/-! ## The tile's arrays -/

/-- The tile's hidden rows are the hidden states at the tile's positions. -/
theorem tile_hidden (b : Fin 8) (s : Fin 4) (k : Fin 512) (d : Fin 1024) :
    (k0_pay4 (F := Ideal) (iblk m c 0 (pt b s)) (iblk m c 2 (pt b s)) (iblk m c 3 (pt b s)) (ix2 k d) : EReal)
      = Hd m c b (Cert.Attn.pos s k) d := by
  refine (TileIdx.pay4_apply _ _ _ k d).trans ?_
  show _ = (∑ i : Fin 256, X m c b (Cert.Attn.pos s k) i * Wi m c i d) + bi m c d
  refine congrArg₂ (· + ·) (Finset.sum_congr rfl fun i _ => congrArg₂ (· * ·) ?_ ?_) ?_
  · refine (Blocks.blk0 m c (pt b s) TileIdx.z1 k i).trans ?_
    rw [row_pt, tile_pt, V_main_arg0]
    rfl
  · exact (Blocks.blk2 m c (pt b s) i d).trans (HostIn.wi_apply m c i d)
  · exact (Blocks.blk3 m c (pt b s) TileIdx.z1 d).trans (HostIn.bi_apply m c TileIdx.z1 d)

/-- The tile's value rows are the values at the tile's positions. -/
theorem tile_vals (b : Fin 8) (s : Fin 4) (k : Fin 512) (e : Fin 1024) :
    (Chain.valsAt m c (pt b s) (ix2 k e) : EReal) = Vp m c b (Cert.Attn.pos s k) e := by
  unfold Chain.valsAt
  refine (TileIdx.pay5_apply _ _ _ _ _ k e).trans ?_
  show _ = (∑ d : Fin 1024, Hd m c b (Cert.Attn.pos s k) d * Wv m c d e) + bv m c e
  refine congrArg₂ (· + ·) (Finset.sum_congr rfl fun d _ => congrArg₂ (· * ·) (tile_hidden m c b s k d) ?_) ?_
  · exact (Blocks.blk6 m c (pt b s) d e).trans (HostIn.wv_apply m c d e)
  · exact (Blocks.blk7 m c (pt b s) TileIdx.z1 e).trans (HostIn.bv_apply m c TileIdx.z1 e)

/-- The tile's scaled scores are the scores at the tile's positions. -/
theorem tile_scores (b : Fin 8) (s : Fin 4) (k : Fin 512) :
    (Chain.scoresAt m c (pt b s) (ix2 PayIdx.o1 k) : EReal) * PayIdx.scale
      = Cert.Attn.scores (Qp m c) (Kp m c) PayIdx.scale b (Cert.Attn.pos s k) := by
  unfold Chain.scoresAt
  show _ = (∑ e : Fin 1024, Qp m c b Cert.Attn.lastPos e * Kp m c b (Cert.Attn.pos s k) e) * PayIdx.scale
  refine congrArg (· * PayIdx.scale) ((TileIdx.pay6_apply _ _ _ _ _ _ k).trans ?_)
  refine Finset.sum_congr rfl fun e _ => congrArg₂ (· * ·) ?_ ?_
  · refine (Blocks.blk1 m c (pt b s) TileIdx.z1 TileIdx.z1 e).trans ?_
    rw [row_pt]
    exact HostIn.q_apply m c b TileIdx.z1 e
  · show _ = (∑ d : Fin 1024, Hd m c b (Cert.Attn.pos s k) d * Wk m c d e) + bk m c e
    refine congrArg₂ (· + ·) (Finset.sum_congr rfl fun d _ => congrArg₂ (· * ·) (tile_hidden m c b s k d) ?_) ?_
    · exact (Blocks.blk4 m c (pt b s) d e).trans (HostIn.wk_apply m c d e)
    · exact (Blocks.blk5 m c (pt b s) TileIdx.z1 e).trans (HostIn.bk_apply m c TileIdx.z1 e)

/-! ## The carried state -/

/-- One update at tile `s` of row `b` is one step of the tile-by-tile accumulation on the specification's scores and
    values at the tile's positions. -/
theorem upd_eq (b : Fin 8) (s : Fin 4) (st : Chain.St Ideal) :
    PayIdx.toSt (Chain.upd (Chain.valsAt m c (pt b s)) (Chain.scoresAt m c (pt b s)) st)
      = Cert.Attn.step (PayIdx.toSt st)
          (fun k => Cert.Attn.scores (Qp m c) (Kp m c) PayIdx.scale b (Cert.Attn.pos s k))
          (fun k => Vp m c b (Cert.Attn.pos s k)) :=
  (PayIdx.toSt_upd _ _ st).trans
    (congrArg₂ (Cert.Attn.step (PayIdx.toSt st)) (funext fun k => tile_scores m c b s k)
      (funext fun k => funext fun e => tile_vals m c b s k e))

/-- The state after a point depends on the point's number only. -/
theorem stAt_congr (n n' : ℕ) (h : n < cfg0.N) (h' : n' < cfg0.N) (e : n = n') :
    Chain.stAt m c n h = Chain.stAt m c n' h' := by
  subst e
  rfl

/-- After a row's first tile. -/
theorem state_zero (b : Fin 8) (h : 0 < 4) :
    PayIdx.toSt (Chain.stAt m c (pt b ⟨0, h⟩).val (pt b ⟨0, h⟩).isLt)
      = Cert.Attn.after (Cert.Attn.scores (Qp m c) (Kp m c) PayIdx.scale b) (Vp m c b) ⟨0, h⟩ := by
  rw [Chain.stAt_first m c (pt b ⟨0, h⟩) (by show (4 * b.val + 0) % 4 = 0; omega), upd_eq, PayIdx.toSt_reset,
    Cert.Attn.after]
  rfl

/-- After a later tile, from the state after the tile before. -/
theorem state_succ (b : Fin 8) (n : ℕ) (h : n + 1 < 4)
    (ih : PayIdx.toSt (Chain.stAt m c (pt b ⟨n, Nat.lt_of_succ_lt h⟩).val (pt b ⟨n, Nat.lt_of_succ_lt h⟩).isLt)
      = Cert.Attn.after (Cert.Attn.scores (Qp m c) (Kp m c) PayIdx.scale b) (Vp m c b) ⟨n, Nat.lt_of_succ_lt h⟩) :
    PayIdx.toSt (Chain.stAt m c (pt b ⟨n + 1, h⟩).val (pt b ⟨n + 1, h⟩).isLt)
      = Cert.Attn.after (Cert.Attn.scores (Qp m c) (Kp m c) PayIdx.scale b) (Vp m c b) ⟨n + 1, h⟩ := by
  rw [Chain.stAt_next m c (pt b ⟨n + 1, h⟩) (by show ¬(4 * b.val + (n + 1)) % 4 = 0; omega), upd_eq,
    stAt_congr m c _ (pt b ⟨n, Nat.lt_of_succ_lt h⟩).val _ (pt b ⟨n, Nat.lt_of_succ_lt h⟩).isLt
      (by show 4 * b.val + (n + 1) - 1 = 4 * b.val + n; omega),
    ih, Cert.Attn.after]

/-- The carried state after tile `s` of row `b` is the specification's state after tiles `0 … s`. -/
theorem state_eq (b : Fin 8) (s : Fin 4) :
    PayIdx.toSt (Chain.stAt m c (pt b s).val (pt b s).isLt)
      = Cert.Attn.after (Cert.Attn.scores (Qp m c) (Kp m c) PayIdx.scale b) (Vp m c b) s :=
  match s with
  | ⟨0, h⟩ => state_zero m c b h
  | ⟨1, h⟩ => state_succ m c b 0 h (state_zero m c b _)
  | ⟨2, h⟩ => state_succ m c b 1 h (state_succ m c b 0 _ (state_zero m c b _))
  | ⟨3, h⟩ => state_succ m c b 2 h (state_succ m c b 1 _ (state_succ m c b 0 _ (state_zero m c b _)))

/-! ## The stored block -/

/-- The block stored at a row's last tile is the output projection of the normalized numerator. -/
theorem out_eq (b : Fin 8) (o : Fin 256) :
    (Chain.outAt m c (pt b ⟨3, by decide⟩) (ix3 TileIdx.z1 TileIdx.z1 o) : EReal)
      = Cert.Attn.outProj (Cert.Attn.normalized
          (Cert.Attn.after (Cert.Attn.scores (Qp m c) (Kp m c) PayIdx.scale b) (Vp m c b) ⟨3, by decide⟩))
          (Wo m c) (bo m c) o := by
  rw [← state_eq m c b ⟨3, by decide⟩]
  unfold Chain.outAt
  refine (TileIdx.pay14_apply _ _ _ _ o).trans ?_
  show _ = (∑ d : Fin 1024,
      Cert.Attn.normalized (PayIdx.toSt (Chain.stAt m c (pt b ⟨3, by decide⟩).val (pt b ⟨3, by decide⟩).isLt)) d
        * Wo m c d o) + bo m c o
  refine congrArg₂ (· + ·) (Finset.sum_congr rfl fun d _ => congrArg₂ (· * ·) rfl ?_) ?_
  · exact (Blocks.blk8 m c (pt b ⟨3, by decide⟩) d o).trans (HostIn.wo_apply m c d o)
  · exact (Blocks.blk9 m c (pt b ⟨3, by decide⟩) TileIdx.z1 o).trans (HostIn.bo_apply m c TileIdx.z1 o)

end Cert.KernelIdeal.KernelIsAttn

end
-- ==== Proof.RefIsAttn.lean ====
/-
  The reference program's result, read at an index, is single-head attention of the last query position.

  The reference computes, for every batch row, the hidden states `x·Wi + bi`, their three projections (queries, keys,
  values), the scaled products of EVERY query row with every key row, a softmax along the key axis (the row maximum
  from `-∞`, the exponentials of the differences, their sum from zero, the quotients), the weighted sums of the value
  rows, and then keeps only query row 2047 and projects it. An element of the result therefore depends on the scores
  of the last query row alone, and stage by stage — each stage read at the coordinates (b, 2047, ·) — it is the
  function `Cert.Attn.result` of the argument arrays. The scale `1 / √1024` is the real `1/32`.

  Every stage but one is read through the generated module's `_apply` lemmas; the row maximum is a fold over the key
  axis and is read here as the fold of `max` from `-∞` over the 2048 key positions.
-/
import proofs.«121378_j18708877541425_2_alg».proof.Proof.Gen.ReferenceIdeal.Read
import proofs.«121378_j18708877541425_2_alg».proof.Proof.AttnSpec
import Idealize.ShloMosaic.Lib.ValueIdx
import Idealize.ShloMosaic.PureOps.Ideal.Laws

noncomputable section

open scoped BigOperators

namespace Cert.ReferenceIdeal.RefAttn

open Idealize.ShloMosaic Idealize.ShloMosaic.ValueIdx Cert.ReferenceIdeal Cert.ReferenceIdeal.Read

/-- An array of the reference program at the ideal values: a function from the shape's indices to the extended reals. -/
abbrev Arr (s : Shape) := (⟨s, .f32⟩ : BufTy).Contents (Elt Ideal)

/-! ## The two literals and the scale -/

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `1024.0` denotes the real `1024`. -/
theorem ofBits_1024 : Ideal.ofBits .f32 0x44800000#32 = ((1024 : ℝ) : EReal) := by
  simp [Ideal.ofBits, Ideal.ieee, -EReal.coe_mul]; norm_num

/-- the reference's scale 1 / sqrt 1024 is the real 1/32 -/
theorem scale_eq : val_main_v17 (F := Ideal) ix0 = (((1 : ℝ) / 32 : ℝ) : EReal) := by
  rw [val_main_v17_apply, val_main_v16_apply, val_main_cst_apply, val_main_cst_0_apply]
  rw [Ideal.hostDivf_def, Ideal.hostUnary_sqrt_def, Ideal.ofBits_def, Ideal.ofBits_def, ofBits_one, ofBits_1024]
  have h : Real.sqrt 1024 = 32 := by
    rw [show (1024 : ℝ) = 32 ^ 2 by norm_num]; exact Real.sqrt_sq (by norm_num)
  rw [Ideal.sqrt_coe, if_neg (by norm_num), h, Ideal.div_coe (by norm_num), ← EReal.coe_mul, one_mul]

/-! ## The four projections -/

/-- The hidden states: the first matrix product plus the broadcast bias. -/
theorem hidden_apply (x0 : Arr S8x2048x256) (x1 : Arr S256x1024) (x2 : Arr S1024) (b : Fin 8) (p : Fin 2048) (d : Fin 1024) :
    val_main_v3 (F := Ideal) x0 x1 x2 (ix3 b p d)
      = Cert.Attn.hidden (fun b p i => x0 (ix3 b p i)) (fun i d => x1 (ix2 i d)) (fun d => x2 (ix1 d)) b p d := by
  rw [val_main_v3_apply, val_main_v0_apply, val_main_v2_apply, val_main_v1_apply, Ideal.addf_def]
  unfold Cert.Attn.hidden
  have el : ∀ k : Fin 256, lidx_main_v0 (ix3 b p d) k = ix3 b p k := fun k => funext fun a => by
    match a with | ⟨0, _⟩ => rfl | ⟨1, _⟩ => rfl | ⟨2, _⟩ => rfl
  have er : ∀ k : Fin 256, ridx_main_v0 (ix3 b p d) k = ix2 k d := fun k => funext fun a => by
    match a with | ⟨0, _⟩ => rfl | ⟨1, _⟩ => rfl
  have eb : idx_main_v1 (idx_main_v2 (ix3 b p d)) = ix1 d := funext fun a => by
    match a with | ⟨0, _⟩ => rfl
  simp only [el, er, eb]

/-- The queries: the hidden states through the query weights, plus the broadcast bias. -/
theorem q_apply (x0 : Arr S8x2048x256) (x1 : Arr S256x1024) (x2 : Arr S1024) (x3 : Arr S1024x1024) (x4 : Arr S1024)
    (b : Fin 8) (p : Fin 2048) (e : Fin 1024) :
    val_main_v7 (F := Ideal) x0 x1 x2 x3 x4 (ix3 b p e)
      = Cert.Attn.proj (Cert.Attn.hidden (fun b p i => x0 (ix3 b p i)) (fun i d => x1 (ix2 i d)) (fun d => x2 (ix1 d)))
          (fun d e => x3 (ix2 d e)) (fun e => x4 (ix1 e)) b p e := by
  rw [val_main_v7_apply, val_main_v4_apply, val_main_v6_apply, val_main_v5_apply, Ideal.addf_def]
  unfold Cert.Attn.proj
  have el : ∀ k : Fin 1024, lidx_main_v4 (ix3 b p e) k = ix3 b p k := fun k => funext fun a => by
    match a with | ⟨0, _⟩ => rfl | ⟨1, _⟩ => rfl | ⟨2, _⟩ => rfl
  have er : ∀ k : Fin 1024, ridx_main_v4 (ix3 b p e) k = ix2 k e := fun k => funext fun a => by
    match a with | ⟨0, _⟩ => rfl | ⟨1, _⟩ => rfl
  have eb : idx_main_v5 (idx_main_v6 (ix3 b p e)) = ix1 e := funext fun a => by
    match a with | ⟨0, _⟩ => rfl
  simp only [el, er, eb, hidden_apply]

/-- The keys: the hidden states through the key weights, plus the broadcast bias. -/
theorem k_apply (x0 : Arr S8x2048x256) (x1 : Arr S256x1024) (x2 : Arr S1024) (x5 : Arr S1024x1024) (x6 : Arr S1024)
    (b : Fin 8) (p : Fin 2048) (e : Fin 1024) :
    val_main_v11 (F := Ideal) x0 x1 x2 x5 x6 (ix3 b p e)
      = Cert.Attn.proj (Cert.Attn.hidden (fun b p i => x0 (ix3 b p i)) (fun i d => x1 (ix2 i d)) (fun d => x2 (ix1 d)))
          (fun d e => x5 (ix2 d e)) (fun e => x6 (ix1 e)) b p e := by
  rw [val_main_v11_apply, val_main_v8_apply, val_main_v10_apply, val_main_v9_apply, Ideal.addf_def]
  unfold Cert.Attn.proj
  have el : ∀ k : Fin 1024, lidx_main_v8 (ix3 b p e) k = ix3 b p k := fun k => funext fun a => by
    match a with | ⟨0, _⟩ => rfl | ⟨1, _⟩ => rfl | ⟨2, _⟩ => rfl
  have er : ∀ k : Fin 1024, ridx_main_v8 (ix3 b p e) k = ix2 k e := fun k => funext fun a => by
    match a with | ⟨0, _⟩ => rfl | ⟨1, _⟩ => rfl
  have eb : idx_main_v9 (idx_main_v10 (ix3 b p e)) = ix1 e := funext fun a => by
    match a with | ⟨0, _⟩ => rfl
  simp only [el, er, eb, hidden_apply]

/-- The values: the hidden states through the value weights, plus the broadcast bias. -/
theorem v_apply (x0 : Arr S8x2048x256) (x1 : Arr S256x1024) (x2 : Arr S1024) (x7 : Arr S1024x1024) (x8 : Arr S1024)
    (b : Fin 8) (p : Fin 2048) (e : Fin 1024) :
    val_main_v15 (F := Ideal) x0 x1 x2 x7 x8 (ix3 b p e)
      = Cert.Attn.proj (Cert.Attn.hidden (fun b p i => x0 (ix3 b p i)) (fun i d => x1 (ix2 i d)) (fun d => x2 (ix1 d)))
          (fun d e => x7 (ix2 d e)) (fun e => x8 (ix1 e)) b p e := by
  rw [val_main_v15_apply, val_main_v12_apply, val_main_v14_apply, val_main_v13_apply, Ideal.addf_def]
  unfold Cert.Attn.proj
  have el : ∀ k : Fin 1024, lidx_main_v12 (ix3 b p e) k = ix3 b p k := fun k => funext fun a => by
    match a with | ⟨0, _⟩ => rfl | ⟨1, _⟩ => rfl | ⟨2, _⟩ => rfl
  have er : ∀ k : Fin 1024, ridx_main_v12 (ix3 b p e) k = ix2 k e := fun k => funext fun a => by
    match a with | ⟨0, _⟩ => rfl | ⟨1, _⟩ => rfl
  have eb : idx_main_v13 (idx_main_v14 (ix3 b p e)) = ix1 e := funext fun a => by
    match a with | ⟨0, _⟩ => rfl
  simp only [el, er, eb, hidden_apply]

/-! ## The scores of the last query position -/

/-- The hidden states as a function of the coordinates. -/
abbrev Hid (x0 : Arr S8x2048x256) (x1 : Arr S256x1024) (x2 : Arr S1024) : Fin 8 → Fin 2048 → Fin 1024 → EReal :=
  Cert.Attn.hidden (fun b p i => x0 (ix3 b p i)) (fun i d => x1 (ix2 i d)) (fun d => x2 (ix1 d))

/-- The scaled scores of the last query position as a function of the batch row and the key position. -/
abbrev Sc (x0 : Arr S8x2048x256) (x1 : Arr S256x1024) (x2 : Arr S1024) (x3 : Arr S1024x1024) (x4 : Arr S1024)
    (x5 : Arr S1024x1024) (x6 : Arr S1024) : Fin 8 → Fin 2048 → EReal :=
  Cert.Attn.scores (Cert.Attn.proj (Hid x0 x1 x2) (fun d e => x3 (ix2 d e)) (fun e => x4 (ix1 e)))
    (Cert.Attn.proj (Hid x0 x1 x2) (fun d e => x5 (ix2 d e)) (fun e => x6 (ix1 e))) (val_main_v17 (F := Ideal) ix0)

/-- The scaled product of the last query row with key row `k`. -/
theorem score_apply (x0 : Arr S8x2048x256) (x1 : Arr S256x1024) (x2 : Arr S1024) (x3 : Arr S1024x1024) (x4 : Arr S1024)
    (x5 : Arr S1024x1024) (x6 : Arr S1024) (b : Fin 8) (k : Fin 2048) :
    val_main_v20 (F := Ideal) x0 x1 x2 x3 x4 x5 x6 (ix3 b Cert.Attn.lastPos k) = Sc x0 x1 x2 x3 x4 x5 x6 b k := by
  rw [val_main_v20_apply, val_main_v18_apply, val_main_v19_apply, Ideal.mulf_def]
  unfold Sc Cert.Attn.scores
  have el : ∀ e : Fin 1024, lidx_main_v18 (ix3 b Cert.Attn.lastPos k) e = ix3 b Cert.Attn.lastPos e := fun e => funext fun a => by
    match a with | ⟨0, _⟩ => rfl | ⟨1, _⟩ => rfl | ⟨2, _⟩ => rfl
  have er : ∀ e : Fin 1024, ridx_main_v18 (ix3 b Cert.Attn.lastPos k) e = ix3 b k e := fun e => funext fun a => by
    match a with | ⟨0, _⟩ => rfl | ⟨1, _⟩ => rfl | ⟨2, _⟩ => rfl
  have ec : idx_main_v19 (ix3 b Cert.Attn.lastPos k) = ix0 := funext fun a => a.elim0
  simp only [el, er, ec, q_apply, k_apply]

/-! ## The row maximum -/

/-- The pattern of `-∞` denotes the bottom of the extended reals. -/
theorem ofBits_ninf : Ideal.ofBits .f32 0xFF800000#32 = (⊥ : EReal) := by
  simp [Ideal.ofBits, Ideal.ieee]

/-- Key position `k` inserted into the reduced index (b, p) is (b, p, k). -/
theorem lift_ix2 (h : S8x2048x2048.Reduces [2] S8x2048) (b : Fin 8) (p : Fin 2048) (k : Fin (S8x2048x2048.size 2)) :
    h.lift (ix2 b p) k = ix3 b p (⟨k.val, k.isLt⟩ : Fin 2048) := by
  funext c; apply Fin.ext
  match c with | ⟨0, _⟩ => rfl | ⟨1, _⟩ => rfl | ⟨2, _⟩ => rfl

/-- The maximum of the last query position's scores: the fold of `max` from `-∞` over the key positions, joined once more with `-∞`. -/
theorem max_apply (x0 : Arr S8x2048x256) (x1 : Arr S256x1024) (x2 : Arr S1024) (x3 : Arr S1024x1024) (x4 : Arr S1024)
    (x5 : Arr S1024x1024) (x6 : Arr S1024) (b : Fin 8) :
    val_main_v23 (F := Ideal) x0 x1 x2 x3 x4 x5 x6 (ix2 b Cert.Attn.lastPos) = Cert.Attn.rowMax (Sc x0 x1 x2 x3 x4 x5 x6 b) := by
  have h : S8x2048x2048.Reduces [2] S8x2048 := by decide
  rw [val_main_v23_apply, val_main_v22_apply, val_main_cst_2_apply, Ideal.maximumf_def, Ideal.ofBits_def, ofBits_ninf]
  unfold val_main_v21 Cert.Attn.rowMax
  rw [Host.reduce_eq_fold_single FloatOps.maximumf _ _ _ h _ (ix2 b Cert.Attn.lastPos), val_main_cst_1_apply, Ideal.ofBits_def, ofBits_ninf]
  have hf : (val_main_v20 (F := Ideal) x0 x1 x2 x3 x4 x5 x6 ∘ h.lift (ix2 b Cert.Attn.lastPos)) = Sc x0 x1 x2 x3 x4 x5 x6 b :=
    funext fun k => by
      show val_main_v20 (F := Ideal) x0 x1 x2 x3 x4 x5 x6 (h.lift (ix2 b Cert.Attn.lastPos) k) = _
      rw [lift_ix2, score_apply]
      rfl
  exact congrArg (fun f => max (⊥ : EReal) (Finset.fold max (⊥ : EReal) f (Finset.univ : Finset (Fin 2048)))) hf

/-! ## The softmax weights -/

/-- The exponential of a score less the row maximum. -/
theorem exp_apply (x0 : Arr S8x2048x256) (x1 : Arr S256x1024) (x2 : Arr S1024) (x3 : Arr S1024x1024) (x4 : Arr S1024)
    (x5 : Arr S1024x1024) (x6 : Arr S1024) (b : Fin 8) (k : Fin 2048) :
    val_main_v27 (F := Ideal) x0 x1 x2 x3 x4 x5 x6 (ix3 b Cert.Attn.lastPos k)
      = Ideal.exp (Sc x0 x1 x2 x3 x4 x5 x6 b k - Cert.Attn.rowMax (Sc x0 x1 x2 x3 x4 x5 x6 b)) := by
  rw [val_main_v27_apply, val_main_v26_apply, val_main_v25_apply, val_main_v24_apply, Ideal.hostUnary_exp_def, Ideal.subf_def]
  have em : idx_main_v24 (idx_main_v25 (ix3 b Cert.Attn.lastPos k)) = ix2 b Cert.Attn.lastPos := funext fun a => by
    match a with | ⟨0, _⟩ => rfl | ⟨1, _⟩ => rfl
  rw [em, max_apply, score_apply]

/-- The denominator: zero plus the sum of the exponentials over the key positions. -/
theorem sum_apply (x0 : Arr S8x2048x256) (x1 : Arr S256x1024) (x2 : Arr S1024) (x3 : Arr S1024x1024) (x4 : Arr S1024)
    (x5 : Arr S1024x1024) (x6 : Arr S1024) (b : Fin 8) :
    val_main_v28 (F := Ideal) x0 x1 x2 x3 x4 x5 x6 (ix2 b Cert.Attn.lastPos)
      = 0 + ∑ j : Fin 2048, Ideal.exp (Sc x0 x1 x2 x3 x4 x5 x6 b j - Cert.Attn.rowMax (Sc x0 x1 x2 x3 x4 x5 x6 b)) := by
  rw [val_main_v28_apply, val_main_cst_3_apply, Ideal.ofBits_def, Ideal.ofBits_zero_f32]
  have ek : ∀ j : Fin 2048, idx_main_v28 (ix2 b Cert.Attn.lastPos) j = ix3 b Cert.Attn.lastPos j := fun j => funext fun a => by
    match a with | ⟨0, _⟩ => rfl | ⟨1, _⟩ => rfl | ⟨2, _⟩ => rfl
  simp only [ek, exp_apply]

/-- The softmax weight of key position `k`. -/
theorem weight_apply (x0 : Arr S8x2048x256) (x1 : Arr S256x1024) (x2 : Arr S1024) (x3 : Arr S1024x1024) (x4 : Arr S1024)
    (x5 : Arr S1024x1024) (x6 : Arr S1024) (b : Fin 8) (k : Fin 2048) :
    val_main_v31 (F := Ideal) x0 x1 x2 x3 x4 x5 x6 (ix3 b Cert.Attn.lastPos k)
      = Cert.Attn.weight (Sc x0 x1 x2 x3 x4 x5 x6 b) k := by
  rw [val_main_v31_apply, val_main_v30_apply, val_main_v29_apply, Ideal.hostDivf_def]
  have em : idx_main_v29 (idx_main_v30 (ix3 b Cert.Attn.lastPos k)) = ix2 b Cert.Attn.lastPos := funext fun a => by
    match a with | ⟨0, _⟩ => rfl | ⟨1, _⟩ => rfl
  rw [em, exp_apply, sum_apply]
  rfl

/-! ## The attended row and the output projection -/

/-- The attended row of the last query position: the value rows averaged by the softmax weights. -/
theorem attend_apply (x0 : Arr S8x2048x256) (x1 : Arr S256x1024) (x2 : Arr S1024) (x3 : Arr S1024x1024) (x4 : Arr S1024)
    (x5 : Arr S1024x1024) (x6 : Arr S1024) (x7 : Arr S1024x1024) (x8 : Arr S1024) (b : Fin 8) (d : Fin 1024) :
    val_main_v32 (F := Ideal) x0 x1 x2 x3 x4 x5 x6 x7 x8 (ix3 b Cert.Attn.lastPos d)
      = Cert.Attn.attend (Sc x0 x1 x2 x3 x4 x5 x6 b)
          (Cert.Attn.proj (Hid x0 x1 x2) (fun d e => x7 (ix2 d e)) (fun e => x8 (ix1 e)) b) d := by
  rw [val_main_v32_apply]
  unfold Cert.Attn.attend
  have el : ∀ k : Fin 2048, lidx_main_v32 (ix3 b Cert.Attn.lastPos d) k = ix3 b Cert.Attn.lastPos k := fun k => funext fun a => by
    match a with | ⟨0, _⟩ => rfl | ⟨1, _⟩ => rfl | ⟨2, _⟩ => rfl
  have er : ∀ k : Fin 2048, ridx_main_v32 (ix3 b Cert.Attn.lastPos d) k = ix3 b k d := fun k => funext fun a => by
    match a with | ⟨0, _⟩ => rfl | ⟨1, _⟩ => rfl | ⟨2, _⟩ => rfl
  simp only [el, er, weight_apply, v_apply]

/-- The reference's result at batch row `b`, output feature `o`, is the attention of the last query position. -/
theorem result_apply (x0 : (⟨S8x2048x256, .f32⟩ : BufTy).Contents (Elt Ideal)) (x1 : (⟨S256x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 : (⟨S1024, .f32⟩ : BufTy).Contents (Elt Ideal)) (x7 : (⟨S1024x1024, .f32⟩ : BufTy).Contents (Elt Ideal))
    (x8 : (⟨S1024, .f32⟩ : BufTy).Contents (Elt Ideal)) (x9 : (⟨S1024x256, .f32⟩ : BufTy).Contents (Elt Ideal))
    (x10 : (⟨S256, .f32⟩ : BufTy).Contents (Elt Ideal)) (b : Fin 8) (o : Fin 256) :
    val_main_v38 x0 x1 x2 x3 x4 x5 x6 x7 x8 x9 x10 (ix2 b o)
      = Cert.Attn.result (fun b p i => x0 (ix3 b p i)) (fun i d => x1 (ix2 i d)) (fun d => x2 (ix1 d))
          (fun d e => x3 (ix2 d e)) (fun e => x4 (ix1 e)) (fun d e => x5 (ix2 d e)) (fun e => x6 (ix1 e))
          (fun d e => x7 (ix2 d e)) (fun e => x8 (ix1 e)) (fun d o => x9 (ix2 d o)) (fun o => x10 (ix1 o))
          (val_main_v17 (F := Ideal) ix0) b o := by
  rw [val_main_v38_apply, val_main_v35_apply, val_main_v37_apply, val_main_v36_apply, Ideal.addf_def]
  unfold Cert.Attn.result Cert.Attn.outProj
  have el : ∀ d : Fin 1024, idx_main_v33 (idx_main_v34 (lidx_main_v35 (ix2 b o) d)) = ix3 b Cert.Attn.lastPos d := fun d =>
    funext fun a => Fin.ext (by
      have hb := b.isLt
      have hd := d.isLt
      match a with
      | ⟨0, _⟩ => show (b.val * 1024 + d.val) / 1024 = b.val; omega
      | ⟨1, _⟩ => rfl
      | ⟨2, _⟩ => show (b.val * 1024 + d.val) % 1024 = d.val; omega)
  have er : ∀ d : Fin 1024, ridx_main_v35 (ix2 b o) d = ix2 d o := fun d => funext fun a => by
    match a with | ⟨0, _⟩ => rfl | ⟨1, _⟩ => rfl
  have eb : idx_main_v36 (idx_main_v37 (ix2 b o)) = ix1 o := funext fun a => by
    match a with | ⟨0, _⟩ => rfl
  simp only [val_main_v34_apply, val_main_v33_apply, el, er, eb, attend_apply]

end Cert.ReferenceIdeal.RefAttn

end
-- ==== Proof.FiniteArgs.lean ====
/-
  From the precondition to real entries. The precondition states, for each of the eleven argument arrays, that the
  conjunction over all its entries of `|x| < +∞` is true, and the conjunction of the eleven. At the extended reals
  `|x| = max x (-x)`, so `|x| < +∞` excludes both `x = +∞` and `x = -∞` (whose negation is `+∞`): what remains of
  an extended real is a real number.
-/
import proofs.«121378_j18708877541425_2_alg».proof.Defs
import proofs.«121378_j18708877541425_2_alg».proof.Proof.Gen.Pre_finite_inputs
import Idealize.ShloMosaic.Lib.ReduceAll
import Idealize.ShloMosaic.Lib.ValueIdx

noncomputable section

namespace Cert.KernelIdeal.FiniteArgs

open Idealize.ShloMosaic Idealize.SL.Sem

/-! ## One entry -/

/-- The pattern `0x7F800000` of the 32-bit format denotes `+∞`. -/
theorem inf_eq_top : Ideal.ofBits .f32 0x7F800000#32 = (⊤ : EReal) := by
  simp [Ideal.ofBits, Ideal.ieee]

/-- A one-bit word made from a truth value is 1 exactly when the value is true. -/
theorem ofBool_eq_one (b : Bool) : BitVec.ofBool b = 1#1 ↔ b = true := by cases b <;> decide

/-- An extended real whose absolute value is below `+∞` is a real number. -/
theorem real_of_abs_lt (x : EReal) (h : max x (-x) < ⊤) : ∃ r : ℝ, x = (r : EReal) := by
  induction x using EReal.rec with
  | bot => exact absurd h (by simp)
  | coe r => exact ⟨r, rfl⟩
  | top => exact absurd h (by simp)

/-- The printed comparison `|x| < 0x7F800000` that answers 1 makes `x` a real number. -/
theorem real_of_cmp (x : Ideal .f32)
    (h : FloatOps.cmpf (F := Ideal) .olt (FloatOps.hostAbsf x) (FloatOps.ofBits .f32 0x7F800000#32) = 1#1) :
    ∃ r : ℝ, x = ((r : ℝ) : EReal) := by
  rw [Ideal.ofBits_def, inf_eq_top] at h
  have h' : BitVec.ofBool (decide (max x (-x) < (⊤ : EReal))) = 1#1 := h
  rw [ofBool_eq_one, decide_eq_true_eq] at h'
  exact real_of_abs_lt x h'

/-! ## One array -/

/-- An array whose conjunction over all entries of `|x| < +∞` is true holds a real number at every entry.
    (The conjunction's result has the shape of a single truth value, which has one index, so every entry
    of the array takes part in it.) -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1)
    (i : s.Idx) : ∃ r : ℝ, x i = ((r : ℝ) : EReal) := by
  haveI : Subsingleton Cert.Pre_finite_inputs.S_.Idx := ⟨fun _ _ => funext fun d => d.elim0⟩
  exact real_of_cmp (x i) (Host.reduce_andi_all _ _ hr hu ValueIdx.ix0 e i)

/-! ## The eleven arrays -/

/-- Under the precondition every entry of every argument array is a real number. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = ((r : ℝ) : EReal))
    ∧ (∀ i, ∃ r : ℝ, m ((c.tc : Thread Cert.KernelIdeal.nD Cert.KernelIdeal.τ).loc Cert.KernelIdeal.main_arg1) i = ((r : ℝ) : EReal))
    ∧ (∀ i, ∃ r : ℝ, m ((c.tc : Thread Cert.KernelIdeal.nD Cert.KernelIdeal.τ).loc Cert.KernelIdeal.main_arg2) i = ((r : ℝ) : EReal))
    ∧ (∀ i, ∃ r : ℝ, m ((c.tc : Thread Cert.KernelIdeal.nD Cert.KernelIdeal.τ).loc Cert.KernelIdeal.main_arg3) i = ((r : ℝ) : EReal))
    ∧ (∀ i, ∃ r : ℝ, m ((c.tc : Thread Cert.KernelIdeal.nD Cert.KernelIdeal.τ).loc Cert.KernelIdeal.main_arg4) i = ((r : ℝ) : EReal))
    ∧ (∀ i, ∃ r : ℝ, m ((c.tc : Thread Cert.KernelIdeal.nD Cert.KernelIdeal.τ).loc Cert.KernelIdeal.main_arg5) i = ((r : ℝ) : EReal))
    ∧ (∀ i, ∃ r : ℝ, m ((c.tc : Thread Cert.KernelIdeal.nD Cert.KernelIdeal.τ).loc Cert.KernelIdeal.main_arg6) i = ((r : ℝ) : EReal))
    ∧ (∀ i, ∃ r : ℝ, m ((c.tc : Thread Cert.KernelIdeal.nD Cert.KernelIdeal.τ).loc Cert.KernelIdeal.main_arg7) i = ((r : ℝ) : EReal))
    ∧ (∀ i, ∃ r : ℝ, m ((c.tc : Thread Cert.KernelIdeal.nD Cert.KernelIdeal.τ).loc Cert.KernelIdeal.main_arg8) i = ((r : ℝ) : EReal))
    ∧ (∀ i, ∃ r : ℝ, m ((c.tc : Thread Cert.KernelIdeal.nD Cert.KernelIdeal.τ).loc Cert.KernelIdeal.main_arg9) i = ((r : ℝ) : EReal))
    ∧ (∀ i, ∃ r : ℝ, m ((c.tc : Thread Cert.KernelIdeal.nD Cert.KernelIdeal.τ).loc Cert.KernelIdeal.main_arg10) i = ((r : ℝ) : EReal)) := by
  have e := congrFun (h c) ValueIdx.ix0
  dsimp only [Cert.Pre_finite_inputs.fn, Cert.Pre_finite_inputs.fn_part1, Cert.Pre_finite_inputs.fn_part2,
    Cert.Pre_finite_inputs.fn_part3] at e
  simp only [andi, IntOp.andi_eq_one] at e
  obtain ⟨⟨⟨⟨⟨⟨⟨⟨⟨⟨e0, e1⟩, e2⟩, e3⟩, e4⟩, e5⟩, e6⟩, e7⟩, e8⟩, e9⟩, e10⟩ := e
  exact ⟨real_of_all _ _ _ _ e0,
    real_of_all _ _ _ _ e1,
    real_of_all _ _ _ _ e2,
    real_of_all _ _ _ _ e3,
    real_of_all _ _ _ _ e4,
    real_of_all _ _ _ _ e5,
    real_of_all _ _ _ _ e6,
    real_of_all _ _ _ _ e7,
    real_of_all _ _ _ _ e8,
    real_of_all _ _ _ _ e9,
    real_of_all _ _ _ _ e10⟩

end Cert.KernelIdeal.FiniteArgs

end
-- ==== Proof.lean ====
/-
  Single-head self-attention of which only the LAST query position is returned, computed two ways, is one function of the
  eleven argument arrays over the extended reals.

  The reference forms hidden states `h = x·Wi + bi`, the projections `Q, K, V = h·W + b`, the full score matrix scaled by
  `1/√1024`, a softmax over the 2048 key positions (the row maximum taken from -∞, the exponentials, their sum from 0, the
  quotient), the weighted sum of the value rows, keeps the last query row, and projects it: `· Wo + bo`.

  The kernel computes the last query row `Q[b, 2047, ·]` on the host, then visits the 2048 key positions of each batch row in
  four tiles of 512. It carries a running maximum `m`, a running denominator `l` and a running numerator `acc`, started from
  (-∞, 0, 0); a tile with scaled scores `s` and value rows `V` moves them to `m' = max m (max s)`,
  `l' = exp (m - m')·l + ∑ exp (s k - m')`, `acc' = exp (m - m')·acc + ∑ exp (s k - m')·V k`; after the row's last tile it
  stores `(acc / l)·Wo + bo`. Its scale is the float word for 1/32, which is 1/√1024 exactly.

  Why they agree. The projections are the same sums of products on both sides, whatever the values. The softmax average is
  unchanged when every score is shifted by the same real, so the running maximum need not be the row maximum: it only has to be
  a real, the same in numerator and denominator, and `exp (m - m')·exp (s - m) = exp (s - m')` re-bases what was accumulated
  under an older maximum. These laws are laws of the reals — at an infinite score the extended reals' `∞ - ∞` and `0·∞` would
  break them — so this is where the precondition is used: every argument entry is a real number, hence so is every hidden
  state, projection and score. The first tile's start from -∞ is absorbed by `exp (-∞) = 0` and `0·0 = 0`.

  The modules: AttnSpec (the function, and the tile-by-tile accumulation beside it), OnlineSoftmax and AttnReal (the law above,
  on reals, then for real argument arrays), RefIsAttn (the reference's result at an index is the function), Pieces / Chain
  (what the body leaves in the carried scratch and the output block, point by point), MatIdx / PayIdx / TileIdx (the body's
  arithmetic at an index), Blocks / HostIn (what each window reads, and what the host operations before the region wrote),
  KernelIsAttn (the kernel's state after each tile is the accumulation's), KernelValue (the result array after the run), FiniteArgs
  (the precondition makes every argument entry a real).
-/
import proofs.«121378_j18708877541425_2_alg».proof.Defs
import proofs.«121378_j18708877541425_2_alg».proof.Proof.Gen.Kernel
import proofs.«121378_j18708877541425_2_alg».proof.Proof.Gen.Kernel.Skeleton
import proofs.«121378_j18708877541425_2_alg».proof.Proof.Gen.Kernel.Launch
import proofs.«121378_j18708877541425_2_alg».proof.Proof.Gen.Kernel.Points
import proofs.«121378_j18708877541425_2_alg».proof.Proof.Gen.Kernel.Frame
import proofs.«121378_j18708877541425_2_alg».proof.Proof.Gen.KernelIdeal
import proofs.«121378_j18708877541425_2_alg».proof.Proof.Gen.KernelIdeal.Skeleton
import proofs.«121378_j18708877541425_2_alg».proof.Proof.Gen.KernelIdeal.Launch
import proofs.«121378_j18708877541425_2_alg».proof.Proof.Gen.KernelIdeal.Points
import proofs.«121378_j18708877541425_2_alg».proof.Proof.Gen.KernelIdeal.Frame
import proofs.«121378_j18708877541425_2_alg».proof.Proof.Gen.ReferenceIdeal
import proofs.«121378_j18708877541425_2_alg».proof.Proof.Gen.ReferenceIdeal.Run
import proofs.«121378_j18708877541425_2_alg».proof.Proof.Gen.ReferenceIdeal.Read
import proofs.«121378_j18708877541425_2_alg».proof.Proof.Gen.Pre_finite_inputs
import proofs.«121378_j18708877541425_2_alg».proof.Proof.KernelValue
import proofs.«121378_j18708877541425_2_alg».proof.Proof.KernelIsAttn
import proofs.«121378_j18708877541425_2_alg».proof.Proof.RefIsAttn
import proofs.«121378_j18708877541425_2_alg».proof.Proof.FiniteArgs
import Idealize.ShloMosaic.Adequacy
import Idealize.ShloMosaic.Init

noncomputable section

namespace Cert.Proof.AttnClaims

open Idealize.ShloMosaic Idealize.ShloMosaic.TcCoe Idealize.SL.Sem Idealize.ShloMosaic.ValueIdx

/-- The kernel program's result at (b, o) is the output block of batch row `b`'s last grid point at `o`: the result is
    the [8,1,256] output array with its unit axis dropped, and row `b` of that array is what point `4b + 3` wrote back. -/
theorem result_at (m : (ℓ : Loc Cert.KernelIdeal.nD Cert.KernelIdeal.τ Cert.KernelIdeal.sig) → Buf (Elt Ideal) ℓ) (c : Dev Cert.KernelIdeal.nD) (b : Fin 8) (o : Fin 256) :
    (Cert.KernelIdeal.KernelValue.result m c : Cert.KernelIdeal.S8x256.Idx → EReal) (ix2 b o)
      = (Cert.KernelIdeal.Chain.outAt m c (Cert.KernelIdeal.KernelValue.lastPt b) (ix3 (0 : Fin 1) (0 : Fin 1) o) : EReal) := by
  unfold Cert.KernelIdeal.KernelValue.result
  refine (shapeCast_apply _ _ (ix2 b o) (ix3 b (0 : Fin 1) o) (by
    rw [Shape.rowMajor_val_three, Shape.rowMajor_val_two]
    show (b.val * 1 + 0) * 256 + o.val = b.val * 256 + o.val
    omega)).trans ?_
  rfl

/-- Under the precondition the kernel's result at (b, o) is the attention function of the argument arrays: the row's
    state after its four tiles is the tile-by-tile accumulation, whose normalized numerator is the softmax average because
    every score and value is a real. -/
theorem kernel_at (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD)
    (b : Fin 8) (o : Fin 256) :
    (Cert.KernelIdeal.KernelValue.result m c : Cert.KernelIdeal.S8x256.Idx → EReal) (ix2 b o)
      = Cert.Attn.result (fun b p i => (m ((c.tc : Thread Cert.KernelIdeal.nD Cert.KernelIdeal.τ).loc Cert.KernelIdeal.main_arg0)) (ix3 b p i))
          (fun i d => (m ((c.tc : Thread Cert.KernelIdeal.nD Cert.KernelIdeal.τ).loc Cert.KernelIdeal.main_arg1)) (ix2 i d))
          (fun d => (m ((c.tc : Thread Cert.KernelIdeal.nD Cert.KernelIdeal.τ).loc Cert.KernelIdeal.main_arg2)) (ix1 d))
          (fun d e => (m ((c.tc : Thread Cert.KernelIdeal.nD Cert.KernelIdeal.τ).loc Cert.KernelIdeal.main_arg3)) (ix2 d e))
          (fun e => (m ((c.tc : Thread Cert.KernelIdeal.nD Cert.KernelIdeal.τ).loc Cert.KernelIdeal.main_arg4)) (ix1 e))
          (fun d e => (m ((c.tc : Thread Cert.KernelIdeal.nD Cert.KernelIdeal.τ).loc Cert.KernelIdeal.main_arg5)) (ix2 d e))
          (fun e => (m ((c.tc : Thread Cert.KernelIdeal.nD Cert.KernelIdeal.τ).loc Cert.KernelIdeal.main_arg6)) (ix1 e))
          (fun d e => (m ((c.tc : Thread Cert.KernelIdeal.nD Cert.KernelIdeal.τ).loc Cert.KernelIdeal.main_arg7)) (ix2 d e))
          (fun e => (m ((c.tc : Thread Cert.KernelIdeal.nD Cert.KernelIdeal.τ).loc Cert.KernelIdeal.main_arg8)) (ix1 e))
          (fun d o => (m ((c.tc : Thread Cert.KernelIdeal.nD Cert.KernelIdeal.τ).loc Cert.KernelIdeal.main_arg9)) (ix2 d o))
          (fun o => (m ((c.tc : Thread Cert.KernelIdeal.nD Cert.KernelIdeal.τ).loc Cert.KernelIdeal.main_arg10)) (ix1 o))
          Cert.KernelIdeal.PayIdx.scale b o := by
  obtain ⟨h0, h1, h2, h3, h4, h5, h6, h7, h8, h9, h10⟩ := Cert.KernelIdeal.FiniteArgs.real_of_pre m hpre c
  refine (result_at m c b o).trans ?_
  have hp : Cert.KernelIdeal.KernelValue.lastPt b = Cert.KernelIdeal.KernelIsAttn.pt b ⟨3, by decide⟩ := Fin.ext rfl
  rw [hp]
  refine (Cert.KernelIdeal.KernelIsAttn.out_eq m c b o).trans ?_
  exact (Cert.Attn.result_eq_tiled (Cert.KernelIdeal.KernelIsAttn.X m c) (Cert.KernelIdeal.KernelIsAttn.Wi m c) (Cert.KernelIdeal.KernelIsAttn.bi m c)
    (Cert.KernelIdeal.KernelIsAttn.Wq m c) (Cert.KernelIdeal.KernelIsAttn.bq m c) (Cert.KernelIdeal.KernelIsAttn.Wk m c) (Cert.KernelIdeal.KernelIsAttn.bk m c)
    (Cert.KernelIdeal.KernelIsAttn.Wv m c) (Cert.KernelIdeal.KernelIsAttn.bv m c) (Cert.KernelIdeal.KernelIsAttn.Wo m c) (Cert.KernelIdeal.KernelIsAttn.bo m c)
    Cert.KernelIdeal.PayIdx.scale
    (fun b p i => h0 (ix3 b p i)) (fun i d => h1 (ix2 i d)) (fun d => h2 (ix1 d))
    (fun d e => h3 (ix2 d e)) (fun e => h4 (ix1 e)) (fun d e => h5 (ix2 d e)) (fun e => h6 (ix1 e))
    (fun d e => h7 (ix2 d e)) (fun e => h8 (ix1 e)) ⟨(1 : ℝ) / 32, Cert.KernelIdeal.PayIdx.ofBits_scale⟩ b o).symm

/-- The reference's result at (b, o): the specification's function of its argument arrays, at the scale 1/32. -/
theorem reference_at (m' : (ℓ : Loc Cert.ReferenceIdeal.nD Cert.ReferenceIdeal.τ Cert.ReferenceIdeal.sig) → Buf (Elt Ideal) ℓ) (c : Dev Cert.ReferenceIdeal.nD) (b : Fin 8) (o : Fin 256) :
    (Cert.ReferenceIdeal.Value.res_main_v38 m' c : Cert.ReferenceIdeal.S8x256.Idx → EReal) (ix2 b o)
      = Cert.Attn.result (fun b p i => (m' ((c.tc : Thread Cert.ReferenceIdeal.nD Cert.ReferenceIdeal.τ).loc Cert.ReferenceIdeal.main_arg0)) (ix3 b p i))
          (fun i d => (m' ((c.tc : Thread Cert.ReferenceIdeal.nD Cert.ReferenceIdeal.τ).loc Cert.ReferenceIdeal.main_arg1)) (ix2 i d))
          (fun d => (m' ((c.tc : Thread Cert.ReferenceIdeal.nD Cert.ReferenceIdeal.τ).loc Cert.ReferenceIdeal.main_arg2)) (ix1 d))
          (fun d e => (m' ((c.tc : Thread Cert.ReferenceIdeal.nD Cert.ReferenceIdeal.τ).loc Cert.ReferenceIdeal.main_arg3)) (ix2 d e))
          (fun e => (m' ((c.tc : Thread Cert.ReferenceIdeal.nD Cert.ReferenceIdeal.τ).loc Cert.ReferenceIdeal.main_arg4)) (ix1 e))
          (fun d e => (m' ((c.tc : Thread Cert.ReferenceIdeal.nD Cert.ReferenceIdeal.τ).loc Cert.ReferenceIdeal.main_arg5)) (ix2 d e))
          (fun e => (m' ((c.tc : Thread Cert.ReferenceIdeal.nD Cert.ReferenceIdeal.τ).loc Cert.ReferenceIdeal.main_arg6)) (ix1 e))
          (fun d e => (m' ((c.tc : Thread Cert.ReferenceIdeal.nD Cert.ReferenceIdeal.τ).loc Cert.ReferenceIdeal.main_arg7)) (ix2 d e))
          (fun e => (m' ((c.tc : Thread Cert.ReferenceIdeal.nD Cert.ReferenceIdeal.τ).loc Cert.ReferenceIdeal.main_arg8)) (ix1 e))
          (fun d o => (m' ((c.tc : Thread Cert.ReferenceIdeal.nD Cert.ReferenceIdeal.τ).loc Cert.ReferenceIdeal.main_arg9)) (ix2 d o))
          (fun o => (m' ((c.tc : Thread Cert.ReferenceIdeal.nD Cert.ReferenceIdeal.τ).loc Cert.ReferenceIdeal.main_arg10)) (ix1 o))
          Cert.KernelIdeal.PayIdx.scale b o := by
  rw [Cert.ReferenceIdeal.Read.val_main_v38_eq, Cert.ReferenceIdeal.RefAttn.result_apply, Cert.ReferenceIdeal.RefAttn.scale_eq, ← Cert.KernelIdeal.PayIdx.ofBits_scale]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Both programs run to completion with their arguments unchanged, and from memories that agree on the arguments their
    results are one array: entry (b, o) of each is the attention function of the arguments (`kernel_at`, `reference_at`). -/
theorem algebraic : Cert.algebraic_KernelIdeal_ReferenceIdeal := by
  intro m ρ m' ρ' hpre hagree
  refine ⟨fun c => Cert.KernelIdeal.KernelValue.result m c, Cert.KernelIdeal.KernelValue.run (F := Ideal) m ρ, ?_⟩
  refine (θ_run Cert.ReferenceIdeal.defs _ _).mono (fun _ h c => ⟨(h c).1.trans ?_, (h c).2⟩) (Cert.ReferenceIdeal.Value.run (F := Ideal) m' ρ')
  funext i
  obtain ⟨b, o, rfl⟩ : ∃ (b : Fin 8) (o : Fin 256), i = ix2 b o := ⟨i 0, i 1, eq_ix2 i⟩
  refine (reference_at m' c b o).trans ?_
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]
  exact (kernel_at m hpre c b o).symm

end Cert.Proof.AttnClaims

namespace Cert.Proof

theorem claim : Cert.Claim :=
  ⟨Cert.Kernel.Gen.facts, Cert.KernelIdeal.Gen.facts, Cert.ReferenceIdeal.Gen.facts, Cert.Pre_finite_inputs.Gen.facts,
    AttnClaims.frame_k, AttnClaims.frame_ki, AttnClaims.frame_ri, AttnClaims.preserves, AttnClaims.algebraic⟩

end Cert.Proof

end
